-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S3072x1024 : Shape := ⟨2, ![3072, 1024]⟩
abbrev S3072 : Shape := ⟨1, ![3072]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S8x2048x1024 .f32) (main_arg1 : FVec F S3072x1024 .f32) (main_arg2 : FVec F S3072 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S8x2048x1024 : Shape := ⟨3, ![8, 2048, 1024]⟩
abbrev S3072x1024 : Shape := ⟨2, ![3072, 1024]⟩
abbrev S3072 : Shape := ⟨1, ![3072]⟩
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x256x1024 : Shape := ⟨3, ![1, 256, 1024]⟩
abbrev S256x2048 : Shape := ⟨2, ![256, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S512x1024 : Shape := ⟨2, ![512, 1024]⟩
abbrev S1x512x1024 : Shape := ⟨3, ![1, 512, 1024]⟩

abbrev nBuf : Space → Nat
  | .hbm => 12
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S3072, .f32⟩
  | .hbm, ⟨3, _⟩ => ⟨S16384x1024, .f32⟩
  | .hbm, ⟨4, _⟩ => ⟨S3072x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S8x2048x1024, .bf16⟩
  | .hbm, ⟨9, _⟩ => ⟨S8x2048x1024, .bf16⟩
  | .hbm, ⟨10, _⟩ => ⟨S8x2048x1024, .bf16⟩
  | .hbm, ⟨11, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x2048x1024, .f32⟩
  | .local _ .vmem, ⟨19, _⟩ => ⟨S1x2048x1024, .f32⟩
  | .local _ .vmem, ⟨20, _⟩ => ⟨S256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_4 : BitVec 32 := 0#32
  let v13 : BitVec 1 := Scalar.cmpi .ne v12 c0_i32_4
  v13

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_5 : BitVec 32 := 0#32
  let v16 : BitVec 1 := Scalar.cmpi .ne v15 c0_i32_5
  v16

def k0_cond3 (i : grid0.Coords) : BitVec 1 :=
  let arg1 : BitVec 32 := BitVec.ofNat 32 (i 1).val
  let c2_i32 : BitVec 32 := 2#32
  let v17 : BitVec 1 := Scalar.cmpi .eq arg1 c2_i32
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 8], ![false, false]⟩

@[reducible] def k1_t1_loop : Scf.Loop 32 :=
  let c0_i32_15 : BitVec 32 := 0#32
  let c4_i32 : BitVec 32 := 4#32
  let v27 : BitVec 32 := Scalar.addi c0_i32_15 c4_i32
  let c1_i32 : BitVec 32 := 1#32
  ⟨c0_i32_15, v27, c1_i32⟩
def k1_mult1 (k1_t1 : Fin k1_t1_loop.trips) : BitVec 32 :=
  let c0_i32_15 : BitVec 32 := 0#32
  let c1_i32 : BitVec 32 := 1#32
  let arg7 : BitVec 32 := Scf.iv c0_i32_15 c1_i32 k1_t1
  let c512_i32 : BitVec 32 := 512#32
  let v28 : BitVec 32 := Scalar.muli arg7 c512_i32
  v28
def k1_off1 (k1_t1 : Fin k1_t1_loop.trips) : Fin 2 → Nat :=
  let c0_17 : Index := 0#32
  let c0_i32_15 : BitVec 32 := 0#32
  let c1_i32 : BitVec 32 := 1#32
  let arg7 : BitVec 32 := Scf.iv c0_i32_15 c1_i32 k1_t1
  let c512_i32 : BitVec 32 := 512#32
  let v28 : BitVec 32 := Scalar.muli arg7 c512_i32
  let v29 : BitVec 32 := v28
  let v30 : Index := Scalar.indexCast v29
  ![0, v30.toNat]
def k1_off2 (k1_t1 : Fin k1_t1_loop.trips) : Fin 3 → Nat :=
  let c0_19 : Index := 0#32
  let c0_i32_15 : BitVec 32 := 0#32
  let c1_i32 : BitVec 32 := 1#32
  let arg7 : BitVec 32 := Scf.iv c0_i32_15 c1_i32 k1_t1
  let c512_i32 : BitVec 32 := 512#32
  let v28 : BitVec 32 := Scalar.muli arg7 c512_i32
  let v29 : BitVec 32 := v28
  let v33 : Index := Scalar.indexCast v29
  let c0_20 : Index := 0#32
  ![0, v33.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S8x2048x1024_S16384x1024 : S8x2048x1024.ShapeCasts S16384x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x2048_S256 : S256x2048.Reduces [1] S256
  shapeCasts_S256_S256x1 : S256.ShapeCasts S256x1
  broadcasts_S256x1_S256x2048 : S256x1.Broadcasts S256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  h_S256x512 : 0 < S256x512.numel
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x1024_S1024x1024_1_1_0_0_n_n_wf : DotDims.WF S1024x1024 S1024x1024 S1024x1024 [1] [1] [0] [0] [] []
  dot_S256x1024_S2048x1024_S256x2048_1_1_0_0_n_n_wf : DotDims.WF S256x1024 S2048x1024 S256x2048 [1] [1] [0] [0] [] []
  dot_S256x512_S256x1024_S512x1024_0_0_1_1_n_n_wf : DotDims.WF S256x512 S256x1024 S512x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .bf16 = 32 ∨ (Rect.block (s := S3072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S3072.size a
  hwx0_2 : ∀ i : grid0.Coords, EltTy.bits .f32 = 32 ∨ (Rect.block (s := S3072) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S256x512.size a ≤ S256x2048.size a
  k1_off2_inb : ∀ k1_t1 : Fin k1_t1_loop.trips, ∀ a, (k1_off2 k1_t1) a + S1x512x1024.size a ≤ S1x2048x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x2048x1024.size a
  hwx1_0 : ∀ i : grid1.Coords, EltTy.bits .bf16 = 32 ∨ (Rect.block (s := S8x2048x1024) S1x2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S8x2048x1024.size a
  hwx1_1 : ∀ i : grid1.Coords, EltTy.bits .bf16 = 32 ∨ (Rect.block (s := S8x2048x1024) S1x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S8x2048x1024.size a
  hwx1_2 : ∀ i : grid1.Coords, EltTy.bits .bf16 = 32 ∨ (Rect.block (s := S8x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S8x2048x1024.size a
  hwx1_3 : ∀ i : grid1.Coords, EltTy.bits .f32 = 32 ∨ (Rect.block (s := S8x2048x1024) S1x2048x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x512_S256x1024_S512x1024_0_0_1_1_n_n : DotDims S256x512 S256x1024 S512x1024 where
  lhsContracting := [0]
  rhsContracting := [0]
  lhsNonContracting := [1]
  rhsNonContracting := [1]
  lhsBatch := []
  rhsBatch := []
  wf := dot_S256x512_S256x1024_S512x1024_0_0_1_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond1 i == 1#1) | 4 => fun i => !(k0_cond2 i == 1#1) | 5 => fun i => !(k0_cond3 i == 1#1) | ⟨_ + 6, h⟩ => absurd h (Nat.not_lt.2 (Nat.le_add_left _ _))

abbrev win1_0 : Pipeline.Window sig grid1 :=
  Pipeline.Window.ofSpec (Memref.whole main_v3) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S3072x1024 : Shape := ⟨2, ![3072, 1024]⟩
abbrev S3072 : Shape := ⟨1, ![3072]⟩
abbrev S8x2048x3072 : Shape := ⟨3, ![8, 2048, 3072]⟩
abbrev S1x1x3072 : Shape := ⟨3, ![1, 1, 3072]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S3072, .f32⟩
  | .hbm, ⟨3, _⟩ => ⟨S8x2048x3072, .f32⟩
  | .hbm, ⟨4, _⟩ => ⟨S1x1x3072, .f32⟩
  | .hbm, ⟨5, _⟩ => ⟨S8x2048x3072, .f32⟩
  | .hbm, ⟨6, _⟩ => ⟨S8x2048x3072, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S_, .f32⟩
  | .hbm, ⟨17, _⟩ => ⟨S8x2048, .f32⟩
  | .hbm, ⟨18, _⟩ => ⟨S8x2048, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  slices_S8x2048x3072_S8x2048x1024_0_0_0 : S8x2048x3072.Slices ![0, 0, 0] S8x2048x1024
  slices_S8x2048x3072_S8x2048x1024_0_0_1024 : S8x2048x3072.Slices ![0, 0, 1024] S8x2048x1024
  slices_S8x2048x3072_S8x2048x1024_0_0_2048 : S8x2048x3072.Slices ![0, 0, 2048] S8x2048x1024
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S3072x1024_S8x2048x3072_2_1_01_0_n_n_wf : DotDims.WF S8x2048x1024 S3072x1024 S8x2048x3072 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S3072x1024_S8x2048x3072_2_1_01_0_n_n : DotDims S8x2048x1024 S3072x1024 S8x2048x3072 where
  lhsContracting := [2]
  rhsContracting := [1]
  lhsNonContracting := [0, 1]
  rhsNonContracting := [0]
  lhsBatch := []
  rhsBatch := []
  wf := dot_S8x2048x1024_S3072x1024_S8x2048x3072_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.Region0.lean ====
/-
  The projection kernel (the first of the two kernel regions), at any float instance: each grid point (i, j) multiplies
  the i-th block of 1024 rows of x by the j-th block of 1024 rows of W (transposed), adds the j-th block of b, and
  stores the product into the j-th of its three outputs; the other two outputs are left alone at that point.  Stated
  here: the conditions of the three stores in closed form, what one run of the body does in each of the three cases,
  what every output's staging buffer holds after each point, and the body obligation of the pipeline.
-/
import proofs.«103110_j15822659518595_2_alg».proof.Proof.Gen.Kernel.Launch
import proofs.«103110_j15822659518595_2_alg».proof.Proof.Gen.Kernel.Skeleton
import proofs.«103110_j15822659518595_2_alg».proof.Proof.Gen.Kernel.Points
import proofs.«103110_j15822659518595_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## Blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The three conditions, decided over the grid -/

theorem hc1 : ∀ t : Fin cfg0.N, k0_cond1 (grid0.coords t) = 1#1 ↔ t.val % 3 = 0 :=
  (by decide +kernel : ∀ t : Fin grid0.N, k0_cond1 (grid0.coords t) = 1#1 ↔ t.val % 3 = 0)
theorem hc2 : ∀ t : Fin cfg0.N, k0_cond2 (grid0.coords t) = 1#1 ↔ t.val % 3 = 1 :=
  (by decide +kernel : ∀ t : Fin grid0.N, k0_cond2 (grid0.coords t) = 1#1 ↔ t.val % 3 = 1)
theorem hc3 : ∀ t : Fin cfg0.N, k0_cond3 (grid0.coords t) = 1#1 ↔ t.val % 3 = 2 :=
  (by decide +kernel : ∀ t : Fin grid0.N, k0_cond3 (grid0.coords t) = 1#1 ↔ t.val % 3 = 2)

/-! ## One run of the body -/

abbrev rM : Rect S1024x1024 := Rect.unit (s := S1024x1024) ![0, 0] S1024x1024.size inb_S1024x1024_S1024x1024_0_0
abbrev rB : Rect S1024 := Rect.unit (s := S1024) ![0] S1024.size inb_S1024_S1024_0

/-- The block the body stores: the payload of its three loads, through the one whole-block store. -/
def outP (x0 : Vec F S1024x1024 .f32) (x1 : Vec F S1024x1024 .bf16) (x2 : Vec F S1024 .f32) : Vec F S1024x1024 .bf16 :=
  View.canon [⟨rM, k0_pay1 (View.ld x0 rM) (View.ld x1 rM) (View.ld x2 rB)⟩]

theorem coverP (p0 : Vec F S1024x1024 .bf16) (y : S1024x1024.Idx) :
    ∃ pc ∈ ([⟨rM, p0⟩] : List (View.Piece (Elt F) S1024x1024 .bf16)), y ∈ pc.1.set :=
  View.cover_of_tiled [⟨rM, p0⟩] S1024x1024.size (by rfl) y

set_option maxHeartbeats 1000000 in
theorem sound_kernel0_A (c : Dev nD) (E : Set ℕ) (i : grid0.Coords)
    (arg2 : Memref sig .tc .vmem S1024x1024 .f32) (harg2 : arg2.IsWhole) (arg3 : Memref sig .tc .vmem S1024x1024 .bf16) (harg3 : arg3.IsWhole)
    (arg4 : Memref sig .tc .vmem S1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (h1 : k0_cond1 i = 1#1) (h2 : ¬ k0_cond2 i = 1#1) (h3 : ¬ k0_cond3 i = 1#1)
    (x0 : Vec F S1024x1024 .f32) (x1 : Vec F S1024x1024 .bf16) (x2 : Vec F S1024 .f32)
    (ya yb : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare ya ∗ owns (c : Thread nD τ) arg7 fullShare yb
        ∗ (iprop(owns (c : Thread nD τ) arg2 fullShare x0 ∗ owns (c : Thread nD τ) arg3 fullShare x1 ∗ owns (c : Thread nD τ) arg4 fullShare x2
            ∗ owns (c : Thread nD τ) arg5 fullShare (outP x0 x1 x2) ∗ owns (c : Thread nD τ) arg6 fullShare ya ∗ owns (c : Thread nD τ) arg7 fullShare yb) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, Hk⟩
  subst hf0; subst hf1; subst hf2; subst hf6; subst hf7
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact View.read_writes_eq_canon _ _ _ (coverP _)
  isplitl [H6]
  · iexists f6; isplitr; · ipureintro; rfl
    iexact H6
  iexists f7; isplitr; · ipureintro; rfl
  iexact H7

set_option maxHeartbeats 1000000 in
theorem sound_kernel0_B (c : Dev nD) (E : Set ℕ) (i : grid0.Coords)
    (arg2 : Memref sig .tc .vmem S1024x1024 .f32) (harg2 : arg2.IsWhole) (arg3 : Memref sig .tc .vmem S1024x1024 .bf16) (harg3 : arg3.IsWhole)
    (arg4 : Memref sig .tc .vmem S1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (h1 : ¬ k0_cond1 i = 1#1) (h2 : k0_cond2 i = 1#1) (h3 : ¬ k0_cond3 i = 1#1)
    (x0 : Vec F S1024x1024 .f32) (x1 : Vec F S1024x1024 .bf16) (x2 : Vec F S1024 .f32)
    (ya yb : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare ya ∗ (∃ d, owns (c : Thread nD τ) arg6 fullShare d) ∗ owns (c : Thread nD τ) arg7 fullShare yb
        ∗ (iprop(owns (c : Thread nD τ) arg2 fullShare x0 ∗ owns (c : Thread nD τ) arg3 fullShare x1 ∗ owns (c : Thread nD τ) arg4 fullShare x2
            ∗ owns (c : Thread nD τ) arg5 fullShare ya ∗ owns (c : Thread nD τ) arg6 fullShare (outP x0 x1 x2) ∗ owns (c : Thread nD τ) arg7 fullShare yb) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f5, %hf5, H5⟩, ⟨%d6, %f6, -, H6⟩, ⟨%f7, %hf7, H7⟩, Hk⟩
  subst hf0; subst hf1; subst hf2; subst hf5; subst hf7
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H6]
  · iexists _; isplitr
    swap; · iexact H6
    ipureintro
    exact View.read_writes_eq_canon _ _ _ (coverP _)
  iexists f7; isplitr; · ipureintro; rfl
  iexact H7

set_option maxHeartbeats 1000000 in
theorem sound_kernel0_C (c : Dev nD) (E : Set ℕ) (i : grid0.Coords)
    (arg2 : Memref sig .tc .vmem S1024x1024 .f32) (harg2 : arg2.IsWhole) (arg3 : Memref sig .tc .vmem S1024x1024 .bf16) (harg3 : arg3.IsWhole)
    (arg4 : Memref sig .tc .vmem S1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (h1 : ¬ k0_cond1 i = 1#1) (h2 : ¬ k0_cond2 i = 1#1) (h3 : k0_cond3 i = 1#1)
    (x0 : Vec F S1024x1024 .f32) (x1 : Vec F S1024x1024 .bf16) (x2 : Vec F S1024 .f32)
    (ya yb : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare ya ∗ owns (c : Thread nD τ) arg6 fullShare yb ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare ya ∗ owns (c : Thread nD τ) arg6 fullShare yb ∗ owns (c : Thread nD τ) arg7 fullShare (outP x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f5, %hf5, H5⟩, ⟨%f6, %hf6, H6⟩, ⟨%d7, %f7, -, H7⟩, Hk⟩
  subst hf0; subst hf1; subst hf2; subst hf5; subst hf6
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverP _)

/-! ## What the outputs' staging buffers hold after each point -/

/-- The block point `t` computes from its three input blocks. -/
def blkP (c : Dev nD) (t : Fin cfg0.N) : Vec F S1024x1024 .bf16 :=
  outP (iblk0 V c 0 t) (iblk0 V c 1 t) (iblk0 V c 2 t)

/-- The staging buffer of the output stored at the points ≡ r (mod 3), after the body at position `n`: the
    point's block where it is stored, and carried from the point before elsewhere. -/
def outsAt0 (r : ℕ) (c : Dev nD) : (n : ℕ) → n < cfg0.N → Vec F S1024x1024 .bf16
  | 0, hn => blkP V c ⟨0, hn⟩
  | n + 1, hn => if (n + 1) % 3 = r then blkP V c ⟨n + 1, hn⟩ else outsAt0 r c n (Nat.lt_of_succ_lt hn)

theorem outsAt0_store (r : ℕ) (c : Dev nD) (t : Fin cfg0.N) (h : t.val % 3 = r) :
    outsAt0 V r c t.val t.isLt = blkP V c t := by
  obtain ⟨n, hn⟩ := t
  cases n with
  | zero => rfl
  | succ n => exact (if_pos h).trans rfl

theorem outsAt0_carry (r : ℕ) (c : Dev nD) (t : Fin cfg0.N) (ht : t.val ≠ 0) (h : ¬ t.val % 3 = r) :
    outsAt0 V r c t.val t.isLt = outsAt0 V r c (t.val - 1) (Nat.lt_of_le_of_lt (Nat.sub_le _ _) t.isLt) := by
  obtain ⟨n, hn⟩ := t
  cases n with
  | zero => exact absurd rfl ht
  | succ n => exact (if_neg h).trans rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V 0 c t.val t.isLt
    | ⟨4, _⟩ => outsAt0 V 1 c t.val t.isLt
    | ⟨5, _⟩ => outsAt0 V 2 c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V 0 c t.val t.isLt := by dsimp only [dat0]
theorem after0_4 (c : Dev nD) (t : Fin cfg0.N) : (dat0 V c).after 4 t = outsAt0 V 1 c t.val t.isLt := by dsimp only [dat0]
theorem after0_5 (c : Dev nD) (t : Fin cfg0.N) : (dat0 V c).after 5 t = outsAt0 V 2 c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Where the outputs are idle, and where their buffers hold a stored block -/

theorem idle0_3 : ∀ t : Fin cfg0.N, idle0 3 (grid0.coords t) = !decide (t.val % 3 = 0) :=
  (by decide +kernel : ∀ t : Fin grid0.N, idle0 3 (grid0.coords t) = !decide (t.val % 3 = 0))
theorem idle0_4 : ∀ t : Fin cfg0.N, idle0 4 (grid0.coords t) = !decide (t.val % 3 = 1) :=
  (by decide +kernel : ∀ t : Fin grid0.N, idle0 4 (grid0.coords t) = !decide (t.val % 3 = 1))
theorem idle0_5 : ∀ t : Fin cfg0.N, idle0 5 (grid0.coords t) = !decide (t.val % 3 = 2) :=
  (by decide +kernel : ∀ t : Fin grid0.N, idle0 5 (grid0.coords t) = !decide (t.val % 3 = 2))

/-- At the last point of a row block the first output's buffer still holds the block stored two points before. -/
theorem fresh0_3 : ∀ t : Fin cfg0.N, t.val % 3 = 2 → cfg0.fresh 3 t.val = false :=
  (by decide +kernel : ∀ t : Fin grid0.N, t.val % 3 = 2 → cfg0.fresh 3 t.val = false)
theorem fresh0_4 : ∀ t : Fin cfg0.N, t.val % 3 = 2 → cfg0.fresh 4 t.val = false :=
  (by decide +kernel : ∀ t : Fin grid0.N, t.val % 3 = 2 → cfg0.fresh 4 t.val = false)

theorem before0_3_C (c : Dev nD) (t : Fin cfg0.N) (h : t.val % 3 = 2) (d) : (dat0 V c).before 3 t d = (dat0 V c).after 3 t := by
  have hcarry : ∀ (t : Fin cfg0.N) (_ : t.val ≠ 0), cfg0.idle 3 (cfg0.grid.coords t) = true → cfg0.fresh 3 t.val = false →
      (dat0 V c).after 3 t = (dat0 V c).after 3 ⟨t.val - 1, by omega⟩ := by
    intro t ht hi _
    rw [after0_3, after0_3]
    refine outsAt0_carry V 0 c t ht ?_
    intro h0; have hi' : idle0 3 (grid0.coords t) = true := hi; rw [idle0_3 t, h0] at hi'; exact absurd hi' (by decide)
  rw [Pipeline.Dat.before_out_traj (dat0 V c) 3 rfl (fun _ _ => rfl) hcarry t.val t rfl d, fresh0_3 t h, if_neg Bool.false_ne_true]
  rw [after0_3, after0_3]
  exact (outsAt0_carry V 0 c t (by omega) (by omega)).symm

theorem before0_4_C (c : Dev nD) (t : Fin cfg0.N) (h : t.val % 3 = 2) (d) : (dat0 V c).before 4 t d = (dat0 V c).after 4 t := by
  have hcarry : ∀ (t : Fin cfg0.N) (_ : t.val ≠ 0), cfg0.idle 4 (cfg0.grid.coords t) = true → cfg0.fresh 4 t.val = false →
      (dat0 V c).after 4 t = (dat0 V c).after 4 ⟨t.val - 1, by omega⟩ := by
    intro t ht hi _
    rw [after0_4, after0_4]
    refine outsAt0_carry V 1 c t ht ?_
    intro h0; have hi' : idle0 4 (grid0.coords t) = true := hi; rw [idle0_4 t, h0] at hi'; exact absurd hi' (by decide)
  rw [Pipeline.Dat.before_out_traj (dat0 V c) 4 rfl (fun _ _ => rfl) hcarry t.val t rfl d, fresh0_4 t h, if_neg Bool.false_ne_true]
  rw [after0_4, after0_4]
  exact (outsAt0_carry V 1 c t (by omega) (by omega)).symm

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0_A (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (∃ d, owns (c : Thread nD τ) (st0_4 t) fullShare ((dat0 V c).before 4 t d))
    ∗ (∃ d, owns (c : Thread nD τ) (st0_5 t) fullShare ((dat0 V c).before 5 t d)))

def bodyPost0_B (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (∃ d, owns (c : Thread nD τ) (st0_3 t) fullShare ((dat0 V c).before 3 t d))
    ∗ owns (c : Thread nD τ) (st0_4 t) fullShare ((dat0 V c).after 4 t)
    ∗ (∃ d, owns (c : Thread nD τ) (st0_5 t) fullShare ((dat0 V c).before 5 t d)))

def bodyPost0_C (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0_A (c : Dev nD) (t : Fin cfg0.N) (h : t.val % 3 = 0) :
    bodyPre0 V c t ⊢ wp frame (wpE (defs₀ (F := F)) Variants.none c none) Set.univ (bodyAt0 t) (fun _ => bodyPost0_A V c t) := by
  unfold bodyPre0 bodyPost0_A bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, outsAt0_store V 0 c t h]
  unfold blkP
  iintro ⟨HΦ, Ho, ⟨%d0, H0⟩, ⟨%d1, H1⟩, ⟨%d2, H2⟩, ⟨%d3, H3⟩, ⟨%d4, H4⟩, ⟨%d5, H5⟩⟩
  iapply (sound_kernel0_A c Set.univ (grid0.coords t) _ _ _ _ _ _ _ _ _ _ _ _ ((hc1 t).mpr h) (fun e => by have := (hc2 t).mp e; omega) (fun e => by have := (hc3 t).mp e; omega)
    (iblk0 V c 0 t) (iblk0 V c 1 t) (iblk0 V c 2 t) _ _ _)
  isplitl [H0]; · iexact H0
  isplitl [H1]; · iexact H1
  isplitl [H2]; · iexact H2
  isplitl [H3]; · iexists _; iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists _; iexact H4
  iexists _; iexact H5

theorem sound_body0_B (c : Dev nD) (t : Fin cfg0.N) (h : t.val % 3 = 1) :
    bodyPre0 V c t ⊢ wp frame (wpE (defs₀ (F := F)) Variants.none c none) Set.univ (bodyAt0 t) (fun _ => bodyPost0_B V c t) := by
  unfold bodyPre0 bodyPost0_B bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_4, outsAt0_store V 1 c t h]
  unfold blkP
  iintro ⟨HΦ, Ho, ⟨%d0, H0⟩, ⟨%d1, H1⟩, ⟨%d2, H2⟩, ⟨%d3, H3⟩, ⟨%d4, H4⟩, ⟨%d5, H5⟩⟩
  iapply (sound_kernel0_B c Set.univ (grid0.coords t) _ _ _ _ _ _ _ _ _ _ _ _ (fun e => by have := (hc1 t).mp e; omega) ((hc2 t).mpr h) (fun e => by have := (hc3 t).mp e; omega)
    (iblk0 V c 0 t) (iblk0 V c 1 t) (iblk0 V c 2 t) _ _ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexists _; iexact H3
  isplitl [H4]; · iexact H4
  iexists _; iexact H5

theorem sound_body0_C (c : Dev nD) (t : Fin cfg0.N) (h : t.val % 3 = 2) :
    bodyPre0 V c t ⊢ wp frame (wpE (defs₀ (F := F)) Variants.none c none) Set.univ (bodyAt0 t) (fun _ => bodyPost0_C V c t) := by
  unfold bodyPre0 bodyPost0_C bodyAt0
  simp only [before0_0, before0_1, before0_2, before0_3_C V c t h, before0_4_C V c t h]
  rw [show (dat0 V c).Φ t.succ = (dat0 V c).Φ t.castSucc from rfl,
    show (dat0 V c).owesAt () t.succ = (dat0 V c).owesAt () t.castSucc from rfl,
    after0_0, after0_1, after0_2, after0_5, outsAt0_store V 2 c t h]
  unfold blkP
  iintro ⟨HΦ, Ho, ⟨%d0, H0⟩, ⟨%d1, H1⟩, ⟨%d2, H2⟩, ⟨%d3, H3⟩, ⟨%d4, H4⟩, ⟨%d5, H5⟩⟩
  iapply (sound_kernel0_C c Set.univ (grid0.coords t) _ _ _ _ _ _ _ _ _ _ _ _ (fun e => by have := (hc1 t).mp e; omega) (fun e => by have := (hc2 t).mp e; omega) ((hc3 t).mpr h)
    (iblk0 V c 0 t) (iblk0 V c 1 t) (iblk0 V c 2 t) _ _ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation at every point: the point's residue mod 3 says which output is live and which
    buffers are written back, and the case's run applies. -/
theorem body_obligation0 (c : Dev nD) : BodyObligation (dat0 (F := F) V c) (defs₀ (F := F)) Variants.none () Set.univ := fun t => by
  rw [bigSep_W0, bigSep_W0]
  have hm : t.val % 3 < 3 := Nat.mod_lt _ (by decide)
  rcases (show t.val % 3 = 0 ∨ t.val % 3 = 1 ∨ t.val % 3 = 2 by omega) with h | h | h
  · have i3 : idle0 3 (grid0.coords t) = false := by rw [idle0_3 t, h]; rfl
    have i4 : idle0 4 (grid0.coords t) = true := by rw [idle0_4 t, h]; rfl
    have i5 : idle0 5 (grid0.coords t) = true := by rw [idle0_5 t, h]; rfl
    have f4 : (win0 4).flush t = false := Bool.eq_false_iff.mpr fun e => by have := (flush0_4 t).mp e; omega
    have f5 : (win0 5).flush t = false := Bool.eq_false_iff.mpr fun e => by have := (flush0_5 t).mp e; omega
    dsimp only
    rw [i3, i4, i5, f4, f5]
    dsimp only
    exact sound_body0_A V c t h
  · have i3 : idle0 3 (grid0.coords t) = true := by rw [idle0_3 t, h]; rfl
    have i4 : idle0 4 (grid0.coords t) = false := by rw [idle0_4 t, h]; rfl
    have i5 : idle0 5 (grid0.coords t) = true := by rw [idle0_5 t, h]; rfl
    have f3 : (win0 3).flush t = false := Bool.eq_false_iff.mpr fun e => by have := (flush0_3 t).mp e; omega
    have f5 : (win0 5).flush t = false := Bool.eq_false_iff.mpr fun e => by have := (flush0_5 t).mp e; omega
    dsimp only
    rw [i3, i4, i5, f3, f5]
    dsimp only
    exact sound_body0_B V c t h
  · have i3 : idle0 3 (grid0.coords t) = true := by rw [idle0_3 t, h]; rfl
    have i4 : idle0 4 (grid0.coords t) = true := by rw [idle0_4 t, h]; rfl
    have i5 : idle0 5 (grid0.coords t) = false := by rw [idle0_5 t, h]; rfl
    have f3 : (win0 3).flush t = true := (flush0_3 t).mpr h
    have f4 : (win0 4).flush t = true := (flush0_4 t).mpr h
    dsimp only
    rw [i3, i4, i5, f3, f4]
    dsimp only
    exact sound_body0_C V c t h

end Region0

end Cert.Kernel.Hand

end
-- ==== Proof.K.R1Base.lean ====
/-
  The attention kernel's body is called with four staging memrefs and one scratch buffer; its one branch asks whether
  the point is the first key block of its batch.  Names for these, shared by the runs of the body.
-/
import proofs.«103110_j15822659518595_2_alg».proof.Proof.Gen.Kernel.Launch
import proofs.«103110_j15822659518595_2_alg».proof.Proof.Gen.Kernel.Skeleton
import proofs.«103110_j15822659518595_2_alg».proof.Proof.Gen.Kernel.Points
import proofs.«103110_j15822659518595_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This point is the first key block of its batch", as the body computes it from the grid coordinates. -/
abbrev cond1 (i : grid1.Coords) : Prop := (Scalar.cmpi .ne (Scalar.extui (Scalar.cmpi .eq (BitVec.ofNat 32 (i 1).val) 0#32)) 0#32) = 1#1

theorem hcond1 : ∀ t : Fin cfg1.N, cond1 (grid1.coords t) ↔ t.val % 8 = 0 :=
  (by decide +kernel : ∀ t : Fin grid1.N, cond1 (grid1.coords t) ↔ t.val % 8 = 0)

abbrev VO1 : View sig .tc .vmem S1x2048x1024 .f32 := (Memref.whole cc1_stg3_0 : Memref sig .tc .vmem S1x2048x1024 .f32).view
abbrev ms1_0 (t : Fin cfg1.N) : Memref sig .tc .vmem S1x2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x1024 .f32 := win1_3.stage (cfg1.slots t 3)
abbrev hs1_3 (t : Fin cfg1.N) : (ms1_3 t).IsWhole := hstage1_3 ((cfg1.slots t 3).cast nbuf1_3)
/-- The scratch buffer that holds the normalised score block within a point. -/
abbrev scM1 : Memref sig .tc .vmem S256x2048 .bf16 := Memref.whole cc1_scratch0
abbrev hscM1 : scM1.IsWhole := Memref.isWhole_whole _

end Cert.Kernel.Hand

end
-- ==== Proof.K.R1RunA.lean ====
/-
  One run of the attention kernel's body at the first key block of a batch (the output block is zeroed first):
  the pieces the output's buffer ends with are what the run finds.
-/
import proofs.«103110_j15822659518595_2_alg».proof.Proof.Gen.Kernel.Launch
import proofs.«103110_j15822659518595_2_alg».proof.Proof.Gen.Kernel.Skeleton
import proofs.«103110_j15822659518595_2_alg».proof.Proof.Gen.Kernel.Points
import proofs.«103110_j15822659518595_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import proofs.«103110_j15822659518595_2_alg».proof.Proof.K.R1Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : cond1 i)
    (x0 : Vec F S1x2048x1024 .bf16) (x1 : Vec F S1x256x1024 .bf16) (x2 : Vec F S1x256x1024 .bf16) :
    { L5 : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ d, owns (c : Thread nD τ) arg6 fullShare d)) -∗ K ⟨⟩))
          ⊢ wp frame (wpE (defs₀ (F := F)) Variants.none c none) E (cc1__attn_kernel i arg2 harg2 arg3 harg3 arg4 harg4 arg5 harg5 arg6 harg6) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexists _; isplitr
    swap; · iexact H6
    ipureintro; rfl

end Cert.Kernel.Hand

end
-- ==== Proof.K.R1RunB.lean ====
/-
  One run of the attention kernel's body at a later key block of a batch (the output block holds the sum so far):
  the pieces the output's buffer ends with are what the run finds.
-/
import proofs.«103110_j15822659518595_2_alg».proof.Proof.Gen.Kernel.Launch
import proofs.«103110_j15822659518595_2_alg».proof.Proof.Gen.Kernel.Skeleton
import proofs.«103110_j15822659518595_2_alg».proof.Proof.Gen.Kernel.Points
import proofs.«103110_j15822659518595_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import proofs.«103110_j15822659518595_2_alg».proof.Proof.K.R1Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : ¬ cond1 i)
    (x0 : Vec F S1x2048x1024 .bf16) (x1 : Vec F S1x256x1024 .bf16) (x2 : Vec F S1x256x1024 .bf16) (xo : Vec F S1x2048x1024 .f32) :
    { L5 : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ d, owns (c : Thread nD τ) arg6 fullShare d)) -∗ K ⟨⟩))
          ⊢ wp frame (wpE (defs₀ (F := F)) Variants.none c none) E (cc1__attn_kernel i arg2 harg2 arg3 harg3 arg4 harg4 arg5 harg5 arg6 harg6) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexists _; isplitr
    swap; · iexact H6
    ipureintro; rfl

end Cert.Kernel.Hand

end
-- ==== Proof.K.Region1.lean ====
/-
  The attention kernel (the second kernel region), at any float instance.  Grid point (b, j) takes all 2048 query rows
  of batch b and the j-th block of 256 key and value rows, forms the 256 × 2048 block of scaled scores, normalises every
  row of it by a softmax over the 2048 queries, keeps the result in a scratch buffer, and adds (in four chunks of 512
  query rows, one per loop trip) the product of its transpose with the value block into the output block of batch b,
  which is zeroed first when j = 0.  Stated here: one run of the body in each of its two cases, what the output's
  staging buffer holds after every point, and the pipeline's body obligation.
-/
import proofs.«103110_j15822659518595_2_alg».proof.Proof.Gen.Kernel.Launch
import proofs.«103110_j15822659518595_2_alg».proof.Proof.Gen.Kernel.Skeleton
import proofs.«103110_j15822659518595_2_alg».proof.Proof.Gen.Kernel.Points
import proofs.«103110_j15822659518595_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import proofs.«103110_j15822659518595_2_alg».proof.Proof.K.R1RunA
import proofs.«103110_j15822659518595_2_alg».proof.Proof.K.R1RunB
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## Blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer -/

/-- In the first case the zero fill and the four chunks tile the output block. -/
theorem cover1_A (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : cond1 i) (x0 : Vec F S1x2048x1024 .bf16) (x1 : Vec F S1x256x1024 .bf16) (x2 : Vec F S1x256x1024 .bf16) (y : S1x2048x1024.Idx) :
    ∃ pc ∈ (kernelRun1_A c i arg2 harg2 arg3 harg3 arg4 harg4 arg5 harg5 arg6 harg6 hc x0 x1 x2).1, y ∈ pc.1.set :=
  View.cover_of_tiledL (kernelRun1_A c i arg2 harg2 arg3 harg3 arg4 harg4 arg5 harg5 arg6 harg6 hc x0 x1 x2).1 S1x2048x1024.size (by sl_kernel_rfl) y

def out1_A (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : cond1 i) (x0 : Vec F S1x2048x1024 .bf16) (x1 : Vec F S1x256x1024 .bf16) (x2 : Vec F S1x256x1024 .bf16) : Vec F S1x2048x1024 .f32 :=
  VO1.read (Elt F) (VO1.writes (Elt F) VO1.junk (kernelRun1_A c i arg2 harg2 arg3 harg3 arg4 harg4 arg5 harg5 arg6 harg6 hc x0 x1 x2).1)

/-- In the other case the four chunks tile it. -/
theorem cover1_B (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : ¬ cond1 i) (x0 : Vec F S1x2048x1024 .bf16) (x1 : Vec F S1x256x1024 .bf16) (x2 : Vec F S1x256x1024 .bf16) (xo : Vec F S1x2048x1024 .f32) (y : S1x2048x1024.Idx) :
    ∃ pc ∈ (kernelRun1_B c i arg2 harg2 arg3 harg3 arg4 harg4 arg5 harg5 arg6 harg6 hc x0 x1 x2 xo).1, y ∈ pc.1.set :=
  View.cover_of_tiledL (kernelRun1_B c i arg2 harg2 arg3 harg3 arg4 harg4 arg5 harg5 arg6 harg6 hc x0 x1 x2 xo).1 S1x512x1024.size (by sl_kernel_rfl) y

def out1_B (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : ¬ cond1 i) (x0 : Vec F S1x2048x1024 .bf16) (x1 : Vec F S1x256x1024 .bf16) (x2 : Vec F S1x256x1024 .bf16) (xo : Vec F S1x2048x1024 .f32) : Vec F S1x2048x1024 .f32 :=
  VO1.read (Elt F) (VO1.writes (Elt F) VO1.junk (kernelRun1_B c i arg2 harg2 arg3 harg3 arg4 harg4 arg5 harg5 arg6 harg6 hc x0 x1 x2 xo).1)

/-! ## What the output's staging buffer holds after each point -/

/-- The accumulation over the key blocks of a batch: at the first block of a batch the first case's contents, at
    every other block the second case's over what the point before left. -/
def outsAt1 (c : Dev nD) : (n : ℕ) → n < cfg1.N → Vec F S1x2048x1024 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 hscM1 ((hcond1 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 8 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 hscM1 ((hcond1 ⟨n + 1, hn⟩).mpr h0) (iblk1 V c 0 ⟨n + 1, hn⟩) (iblk1 V c 1 ⟨n + 1, hn⟩) (iblk1 V c 2 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 hscM1 (fun h => h0 ((hcond1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 8 = 0) :
    outsAt1 V c t.val t.isLt = out1_A c (grid1.coords t) (ms1_0 t) (hs1_0 t) (ms1_1 t) (hs1_1 t) (ms1_2 t) (hs1_2 t) (ms1_3 t) (hs1_3 t) scM1 hscM1 ((hcond1 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬ t.val % 8 = 0) :
    outsAt1 V c t.val t.isLt = out1_B c (grid1.coords t) (ms1_0 t) (hs1_0 t) (ms1_1 t) (hs1_1 t) (ms1_2 t) (hs1_2 t) (ms1_3 t) (hs1_3 t) scM1 hscM1 (fun h => h0 ((hcond1 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Away from the first key block of a batch the output's buffer holds what the point before left: it is written
    back only after the last key block. -/
theorem before1_3_B (c : Dev nD) (t : Fin cfg1.N) (h0 : ¬ t.val % 8 = 0) (d) :
    (dat1 V c).before 3 t d = outsAt1 V c (t.val - 1) (Nat.lt_of_le_of_lt (Nat.sub_le _ _) t.isLt) := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The invariant: the other kernel's staging buffers, the scratch, the generator register -/

abbrev anyAt (c : Dev nD) (b : Ref sig .tc) : sProp 𝕄 :=
  iprop(∃ f : Buf (Elt F) ((c : Thread nD τ).loc b), ((c : Thread nD τ).loc b) ↦{fullShare} f)

theorem PhiA1_eq (c : Dev nD) :
    (Pipeline.ΦA spec1 c : sProp 𝕄)
      = iprop((anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ anyAt c cc0_stg4_0 ∗ anyAt c cc0_stg4_1 ∗ anyAt c cc0_stg5_0 ∗ anyAt c cc0_stg5_1 ∗ (∃ d, owns (c : Thread nD τ) scM1 fullShare d)) ∗ (∃ r, prngReg c r)) := by
  unfold Pipeline.ΦA; rw [scopedRest1_eq]; simp only [scM1, owns_whole]; try rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, PhiA1_eq]
  by_cases h0 : t.val % 8 = 0
  · rw [outsAt1_A V c t h0]
    unfold out1_A
    iintro ⟨⟨⟨S0, S1, S2, S3, S4, S5, S6, S7, S8, S9, S10, S11, HS⟩, Hg⟩, Ho, ⟨%d0, H0⟩, ⟨%d1, H1⟩, ⟨%d2, H2⟩, ⟨%d3, H3⟩⟩
    iapply ((kernelRun1_A c (grid1.coords t) _ _ _ _ _ _ _ _ _ _ ((hcond1 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [S0 S1 S2 S3 S4 S5 S6 S7 S8 S9 S10 S11 HS Hg]
    · isplitl [S0 S1 S2 S3 S4 S5 S6 S7 S8 S9 S10 S11 HS]
      swap; · iexact Hg
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact HS
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A c _ _ _ _ _ _ _ _ _ _ _ _ _ _ _)
  · rw [outsAt1_B V c t h0]
    simp only [before1_3_B V c t h0]
    unfold out1_B
    iintro ⟨⟨⟨S0, S1, S2, S3, S4, S5, S6, S7, S8, S9, S10, S11, HS⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, HS⟩
    isplitl [S0 S1 S2 S3 S4 S5 S6 S7 S8 S9 S10 S11 HS Hg]
    · isplitl [S0 S1 S2 S3 S4 S5 S6 S7 S8 S9 S10 S11 HS]
      swap; · iexact Hg
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact HS
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The whole program as a run: its four items — two host stretches (a reshape of x and a rounding of W; three reshapes
  of the projections) and the two kernel regions — chained from the launch memory to the end, with the contents of every
  buffer named at each boundary.  Every weakly fair execution terminates without a fault and ends with every unscoped
  buffer at the last boundary's contents: the three arguments as launched, the result at what the attention region's
  write-backs leave.
-/
import proofs.«103110_j15822659518595_2_alg».proof.Proof.Gen.Kernel.Launch
import proofs.«103110_j15822659518595_2_alg».proof.Proof.Gen.Kernel.Skeleton
import proofs.«103110_j15822659518595_2_alg».proof.Proof.Gen.Kernel.Points
import proofs.«103110_j15822659518595_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import proofs.«103110_j15822659518595_2_alg».proof.Proof.K.Region0
import proofs.«103110_j15822659518595_2_alg».proof.Proof.K.Region1
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: x reshaped to 16384 × 1024, W rounded. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its three outputs at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the three projections reshaped to 8 × 2048 × 1024. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernel regions as items -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` terminates without a fault, and every final memory
    holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.Kernel.Hand

end
-- ==== Proof.KI.Region0.lean ====
/-
  The projection kernel (the first of the two kernel regions), at any float instance: each grid point (i, j) multiplies
  the i-th block of 1024 rows of x by the j-th block of 1024 rows of W (transposed), adds the j-th block of b, and
  stores the product into the j-th of its three outputs; the other two outputs are left alone at that point.  Stated
  here: the conditions of the three stores in closed form, what one run of the body does in each of the three cases,
  what every output's staging buffer holds after each point, and the body obligation of the pipeline.
-/
import proofs.«103110_j15822659518595_2_alg».proof.Proof.Gen.KernelIdeal.Launch
import proofs.«103110_j15822659518595_2_alg».proof.Proof.Gen.KernelIdeal.Skeleton
import proofs.«103110_j15822659518595_2_alg».proof.Proof.Gen.KernelIdeal.Points
import proofs.«103110_j15822659518595_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## Blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The three conditions, decided over the grid -/

theorem hc1 : ∀ t : Fin cfg0.N, k0_cond1 (grid0.coords t) = 1#1 ↔ t.val % 3 = 0 :=
  (by decide +kernel : ∀ t : Fin grid0.N, k0_cond1 (grid0.coords t) = 1#1 ↔ t.val % 3 = 0)
theorem hc2 : ∀ t : Fin cfg0.N, k0_cond2 (grid0.coords t) = 1#1 ↔ t.val % 3 = 1 :=
  (by decide +kernel : ∀ t : Fin grid0.N, k0_cond2 (grid0.coords t) = 1#1 ↔ t.val % 3 = 1)
theorem hc3 : ∀ t : Fin cfg0.N, k0_cond3 (grid0.coords t) = 1#1 ↔ t.val % 3 = 2 :=
  (by decide +kernel : ∀ t : Fin grid0.N, k0_cond3 (grid0.coords t) = 1#1 ↔ t.val % 3 = 2)

/-! ## One run of the body -/

abbrev rM : Rect S1024x1024 := Rect.unit (s := S1024x1024) ![0, 0] S1024x1024.size inb_S1024x1024_S1024x1024_0_0
abbrev rB : Rect S1024 := Rect.unit (s := S1024) ![0] S1024.size inb_S1024_S1024_0

/-- The block the body stores: the payload of its three loads, through the one whole-block store. -/
def outP (x0 : Vec F S1024x1024 .f32) (x1 : Vec F S1024x1024 .bf16) (x2 : Vec F S1024 .f32) : Vec F S1024x1024 .bf16 :=
  View.canon [⟨rM, k0_pay1 (View.ld x0 rM) (View.ld x1 rM) (View.ld x2 rB)⟩]

theorem coverP (p0 : Vec F S1024x1024 .bf16) (y : S1024x1024.Idx) :
    ∃ pc ∈ ([⟨rM, p0⟩] : List (View.Piece (Elt F) S1024x1024 .bf16)), y ∈ pc.1.set :=
  View.cover_of_tiled [⟨rM, p0⟩] S1024x1024.size (by rfl) y

set_option maxHeartbeats 1000000 in
theorem sound_kernel0_A (c : Dev nD) (E : Set ℕ) (i : grid0.Coords)
    (arg2 : Memref sig .tc .vmem S1024x1024 .f32) (harg2 : arg2.IsWhole) (arg3 : Memref sig .tc .vmem S1024x1024 .bf16) (harg3 : arg3.IsWhole)
    (arg4 : Memref sig .tc .vmem S1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (h1 : k0_cond1 i = 1#1) (h2 : ¬ k0_cond2 i = 1#1) (h3 : ¬ k0_cond3 i = 1#1)
    (x0 : Vec F S1024x1024 .f32) (x1 : Vec F S1024x1024 .bf16) (x2 : Vec F S1024 .f32)
    (ya yb : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare ya ∗ owns (c : Thread nD τ) arg7 fullShare yb
        ∗ (iprop(owns (c : Thread nD τ) arg2 fullShare x0 ∗ owns (c : Thread nD τ) arg3 fullShare x1 ∗ owns (c : Thread nD τ) arg4 fullShare x2
            ∗ owns (c : Thread nD τ) arg5 fullShare (outP x0 x1 x2) ∗ owns (c : Thread nD τ) arg6 fullShare ya ∗ owns (c : Thread nD τ) arg7 fullShare yb) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, Hk⟩
  subst hf0; subst hf1; subst hf2; subst hf6; subst hf7
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact View.read_writes_eq_canon _ _ _ (coverP _)
  isplitl [H6]
  · iexists f6; isplitr; · ipureintro; rfl
    iexact H6
  iexists f7; isplitr; · ipureintro; rfl
  iexact H7

set_option maxHeartbeats 1000000 in
theorem sound_kernel0_B (c : Dev nD) (E : Set ℕ) (i : grid0.Coords)
    (arg2 : Memref sig .tc .vmem S1024x1024 .f32) (harg2 : arg2.IsWhole) (arg3 : Memref sig .tc .vmem S1024x1024 .bf16) (harg3 : arg3.IsWhole)
    (arg4 : Memref sig .tc .vmem S1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (h1 : ¬ k0_cond1 i = 1#1) (h2 : k0_cond2 i = 1#1) (h3 : ¬ k0_cond3 i = 1#1)
    (x0 : Vec F S1024x1024 .f32) (x1 : Vec F S1024x1024 .bf16) (x2 : Vec F S1024 .f32)
    (ya yb : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare ya ∗ (∃ d, owns (c : Thread nD τ) arg6 fullShare d) ∗ owns (c : Thread nD τ) arg7 fullShare yb
        ∗ (iprop(owns (c : Thread nD τ) arg2 fullShare x0 ∗ owns (c : Thread nD τ) arg3 fullShare x1 ∗ owns (c : Thread nD τ) arg4 fullShare x2
            ∗ owns (c : Thread nD τ) arg5 fullShare ya ∗ owns (c : Thread nD τ) arg6 fullShare (outP x0 x1 x2) ∗ owns (c : Thread nD τ) arg7 fullShare yb) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f5, %hf5, H5⟩, ⟨%d6, %f6, -, H6⟩, ⟨%f7, %hf7, H7⟩, Hk⟩
  subst hf0; subst hf1; subst hf2; subst hf5; subst hf7
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H6]
  · iexists _; isplitr
    swap; · iexact H6
    ipureintro
    exact View.read_writes_eq_canon _ _ _ (coverP _)
  iexists f7; isplitr; · ipureintro; rfl
  iexact H7

set_option maxHeartbeats 1000000 in
theorem sound_kernel0_C (c : Dev nD) (E : Set ℕ) (i : grid0.Coords)
    (arg2 : Memref sig .tc .vmem S1024x1024 .f32) (harg2 : arg2.IsWhole) (arg3 : Memref sig .tc .vmem S1024x1024 .bf16) (harg3 : arg3.IsWhole)
    (arg4 : Memref sig .tc .vmem S1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (h1 : ¬ k0_cond1 i = 1#1) (h2 : ¬ k0_cond2 i = 1#1) (h3 : k0_cond3 i = 1#1)
    (x0 : Vec F S1024x1024 .f32) (x1 : Vec F S1024x1024 .bf16) (x2 : Vec F S1024 .f32)
    (ya yb : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare ya ∗ owns (c : Thread nD τ) arg6 fullShare yb ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare ya ∗ owns (c : Thread nD τ) arg6 fullShare yb ∗ owns (c : Thread nD τ) arg7 fullShare (outP x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f5, %hf5, H5⟩, ⟨%f6, %hf6, H6⟩, ⟨%d7, %f7, -, H7⟩, Hk⟩
  subst hf0; subst hf1; subst hf2; subst hf5; subst hf6
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverP _)

/-! ## What the outputs' staging buffers hold after each point -/

/-- The block point `t` computes from its three input blocks. -/
def blkP (c : Dev nD) (t : Fin cfg0.N) : Vec F S1024x1024 .bf16 :=
  outP (iblk0 V c 0 t) (iblk0 V c 1 t) (iblk0 V c 2 t)

/-- The staging buffer of the output stored at the points ≡ r (mod 3), after the body at position `n`: the
    point's block where it is stored, and carried from the point before elsewhere. -/
def outsAt0 (r : ℕ) (c : Dev nD) : (n : ℕ) → n < cfg0.N → Vec F S1024x1024 .bf16
  | 0, hn => blkP V c ⟨0, hn⟩
  | n + 1, hn => if (n + 1) % 3 = r then blkP V c ⟨n + 1, hn⟩ else outsAt0 r c n (Nat.lt_of_succ_lt hn)

theorem outsAt0_store (r : ℕ) (c : Dev nD) (t : Fin cfg0.N) (h : t.val % 3 = r) :
    outsAt0 V r c t.val t.isLt = blkP V c t := by
  obtain ⟨n, hn⟩ := t
  cases n with
  | zero => rfl
  | succ n => exact (if_pos h).trans rfl

theorem outsAt0_carry (r : ℕ) (c : Dev nD) (t : Fin cfg0.N) (ht : t.val ≠ 0) (h : ¬ t.val % 3 = r) :
    outsAt0 V r c t.val t.isLt = outsAt0 V r c (t.val - 1) (Nat.lt_of_le_of_lt (Nat.sub_le _ _) t.isLt) := by
  obtain ⟨n, hn⟩ := t
  cases n with
  | zero => exact absurd rfl ht
  | succ n => exact (if_neg h).trans rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V 0 c t.val t.isLt
    | ⟨4, _⟩ => outsAt0 V 1 c t.val t.isLt
    | ⟨5, _⟩ => outsAt0 V 2 c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V 0 c t.val t.isLt := by dsimp only [dat0]
theorem after0_4 (c : Dev nD) (t : Fin cfg0.N) : (dat0 V c).after 4 t = outsAt0 V 1 c t.val t.isLt := by dsimp only [dat0]
theorem after0_5 (c : Dev nD) (t : Fin cfg0.N) : (dat0 V c).after 5 t = outsAt0 V 2 c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Where the outputs are idle, and where their buffers hold a stored block -/

theorem idle0_3 : ∀ t : Fin cfg0.N, idle0 3 (grid0.coords t) = !decide (t.val % 3 = 0) :=
  (by decide +kernel : ∀ t : Fin grid0.N, idle0 3 (grid0.coords t) = !decide (t.val % 3 = 0))
theorem idle0_4 : ∀ t : Fin cfg0.N, idle0 4 (grid0.coords t) = !decide (t.val % 3 = 1) :=
  (by decide +kernel : ∀ t : Fin grid0.N, idle0 4 (grid0.coords t) = !decide (t.val % 3 = 1))
theorem idle0_5 : ∀ t : Fin cfg0.N, idle0 5 (grid0.coords t) = !decide (t.val % 3 = 2) :=
  (by decide +kernel : ∀ t : Fin grid0.N, idle0 5 (grid0.coords t) = !decide (t.val % 3 = 2))

/-- At the last point of a row block the first output's buffer still holds the block stored two points before. -/
theorem fresh0_3 : ∀ t : Fin cfg0.N, t.val % 3 = 2 → cfg0.fresh 3 t.val = false :=
  (by decide +kernel : ∀ t : Fin grid0.N, t.val % 3 = 2 → cfg0.fresh 3 t.val = false)
theorem fresh0_4 : ∀ t : Fin cfg0.N, t.val % 3 = 2 → cfg0.fresh 4 t.val = false :=
  (by decide +kernel : ∀ t : Fin grid0.N, t.val % 3 = 2 → cfg0.fresh 4 t.val = false)

theorem before0_3_C (c : Dev nD) (t : Fin cfg0.N) (h : t.val % 3 = 2) (d) : (dat0 V c).before 3 t d = (dat0 V c).after 3 t := by
  have hcarry : ∀ (t : Fin cfg0.N) (_ : t.val ≠ 0), cfg0.idle 3 (cfg0.grid.coords t) = true → cfg0.fresh 3 t.val = false →
      (dat0 V c).after 3 t = (dat0 V c).after 3 ⟨t.val - 1, by omega⟩ := by
    intro t ht hi _
    rw [after0_3, after0_3]
    refine outsAt0_carry V 0 c t ht ?_
    intro h0; have hi' : idle0 3 (grid0.coords t) = true := hi; rw [idle0_3 t, h0] at hi'; exact absurd hi' (by decide)
  rw [Pipeline.Dat.before_out_traj (dat0 V c) 3 rfl (fun _ _ => rfl) hcarry t.val t rfl d, fresh0_3 t h, if_neg Bool.false_ne_true]
  rw [after0_3, after0_3]
  exact (outsAt0_carry V 0 c t (by omega) (by omega)).symm

theorem before0_4_C (c : Dev nD) (t : Fin cfg0.N) (h : t.val % 3 = 2) (d) : (dat0 V c).before 4 t d = (dat0 V c).after 4 t := by
  have hcarry : ∀ (t : Fin cfg0.N) (_ : t.val ≠ 0), cfg0.idle 4 (cfg0.grid.coords t) = true → cfg0.fresh 4 t.val = false →
      (dat0 V c).after 4 t = (dat0 V c).after 4 ⟨t.val - 1, by omega⟩ := by
    intro t ht hi _
    rw [after0_4, after0_4]
    refine outsAt0_carry V 1 c t ht ?_
    intro h0; have hi' : idle0 4 (grid0.coords t) = true := hi; rw [idle0_4 t, h0] at hi'; exact absurd hi' (by decide)
  rw [Pipeline.Dat.before_out_traj (dat0 V c) 4 rfl (fun _ _ => rfl) hcarry t.val t rfl d, fresh0_4 t h, if_neg Bool.false_ne_true]
  rw [after0_4, after0_4]
  exact (outsAt0_carry V 1 c t (by omega) (by omega)).symm

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0_A (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (∃ d, owns (c : Thread nD τ) (st0_4 t) fullShare ((dat0 V c).before 4 t d))
    ∗ (∃ d, owns (c : Thread nD τ) (st0_5 t) fullShare ((dat0 V c).before 5 t d)))

def bodyPost0_B (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (∃ d, owns (c : Thread nD τ) (st0_3 t) fullShare ((dat0 V c).before 3 t d))
    ∗ owns (c : Thread nD τ) (st0_4 t) fullShare ((dat0 V c).after 4 t)
    ∗ (∃ d, owns (c : Thread nD τ) (st0_5 t) fullShare ((dat0 V c).before 5 t d)))

def bodyPost0_C (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0_A (c : Dev nD) (t : Fin cfg0.N) (h : t.val % 3 = 0) :
    bodyPre0 V c t ⊢ wp frame (wpE (defs₀ (F := F)) Variants.none c none) Set.univ (bodyAt0 t) (fun _ => bodyPost0_A V c t) := by
  unfold bodyPre0 bodyPost0_A bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, outsAt0_store V 0 c t h]
  unfold blkP
  iintro ⟨HΦ, Ho, ⟨%d0, H0⟩, ⟨%d1, H1⟩, ⟨%d2, H2⟩, ⟨%d3, H3⟩, ⟨%d4, H4⟩, ⟨%d5, H5⟩⟩
  iapply (sound_kernel0_A c Set.univ (grid0.coords t) _ _ _ _ _ _ _ _ _ _ _ _ ((hc1 t).mpr h) (fun e => by have := (hc2 t).mp e; omega) (fun e => by have := (hc3 t).mp e; omega)
    (iblk0 V c 0 t) (iblk0 V c 1 t) (iblk0 V c 2 t) _ _ _)
  isplitl [H0]; · iexact H0
  isplitl [H1]; · iexact H1
  isplitl [H2]; · iexact H2
  isplitl [H3]; · iexists _; iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists _; iexact H4
  iexists _; iexact H5

theorem sound_body0_B (c : Dev nD) (t : Fin cfg0.N) (h : t.val % 3 = 1) :
    bodyPre0 V c t ⊢ wp frame (wpE (defs₀ (F := F)) Variants.none c none) Set.univ (bodyAt0 t) (fun _ => bodyPost0_B V c t) := by
  unfold bodyPre0 bodyPost0_B bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_4, outsAt0_store V 1 c t h]
  unfold blkP
  iintro ⟨HΦ, Ho, ⟨%d0, H0⟩, ⟨%d1, H1⟩, ⟨%d2, H2⟩, ⟨%d3, H3⟩, ⟨%d4, H4⟩, ⟨%d5, H5⟩⟩
  iapply (sound_kernel0_B c Set.univ (grid0.coords t) _ _ _ _ _ _ _ _ _ _ _ _ (fun e => by have := (hc1 t).mp e; omega) ((hc2 t).mpr h) (fun e => by have := (hc3 t).mp e; omega)
    (iblk0 V c 0 t) (iblk0 V c 1 t) (iblk0 V c 2 t) _ _ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexists _; iexact H3
  isplitl [H4]; · iexact H4
  iexists _; iexact H5

theorem sound_body0_C (c : Dev nD) (t : Fin cfg0.N) (h : t.val % 3 = 2) :
    bodyPre0 V c t ⊢ wp frame (wpE (defs₀ (F := F)) Variants.none c none) Set.univ (bodyAt0 t) (fun _ => bodyPost0_C V c t) := by
  unfold bodyPre0 bodyPost0_C bodyAt0
  simp only [before0_0, before0_1, before0_2, before0_3_C V c t h, before0_4_C V c t h]
  rw [show (dat0 V c).Φ t.succ = (dat0 V c).Φ t.castSucc from rfl,
    show (dat0 V c).owesAt () t.succ = (dat0 V c).owesAt () t.castSucc from rfl,
    after0_0, after0_1, after0_2, after0_5, outsAt0_store V 2 c t h]
  unfold blkP
  iintro ⟨HΦ, Ho, ⟨%d0, H0⟩, ⟨%d1, H1⟩, ⟨%d2, H2⟩, ⟨%d3, H3⟩, ⟨%d4, H4⟩, ⟨%d5, H5⟩⟩
  iapply (sound_kernel0_C c Set.univ (grid0.coords t) _ _ _ _ _ _ _ _ _ _ _ _ (fun e => by have := (hc1 t).mp e; omega) (fun e => by have := (hc2 t).mp e; omega) ((hc3 t).mpr h)
    (iblk0 V c 0 t) (iblk0 V c 1 t) (iblk0 V c 2 t) _ _ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation at every point: the point's residue mod 3 says which output is live and which
    buffers are written back, and the case's run applies. -/
theorem body_obligation0 (c : Dev nD) : BodyObligation (dat0 (F := F) V c) (defs₀ (F := F)) Variants.none () Set.univ := fun t => by
  rw [bigSep_W0, bigSep_W0]
  have hm : t.val % 3 < 3 := Nat.mod_lt _ (by decide)
  rcases (show t.val % 3 = 0 ∨ t.val % 3 = 1 ∨ t.val % 3 = 2 by omega) with h | h | h
  · have i3 : idle0 3 (grid0.coords t) = false := by rw [idle0_3 t, h]; rfl
    have i4 : idle0 4 (grid0.coords t) = true := by rw [idle0_4 t, h]; rfl
    have i5 : idle0 5 (grid0.coords t) = true := by rw [idle0_5 t, h]; rfl
    have f4 : (win0 4).flush t = false := Bool.eq_false_iff.mpr fun e => by have := (flush0_4 t).mp e; omega
    have f5 : (win0 5).flush t = false := Bool.eq_false_iff.mpr fun e => by have := (flush0_5 t).mp e; omega
    dsimp only
    rw [i3, i4, i5, f4, f5]
    dsimp only
    exact sound_body0_A V c t h
  · have i3 : idle0 3 (grid0.coords t) = true := by rw [idle0_3 t, h]; rfl
    have i4 : idle0 4 (grid0.coords t) = false := by rw [idle0_4 t, h]; rfl
    have i5 : idle0 5 (grid0.coords t) = true := by rw [idle0_5 t, h]; rfl
    have f3 : (win0 3).flush t = false := Bool.eq_false_iff.mpr fun e => by have := (flush0_3 t).mp e; omega
    have f5 : (win0 5).flush t = false := Bool.eq_false_iff.mpr fun e => by have := (flush0_5 t).mp e; omega
    dsimp only
    rw [i3, i4, i5, f3, f5]
    dsimp only
    exact sound_body0_B V c t h
  · have i3 : idle0 3 (grid0.coords t) = true := by rw [idle0_3 t, h]; rfl
    have i4 : idle0 4 (grid0.coords t) = true := by rw [idle0_4 t, h]; rfl
    have i5 : idle0 5 (grid0.coords t) = false := by rw [idle0_5 t, h]; rfl
    have f3 : (win0 3).flush t = true := (flush0_3 t).mpr h
    have f4 : (win0 4).flush t = true := (flush0_4 t).mpr h
    dsimp only
    rw [i3, i4, i5, f3, f4]
    dsimp only
    exact sound_body0_C V c t h

end Region0

end Cert.KernelIdeal.Hand

end
-- ==== Proof.KI.R1Base.lean ====
/-
  The attention kernel's body is called with four staging memrefs and one scratch buffer; its one branch asks whether
  the point is the first key block of its batch.  Names for these, shared by the runs of the body.
-/
import proofs.«103110_j15822659518595_2_alg».proof.Proof.Gen.KernelIdeal.Launch
import proofs.«103110_j15822659518595_2_alg».proof.Proof.Gen.KernelIdeal.Skeleton
import proofs.«103110_j15822659518595_2_alg».proof.Proof.Gen.KernelIdeal.Points
import proofs.«103110_j15822659518595_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This point is the first key block of its batch", as the body computes it from the grid coordinates. -/
abbrev cond1 (i : grid1.Coords) : Prop := (Scalar.cmpi .ne (Scalar.extui (Scalar.cmpi .eq (BitVec.ofNat 32 (i 1).val) 0#32)) 0#32) = 1#1

theorem hcond1 : ∀ t : Fin cfg1.N, cond1 (grid1.coords t) ↔ t.val % 8 = 0 :=
  (by decide +kernel : ∀ t : Fin grid1.N, cond1 (grid1.coords t) ↔ t.val % 8 = 0)

abbrev VO1 : View sig .tc .vmem S1x2048x1024 .f32 := (Memref.whole cc1_stg3_0 : Memref sig .tc .vmem S1x2048x1024 .f32).view
abbrev ms1_0 (t : Fin cfg1.N) : Memref sig .tc .vmem S1x2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x1024 .f32 := win1_3.stage (cfg1.slots t 3)
abbrev hs1_3 (t : Fin cfg1.N) : (ms1_3 t).IsWhole := hstage1_3 ((cfg1.slots t 3).cast nbuf1_3)
/-- The scratch buffer that holds the normalised score block within a point. -/
abbrev scM1 : Memref sig .tc .vmem S256x2048 .bf16 := Memref.whole cc1_scratch0
abbrev hscM1 : scM1.IsWhole := Memref.isWhole_whole _

end Cert.KernelIdeal.Hand

end
-- ==== Proof.KI.R1RunA.lean ====
/-
  One run of the attention kernel's body at the first key block of a batch (the output block is zeroed first):
  the pieces the output's buffer ends with are what the run finds.
-/
import proofs.«103110_j15822659518595_2_alg».proof.Proof.Gen.KernelIdeal.Launch
import proofs.«103110_j15822659518595_2_alg».proof.Proof.Gen.KernelIdeal.Skeleton
import proofs.«103110_j15822659518595_2_alg».proof.Proof.Gen.KernelIdeal.Points
import proofs.«103110_j15822659518595_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import proofs.«103110_j15822659518595_2_alg».proof.Proof.KI.R1Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : cond1 i)
    (x0 : Vec F S1x2048x1024 .bf16) (x1 : Vec F S1x256x1024 .bf16) (x2 : Vec F S1x256x1024 .bf16) :
    { L5 : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ d, owns (c : Thread nD τ) arg6 fullShare d)) -∗ K ⟨⟩))
          ⊢ wp frame (wpE (defs₀ (F := F)) Variants.none c none) E (cc1__attn_kernel i arg2 harg2 arg3 harg3 arg4 harg4 arg5 harg5 arg6 harg6) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexists _; isplitr
    swap; · iexact H6
    ipureintro; rfl

end Cert.KernelIdeal.Hand

end
-- ==== Proof.KI.R1RunB.lean ====
/-
  One run of the attention kernel's body at a later key block of a batch (the output block holds the sum so far):
  the pieces the output's buffer ends with are what the run finds.
-/
import proofs.«103110_j15822659518595_2_alg».proof.Proof.Gen.KernelIdeal.Launch
import proofs.«103110_j15822659518595_2_alg».proof.Proof.Gen.KernelIdeal.Skeleton
import proofs.«103110_j15822659518595_2_alg».proof.Proof.Gen.KernelIdeal.Points
import proofs.«103110_j15822659518595_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import proofs.«103110_j15822659518595_2_alg».proof.Proof.KI.R1Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : ¬ cond1 i)
    (x0 : Vec F S1x2048x1024 .bf16) (x1 : Vec F S1x256x1024 .bf16) (x2 : Vec F S1x256x1024 .bf16) (xo : Vec F S1x2048x1024 .f32) :
    { L5 : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ d, owns (c : Thread nD τ) arg6 fullShare d)) -∗ K ⟨⟩))
          ⊢ wp frame (wpE (defs₀ (F := F)) Variants.none c none) E (cc1__attn_kernel i arg2 harg2 arg3 harg3 arg4 harg4 arg5 harg5 arg6 harg6) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexists _; isplitr
    swap; · iexact H6
    ipureintro; rfl

end Cert.KernelIdeal.Hand

end
-- ==== Proof.KI.Region1.lean ====
/-
  The attention kernel (the second kernel region), at any float instance.  Grid point (b, j) takes all 2048 query rows
  of batch b and the j-th block of 256 key and value rows, forms the 256 × 2048 block of scaled scores, normalises every
  row of it by a softmax over the 2048 queries, keeps the result in a scratch buffer, and adds (in four chunks of 512
  query rows, one per loop trip) the product of its transpose with the value block into the output block of batch b,
  which is zeroed first when j = 0.  Stated here: one run of the body in each of its two cases, what the output's
  staging buffer holds after every point, and the pipeline's body obligation.
-/
import proofs.«103110_j15822659518595_2_alg».proof.Proof.Gen.KernelIdeal.Launch
import proofs.«103110_j15822659518595_2_alg».proof.Proof.Gen.KernelIdeal.Skeleton
import proofs.«103110_j15822659518595_2_alg».proof.Proof.Gen.KernelIdeal.Points
import proofs.«103110_j15822659518595_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import proofs.«103110_j15822659518595_2_alg».proof.Proof.KI.R1RunA
import proofs.«103110_j15822659518595_2_alg».proof.Proof.KI.R1RunB
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## Blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer -/

/-- In the first case the zero fill and the four chunks tile the output block. -/
theorem cover1_A (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : cond1 i) (x0 : Vec F S1x2048x1024 .bf16) (x1 : Vec F S1x256x1024 .bf16) (x2 : Vec F S1x256x1024 .bf16) (y : S1x2048x1024.Idx) :
    ∃ pc ∈ (kernelRun1_A c i arg2 harg2 arg3 harg3 arg4 harg4 arg5 harg5 arg6 harg6 hc x0 x1 x2).1, y ∈ pc.1.set :=
  View.cover_of_tiledL (kernelRun1_A c i arg2 harg2 arg3 harg3 arg4 harg4 arg5 harg5 arg6 harg6 hc x0 x1 x2).1 S1x2048x1024.size (by sl_kernel_rfl) y

def out1_A (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : cond1 i) (x0 : Vec F S1x2048x1024 .bf16) (x1 : Vec F S1x256x1024 .bf16) (x2 : Vec F S1x256x1024 .bf16) : Vec F S1x2048x1024 .f32 :=
  VO1.read (Elt F) (VO1.writes (Elt F) VO1.junk (kernelRun1_A c i arg2 harg2 arg3 harg3 arg4 harg4 arg5 harg5 arg6 harg6 hc x0 x1 x2).1)

/-- In the other case the four chunks tile it. -/
theorem cover1_B (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : ¬ cond1 i) (x0 : Vec F S1x2048x1024 .bf16) (x1 : Vec F S1x256x1024 .bf16) (x2 : Vec F S1x256x1024 .bf16) (xo : Vec F S1x2048x1024 .f32) (y : S1x2048x1024.Idx) :
    ∃ pc ∈ (kernelRun1_B c i arg2 harg2 arg3 harg3 arg4 harg4 arg5 harg5 arg6 harg6 hc x0 x1 x2 xo).1, y ∈ pc.1.set :=
  View.cover_of_tiledL (kernelRun1_B c i arg2 harg2 arg3 harg3 arg4 harg4 arg5 harg5 arg6 harg6 hc x0 x1 x2 xo).1 S1x512x1024.size (by sl_kernel_rfl) y

def out1_B (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole) (hc : ¬ cond1 i) (x0 : Vec F S1x2048x1024 .bf16) (x1 : Vec F S1x256x1024 .bf16) (x2 : Vec F S1x256x1024 .bf16) (xo : Vec F S1x2048x1024 .f32) : Vec F S1x2048x1024 .f32 :=
  VO1.read (Elt F) (VO1.writes (Elt F) VO1.junk (kernelRun1_B c i arg2 harg2 arg3 harg3 arg4 harg4 arg5 harg5 arg6 harg6 hc x0 x1 x2 xo).1)

/-! ## What the output's staging buffer holds after each point -/

/-- The accumulation over the key blocks of a batch: at the first block of a batch the first case's contents, at
    every other block the second case's over what the point before left. -/
def outsAt1 (c : Dev nD) : (n : ℕ) → n < cfg1.N → Vec F S1x2048x1024 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 hscM1 ((hcond1 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 8 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 hscM1 ((hcond1 ⟨n + 1, hn⟩).mpr h0) (iblk1 V c 0 ⟨n + 1, hn⟩) (iblk1 V c 1 ⟨n + 1, hn⟩) (iblk1 V c 2 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 hscM1 (fun h => h0 ((hcond1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 8 = 0) :
    outsAt1 V c t.val t.isLt = out1_A c (grid1.coords t) (ms1_0 t) (hs1_0 t) (ms1_1 t) (hs1_1 t) (ms1_2 t) (hs1_2 t) (ms1_3 t) (hs1_3 t) scM1 hscM1 ((hcond1 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬ t.val % 8 = 0) :
    outsAt1 V c t.val t.isLt = out1_B c (grid1.coords t) (ms1_0 t) (hs1_0 t) (ms1_1 t) (hs1_1 t) (ms1_2 t) (hs1_2 t) (ms1_3 t) (hs1_3 t) scM1 hscM1 (fun h => h0 ((hcond1 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Away from the first key block of a batch the output's buffer holds what the point before left: it is written
    back only after the last key block. -/
theorem before1_3_B (c : Dev nD) (t : Fin cfg1.N) (h0 : ¬ t.val % 8 = 0) (d) :
    (dat1 V c).before 3 t d = outsAt1 V c (t.val - 1) (Nat.lt_of_le_of_lt (Nat.sub_le _ _) t.isLt) := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The invariant: the other kernel's staging buffers, the scratch, the generator register -/

abbrev anyAt (c : Dev nD) (b : Ref sig .tc) : sProp 𝕄 :=
  iprop(∃ f : Buf (Elt F) ((c : Thread nD τ).loc b), ((c : Thread nD τ).loc b) ↦{fullShare} f)

theorem PhiA1_eq (c : Dev nD) :
    (Pipeline.ΦA spec1 c : sProp 𝕄)
      = iprop((anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ anyAt c cc0_stg4_0 ∗ anyAt c cc0_stg4_1 ∗ anyAt c cc0_stg5_0 ∗ anyAt c cc0_stg5_1 ∗ (∃ d, owns (c : Thread nD τ) scM1 fullShare d)) ∗ (∃ r, prngReg c r)) := by
  unfold Pipeline.ΦA; rw [scopedRest1_eq]; simp only [scM1, owns_whole]; try rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, PhiA1_eq]
  by_cases h0 : t.val % 8 = 0
  · rw [outsAt1_A V c t h0]
    unfold out1_A
    iintro ⟨⟨⟨S0, S1, S2, S3, S4, S5, S6, S7, S8, S9, S10, S11, HS⟩, Hg⟩, Ho, ⟨%d0, H0⟩, ⟨%d1, H1⟩, ⟨%d2, H2⟩, ⟨%d3, H3⟩⟩
    iapply ((kernelRun1_A c (grid1.coords t) _ _ _ _ _ _ _ _ _ _ ((hcond1 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [S0 S1 S2 S3 S4 S5 S6 S7 S8 S9 S10 S11 HS Hg]
    · isplitl [S0 S1 S2 S3 S4 S5 S6 S7 S8 S9 S10 S11 HS]
      swap; · iexact Hg
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact HS
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A c _ _ _ _ _ _ _ _ _ _ _ _ _ _ _)
  · rw [outsAt1_B V c t h0]
    simp only [before1_3_B V c t h0]
    unfold out1_B
    iintro ⟨⟨⟨S0, S1, S2, S3, S4, S5, S6, S7, S8, S9, S10, S11, HS⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, HS⟩
    isplitl [S0 S1 S2 S3 S4 S5 S6 S7 S8 S9 S10 S11 HS Hg]
    · isplitl [S0 S1 S2 S3 S4 S5 S6 S7 S8 S9 S10 S11 HS]
      swap; · iexact Hg
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact HS
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole program as a run: its four items — two host stretches (a reshape of x and a rounding of W; three reshapes
  of the projections) and the two kernel regions — chained from the launch memory to the end, with the contents of every
  buffer named at each boundary.  Every weakly fair execution terminates without a fault and ends with every unscoped
  buffer at the last boundary's contents: the three arguments as launched, the result at what the attention region's
  write-backs leave.
-/
import proofs.«103110_j15822659518595_2_alg».proof.Proof.Gen.KernelIdeal.Launch
import proofs.«103110_j15822659518595_2_alg».proof.Proof.Gen.KernelIdeal.Skeleton
import proofs.«103110_j15822659518595_2_alg».proof.Proof.Gen.KernelIdeal.Points
import proofs.«103110_j15822659518595_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import proofs.«103110_j15822659518595_2_alg».proof.Proof.KI.Region0
import proofs.«103110_j15822659518595_2_alg».proof.Proof.KI.Region1
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: x reshaped to 16384 × 1024, W rounded. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its three outputs at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the three projections reshaped to 8 × 2048 × 1024. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernel regions as items -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` terminates without a fault, and every final memory
    holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Hand

end
-- ==== Proof.RefFrame.lean ====
/-
  The reference program's frame: its run, read back operation by operation, terminates without a fault
  and leaves the three argument arrays as they were.
-/
import proofs.«103110_j15822659518595_2_alg».proof.Defs
import proofs.«103110_j15822659518595_2_alg».proof.Proof.Gen.ReferenceIdeal
import proofs.«103110_j15822659518595_2_alg».proof.Proof.Gen.ReferenceIdeal.Run
import proofs.«103110_j15822659518595_2_alg».proof.Proof.Gen.ReferenceIdeal.Read
import proofs.«103110_j15822659518595_2_alg».proof.Proof.Gen.Pre_finite_inputs

noncomputable section

open Idealize.ShloMosaic Idealize.SL.Sem

namespace Cert.Proof.RefFrame

/-- The reference is a straight line of host operations: every weakly fair execution ends, and the
    arguments are never written. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Spec.lean ====
/-
  What the program computes, as one function of its three argument arrays over the extended reals.

  With x : [8, 2048, 1024], W : [3072, 1024], b : [3072]:
    proj o (bb, s, f)  =  (∑ₖ x(bb, s, k) · W(1024·o + f, k)) + b(1024·o + f)        (o = 0, 1, 2: queries, keys, values)
    score (bb, i, j)   =  (∑ₖ proj 0 (bb, i, k) · proj 1 (bb, j, k)) / 1024
    colMax (bb, j)     =  max(−∞, maxᵢ score (bb, i, j))
    ex (bb, i, j)      =  exp(score (bb, i, j) − colMax (bb, j))
    colSum (bb, j)     =  ∑ᵢ ex (bb, i, j)
    prob (bb, i, j)    =  ex (bb, i, j) / colSum (bb, j)                              (a softmax over the QUERY index i)
    result (bb, i, c)  =  ∑ⱼ prob (bb, i, j) · proj 2 (bb, j, c)
  Sums, products, quotient and exponential are the exact ones of the extended reals (a quotient by zero as the ideal
  instance defines it); the two float literals are kept as their bit patterns.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨3, ![8, 2048, 1024]⟩
abbrev SW : Shape := ⟨2, ![3072, 1024]⟩
abbrev SB : Shape := ⟨1, ![3072]⟩

/-- Row `f` of the `o`-th third of the weight matrix. -/
def row (o : Fin 3) (f : Fin 1024) : Fin 3072 := ⟨1024 * o.val + f.val, by omega⟩

/-- The literal −∞ and the literal 1024, as the ideal instance reads their bit patterns. -/
abbrev negInf : EReal := Ideal.ofBits .f32 0xFF800000#32
abbrev lit1024 : EReal := Ideal.ofBits .f32 0x44800000#32

variable (x : SX.Idx → EReal) (W : SW.Idx → EReal) (b : SB.Idx → EReal)

def proj (o : Fin 3) (bb : Fin 8) (s : Fin 2048) (f : Fin 1024) : EReal :=
  (∑ k : Fin 1024, x (ix3 bb s k) * W (ix2 (row o f) k)) + b (ix1 (row o f))

def score (bb : Fin 8) (i j : Fin 2048) : EReal :=
  Ideal.div (∑ k : Fin 1024, proj x W b 0 bb i k * proj x W b 1 bb j k) lit1024

def colMax (bb : Fin 8) (j : Fin 2048) : EReal :=
  max negInf ((Finset.univ : Finset (Fin 2048)).fold max negInf fun i => score x W b bb i j)

def ex (bb : Fin 8) (i j : Fin 2048) : EReal := Ideal.exp (score x W b bb i j - colMax x W b bb j)

def colSum (bb : Fin 8) (j : Fin 2048) : EReal := ∑ i : Fin 2048, ex x W b bb i j

def prob (bb : Fin 8) (i j : Fin 2048) : EReal := Ideal.div (ex x W b bb i j) (colSum x W b bb j)

/-- The result at (bb, i, c). -/
def res (bb : Fin 8) (i : Fin 2048) (c : Fin 1024) : EReal :=
  ∑ j : Fin 2048, prob x W b bb i j * proj x W b 2 bb j c

/-- The result as an array. -/
def G : SX.Idx → EReal := fun y => res x W b (y 0) (y 1) (y 2)

theorem G_apply (bb : Fin 8) (i : Fin 2048) (c : Fin 1024) : G x W b (ix3 bb i c) = res x W b bb i c := rfl

/-! ## The projection over the flattened rows (row r = 2048·bb + s of the [16384, 1024] reshape of x) -/

abbrev SXF : Shape := ⟨2, ![16384, 1024]⟩

def projFlatAt (xf : SXF.Idx → EReal) (W : SW.Idx → EReal) (b : SB.Idx → EReal) (o : Fin 3) (r : Fin 16384) (f : Fin 1024) : EReal :=
  (∑ k : Fin 1024, xf (ix2 r k) * W (ix2 (row o f) k)) + b (ix1 (row o f))

def projFlat (xf : SXF.Idx → EReal) (W : SW.Idx → EReal) (b : SB.Idx → EReal) (o : Fin 3) : SXF.Idx → EReal :=
  fun y => projFlatAt xf W b o ⟨(y 0).val, (y 0).isLt⟩ ⟨(y 1).val, (y 1).isLt⟩

theorem projFlat_apply (xf : SXF.Idx → EReal) (W : SW.Idx → EReal) (b : SB.Idx → EReal) (o : Fin 3) (r : Fin 16384) (f : Fin 1024) :
    projFlat xf W b o (ix2 r f) = projFlatAt xf W b o r f := rfl

end Cert.Spec

end
-- ==== Proof.RefValue.lean ====
/-
  The reference program's result, read one operation at a time, is the specification function G of the specification file.

  Each stage of the reference is read at an index built from its coordinates:
    stage 3   (the projection plus its bias, over the merged last axis of 3072) at (bb, s, r),
    stages 4, 5, 6 (its three slices at offsets 0, 1024, 2048) are proj 0, proj 1, proj 2,
    stage 7   the contraction of queries with keys, stage 9 its quotient by 1024 is score,
    stage 10  the fold of max from −∞ over the query axis, stage 12 is colMax,
    stage 16  is ex, stage 17 is colSum, stage 20 is prob, stage 21 is the result.
-/
import proofs.«103110_j15822659518595_2_alg».proof.Proof.Spec
import proofs.«103110_j15822659518595_2_alg».proof.Proof.Gen.ReferenceIdeal.Read

noncomputable section

namespace Cert.RefValue

open Idealize.ShloMosaic Idealize.ShloMosaic.ValueIdx Cert.ReferenceIdeal Cert.ReferenceIdeal.Read Cert.Spec

variable (x0 : (⟨S8x2048x1024, .f32⟩ : BufTy).Contents (Elt Ideal))
  (x1 : (⟨S3072x1024, .f32⟩ : BufTy).Contents (Elt Ideal))
  (x2 : (⟨S3072, .f32⟩ : BufTy).Contents (Elt Ideal))

/-- Stage 3 at (bb, s, r): row r of the weights against row (bb, s) of the input, plus the bias at r. -/
theorem v3_at (bb : Fin 8) (s : Fin 2048) (r : Fin 3072) :
    val_main_v3 (F := Ideal) x0 x1 x2 (ix3 bb s r)
      = (∑ k : Fin 1024, x0 (ix3 bb s k) * x1 (ix2 r k)) + x2 (ix1 r) := by
  rw [val_main_v3_apply, val_main_v0_apply, val_main_v2_apply, val_main_v1_apply]
  have e1 : ∀ k : Fin 1024, lidx_main_v0 (ix3 bb s r) k = ix3 bb s k := fun k =>
    funext fun a => Fin.ext (by match a with | ⟨0, _⟩ => rfl | ⟨1, _⟩ => rfl | ⟨2, _⟩ => rfl)
  have e2 : ∀ k : Fin 1024, ridx_main_v0 (ix3 bb s r) k = ix2 r k := fun k =>
    funext fun a => Fin.ext (by match a with | ⟨0, _⟩ => rfl | ⟨1, _⟩ => rfl)
  have e3 : idx_main_v1 (idx_main_v2 (ix3 bb s r)) = ix1 r :=
    funext fun a => Fin.ext (by match a with | ⟨0, _⟩ => rfl)
  rw [e3]
  show (∑ k : Fin 1024, x0 (lidx_main_v0 (ix3 bb s r) k) * x1 (ridx_main_v0 (ix3 bb s r) k)) + x2 (ix1 r) = _
  refine congrArg (· + x2 (ix1 r)) (Finset.sum_congr rfl fun k _ => ?_)
  rw [e1, e2]

/-- Stage 4, the slice at offset 0, is the query projection. -/
theorem v4_at (bb : Fin 8) (s : Fin 2048) (f : Fin 1024) :
    val_main_v4 (F := Ideal) x0 x1 x2 (ix3 bb s f) = proj x0 x1 x2 0 bb s f := by
  rw [val_main_v4_apply]
  have e : idx_main_v4 (ix3 bb s f) = ix3 bb s (row 0 f) :=
    funext fun a => Fin.ext (by
      match a with
      | ⟨0, _⟩ => rfl
      | ⟨1, _⟩ => rfl
      | ⟨2, _⟩ => show f.val = 1024 * 0 + f.val; omega)
  rw [e, v3_at]
  rfl

/-- Stage 5, the slice at offset 1024, is the key projection. -/
theorem v5_at (bb : Fin 8) (s : Fin 2048) (f : Fin 1024) :
    val_main_v5 (F := Ideal) x0 x1 x2 (ix3 bb s f) = proj x0 x1 x2 1 bb s f := by
  rw [val_main_v5_apply]
  have e : idx_main_v5 (ix3 bb s f) = ix3 bb s (row 1 f) :=
    funext fun a => Fin.ext (by
      match a with
      | ⟨0, _⟩ => rfl
      | ⟨1, _⟩ => rfl
      | ⟨2, _⟩ => show 1024 + f.val = 1024 * 1 + f.val; omega)
  rw [e, v3_at]
  rfl

/-- Stage 6, the slice at offset 2048, is the value projection. -/
theorem v6_at (bb : Fin 8) (s : Fin 2048) (f : Fin 1024) :
    val_main_v6 (F := Ideal) x0 x1 x2 (ix3 bb s f) = proj x0 x1 x2 2 bb s f := by
  rw [val_main_v6_apply]
  have e : idx_main_v6 (ix3 bb s f) = ix3 bb s (row 2 f) :=
    funext fun a => Fin.ext (by
      match a with
      | ⟨0, _⟩ => rfl
      | ⟨1, _⟩ => rfl
      | ⟨2, _⟩ => show 2048 + f.val = 1024 * 2 + f.val; omega)
  rw [e, v3_at]
  rfl

/-- Stage 7 at (bb, i, j): query row i against key row j. -/
theorem v7_at (bb : Fin 8) (i j : Fin 2048) :
    val_main_v7 (F := Ideal) x0 x1 x2 (ix3 bb i j)
      = ∑ k : Fin 1024, proj x0 x1 x2 0 bb i k * proj x0 x1 x2 1 bb j k := by
  rw [val_main_v7_apply]
  refine Finset.sum_congr rfl fun k _ => ?_
  have e1 : lidx_main_v7 (ix3 bb i j) k = ix3 bb i k :=
    funext fun a => Fin.ext (by match a with | ⟨0, _⟩ => rfl | ⟨1, _⟩ => rfl | ⟨2, _⟩ => rfl)
  have e2 : ridx_main_v7 (ix3 bb i j) k = ix3 bb j k :=
    funext fun a => Fin.ext (by match a with | ⟨0, _⟩ => rfl | ⟨1, _⟩ => rfl | ⟨2, _⟩ => rfl)
  rw [e1, e2, v4_at, v5_at]

/-- Stage 9 is the score. -/
theorem v9_at (bb : Fin 8) (i j : Fin 2048) :
    val_main_v9 (F := Ideal) x0 x1 x2 (ix3 bb i j) = score x0 x1 x2 bb i j := by
  rw [val_main_v9_apply, v7_at, val_main_v8_apply, val_main_cst_apply]
  rfl

/-- Along axis 1 of a rank-3 array, (b, c) with coordinate k put back is the entry (b, k, c). -/
theorem lift_mid3 {n0 n1 n2 : ℕ} (hred : (⟨3, ![n0, n1, n2]⟩ : Shape).Reduces [1] ⟨2, ![n0, n2]⟩)
    (b : Fin n0) (c : Fin n2) (k : Fin n1) : hred.lift (ix2 b c) k = ix3 b k c := by
  funext ax
  match ax with
  | ⟨0, _⟩ => exact Fin.ext rfl
  | ⟨1, _⟩ => exact Fin.ext rfl
  | ⟨2, _⟩ => exact Fin.ext rfl

/-- The axis-1 reduction of the rank-3 score array into the rank-2 array of columns is a reduction. -/
theorem reduces_mid : S8x2048x2048.Reduces [1] S8x2048 := by decide

/-- Stage 10 at (bb, j): the fold of max, from −∞, of the scores over the query index. -/
theorem v10_at (bb : Fin 8) (j : Fin 2048) :
    val_main_v10 (F := Ideal) x0 x1 x2 (ix2 bb j)
      = (Finset.univ : Finset (Fin 2048)).fold max negInf fun i => score x0 x1 x2 bb i j := by
  unfold val_main_v10
  refine (Host.reduce_eq_fold_single (FloatOps.maximumf (F := Ideal) (φ := .f32)) _ _
    Gen.reducesTo_S8x2048x2048_S8x2048_d1 reduces_mid Gen.h_S_ (ix2 bb j)).trans ?_
  exact congrArg (fun f => Finset.fold max negInf f (Finset.univ : Finset (Fin 2048)))
    (funext fun k => (congrArg (val_main_v9 (F := Ideal) x0 x1 x2) (lift_mid3 reduces_mid bb j k)).trans (v9_at x0 x1 x2 bb k j))

/-- Stage 12 is the column maximum. -/
theorem v12_at (bb : Fin 8) (j : Fin 2048) :
    val_main_v12 (F := Ideal) x0 x1 x2 (ix2 bb j) = colMax x0 x1 x2 bb j := by
  rw [val_main_v12_apply, val_main_v11_apply, val_main_cst_1_apply, v10_at]
  rfl

/-- Stage 14, the column maximum broadcast back over the query index. -/
theorem v14_at (bb : Fin 8) (i j : Fin 2048) :
    val_main_v14 (F := Ideal) x0 x1 x2 (ix3 bb i j) = colMax x0 x1 x2 bb j := by
  rw [val_main_v14_apply, val_main_v13_apply]
  have e : idx_main_v13 (idx_main_v14 (ix3 bb i j)) = ix2 bb j :=
    funext fun a => Fin.ext (by match a with | ⟨0, _⟩ => rfl | ⟨1, _⟩ => rfl)
  rw [e, v12_at]

/-- Stage 16 is the exponential of the shifted score. -/
theorem v16_at (bb : Fin 8) (i j : Fin 2048) :
    val_main_v16 (F := Ideal) x0 x1 x2 (ix3 bb i j) = ex x0 x1 x2 bb i j := by
  rw [val_main_v16_apply, val_main_v15_apply, v9_at, v14_at]
  rfl

/-- Stage 17 is the column sum of the exponentials (the initial value is zero). -/
theorem v17_at (bb : Fin 8) (j : Fin 2048) :
    val_main_v17 (F := Ideal) x0 x1 x2 (ix2 bb j) = colSum x0 x1 x2 bb j := by
  rw [val_main_v17_apply, val_main_cst_2_apply]
  show Ideal.ofBits .f32 0x00000000#32 + _ = _
  rw [Ideal.ofBits_zero_f32, zero_add]
  refine Finset.sum_congr rfl fun k _ => ?_
  have e : idx_main_v17 (ix2 bb j) k = ix3 bb k j :=
    funext fun a => Fin.ext (by match a with | ⟨0, _⟩ => rfl | ⟨1, _⟩ => rfl | ⟨2, _⟩ => rfl)
  rw [e, v16_at]

/-- Stage 19, the column sum broadcast back over the query index. -/
theorem v19_at (bb : Fin 8) (i j : Fin 2048) :
    val_main_v19 (F := Ideal) x0 x1 x2 (ix3 bb i j) = colSum x0 x1 x2 bb j := by
  rw [val_main_v19_apply, val_main_v18_apply]
  have e : idx_main_v18 (idx_main_v19 (ix3 bb i j)) = ix2 bb j :=
    funext fun a => Fin.ext (by match a with | ⟨0, _⟩ => rfl | ⟨1, _⟩ => rfl)
  rw [e, v17_at]

/-- Stage 20 is the normalized weight. -/
theorem v20_at (bb : Fin 8) (i j : Fin 2048) :
    val_main_v20 (F := Ideal) x0 x1 x2 (ix3 bb i j) = prob x0 x1 x2 bb i j := by
  rw [val_main_v20_apply, v16_at, v19_at]
  rfl

/-- Stage 21 at (bb, i, c) is the result of the specification. -/
theorem v21_at (bb : Fin 8) (i : Fin 2048) (c : Fin 1024) :
    val_main_v21 (F := Ideal) x0 x1 x2 (ix3 bb i c) = res x0 x1 x2 bb i c := by
  rw [val_main_v21_apply]
  refine Finset.sum_congr rfl fun k _ => ?_
  have e1 : lidx_main_v21 (ix3 bb i c) k = ix3 bb i k :=
    funext fun a => Fin.ext (by match a with | ⟨0, _⟩ => rfl | ⟨1, _⟩ => rfl | ⟨2, _⟩ => rfl)
  have e2 : ridx_main_v21 (ix3 bb i c) k = ix3 bb k c :=
    funext fun a => Fin.ext (by match a with | ⟨0, _⟩ => rfl | ⟨1, _⟩ => rfl | ⟨2, _⟩ => rfl)
  rw [e1, e2, v20_at, v6_at]

/-- The reference program's result is the specification function. -/
theorem ref_is_G (x0 : (⟨Cert.ReferenceIdeal.S8x2048x1024, .f32⟩ : BufTy).Contents (Elt Ideal))
    (x1 : (⟨Cert.ReferenceIdeal.S3072x1024, .f32⟩ : BufTy).Contents (Elt Ideal))
    (x2 : (⟨Cert.ReferenceIdeal.S3072, .f32⟩ : BufTy).Contents (Elt Ideal)) :
    Cert.ReferenceIdeal.Read.val_main_v21 (F := Ideal) x0 x1 x2 = Cert.Spec.G x0 x1 x2 := by
  funext y
  obtain ⟨bb, i, c, rfl⟩ : ∃ bb i c, y = ix3 bb i c := ⟨y 0, y 1, y 2, eq_ix3 y⟩
  exact (v21_at x0 x1 x2 bb i c).trans (G_apply x0 x1 x2 bb i c).symm

end Cert.RefValue

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibLastAxis.lean ====
/-
  Reductions along the last axis read at an index, on the extended reals (floats as extended reals, operations exact):
  general facts, independent of any program.

  For a matrix `[a, b]` the vector unit's sum and maximum over axis 1 leave one entry per row: at row `p` the sum is the
  sum over the columns `k` of the entry `(p, k)`, and the maximum taken from −∞ is the fold of `max` over those entries.
  For a rank-3 array `[n0, n1, n2]` the host's reduce with a maximum body over axis 2 leaves, at `(b, c)`, the fold of
  `max`, from the initial value's element, over the entries `(b, c, k)`.
-/
import Idealize.ShloMosaic.PureOps.Ideal
import Idealize.ShloMosaic.PureOps.Ideal.Laws
import Idealize.ShloMosaic.Lib.ValueIdx

noncomputable section

open scoped BigOperators

namespace Cert.LibLastAxis

open Idealize.ShloMosaic Idealize.ShloMosaic.ValueIdx

/-- Along axis 1 of a matrix, row `p` with column `k` put back is the entry `(p, k)`. -/
theorem lift_row {a b : ℕ} (hred : (⟨2, ![a, b]⟩ : Shape).Reduces [1] ⟨1, ![a]⟩) (p : Fin a) (k : Fin b) :
    hred.lift (ix1 p) k = ix2 p k := by
  funext ax
  match ax with
  | ⟨0, _⟩ => exact Fin.ext rfl
  | ⟨1, _⟩ => exact Fin.ext rfl

/-- The vector unit's sum over axis 1 of an `[a, b]` vector, from `+0.0`, read at row `p`: the sum over the columns. -/
theorem rowSum_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 hred hφ hacc (ix1 p) = ∑ k : Fin b, v (ix2 p k) :=
  (Ideal.multiReduction_add_single (φ := .f32) v 0x00000000#32 hred hφ hacc (ix1 p)).trans
    (Finset.sum_congr rfl fun k _ => congrArg v (lift_row hred p k))

/-- The vector unit's maximum over axis 1 of an `[a, b]` vector, from −∞, read at row `p`: the fold of `max` over the
    columns, started at the value of the word for −∞. -/
theorem rowMax_apply {a b : ℕ} (v : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ v 0xFF800000#32 hred hφ hacc (ix1 p)
      = (Finset.univ : Finset (Fin b)).fold max (Ideal.ofBits .f32 0xFF800000#32) (fun k => v (ix2 p k)) :=
  (Ideal.multiReduction_maximumf_single (φ := .f32) v 0xFF800000#32 hred hφ hacc (ix1 p)).trans
    (congrArg (fun f => Finset.fold max (Ideal.ofBits .f32 0xFF800000#32) f (Finset.univ : Finset (Fin b)))
      (funext fun k => congrArg v (lift_row hred p k)))

/-- Along axis 2 of a rank-3 array, `(b, c)` with coordinate `k` put back is the entry `(b, c, k)`. -/
theorem lift_last3 {n0 n1 n2 : ℕ} (hred : (⟨3, ![n0, n1, n2]⟩ : Shape).Reduces [2] ⟨2, ![n0, n1]⟩)
    (b : Fin n0) (c : Fin n1) (k : Fin n2) : hred.lift (ix2 b c) k = ix3 b c k := by
  funext ax
  match ax with
  | ⟨0, _⟩ => exact Fin.ext rfl
  | ⟨1, _⟩ => exact Fin.ext rfl
  | ⟨2, _⟩ => exact Fin.ext rfl

/-- The host's reduce with a maximum body over axis 2 of an `[n0, n1, n2]` array, read at `(b, c)`: the fold of `max`,
    from the initial value's one element, over the entries `(b, c, k)`. -/
theorem hostMax_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (hred : (⟨3, ![n0, n1, n2]⟩ : Shape).Reduces [2] ⟨2, ![n0, n1]⟩)
    (hu : 0 < (⟨0, ![]⟩ : Shape).numel) (b : Fin n0) (c : Fin n1) :
    Host.reduce (FloatOps.maximumf (F := Ideal) (φ := .f32)) x init h' hu (ix2 b c)
      = (Finset.univ : Finset (Fin n2)).fold max (init (Shape.Idx.first hu)) (fun k => x (ix3 b c k)) := by
  rw [Host.reduce_eq_fold_single FloatOps.maximumf x init h' hred hu]
  exact congrArg (fun f => Finset.fold max (init (Shape.Idx.first hu)) f (Finset.univ : Finset (Fin n2)))
    (funext fun k => congrArg x (lift_last3 hred b c k))

end Cert.LibLastAxis

end
-- ==== Proof.Pay1.lean ====
/-
  The arithmetic of the attention kernel's body at F := Ideal, read at an index.

  With a query block q : [1, 2048, 1024], a key block k : [1, 256, 1024] and a value block v : [1, 256, 1024]:
    sB (j, i)  =  (∑ₖ k(0, j, k) · q(0, i, k)) · 2⁻¹⁰
    mB j       =  max(−∞, maxᵢ sB (j, i))
    eB (j, i)  =  exp(sB (j, i) − mB j),     zB j = ∑ᵢ eB (j, i),     pB (j, i) = eB (j, i) / zB j
  The block the body keeps in its scratch buffer is pB; the chunk a loop trip stores is the chunk it loaded plus
  ∑ⱼ p(j, r) · v(0, j, c) over the 256 keys of the block; the fill of the first key block is the literal +0.0.
-/
import proofs.«103110_j15822659518595_2_alg».proof.Proof.Gen.KernelIdeal.Skeleton
import proofs.«103110_j15822659518595_2_alg».proof.Proof.LibKeepdims
import proofs.«103110_j15822659518595_2_alg».proof.Proof.LibLastAxis
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.LibLastAxis

abbrev negInf : EReal := Ideal.ofBits .f32 0xFF800000#32
/-- The literal 2⁻¹⁰, as the ideal instance reads its bit pattern. -/
abbrev scale : EReal := Ideal.ofBits .f32 0x3A800000#32

section Defs
variable (q : FVec Ideal S1x2048x1024 .bf16) (k : FVec Ideal S1x256x1024 .bf16)

def sB (j : Fin 256) (i : Fin 2048) : EReal := (∑ d : Fin 1024, k (ix3 (0 : Fin 1) j d) * q (ix3 (0 : Fin 1) i d)) * scale
def mB (j : Fin 256) : EReal := max negInf ((Finset.univ : Finset (Fin 2048)).fold max negInf fun i => sB q k j i)
def eB (j : Fin 256) (i : Fin 2048) : EReal := Ideal.exp (sB q k j i - mB q k j)
def zB (j : Fin 256) : EReal := ∑ i : Fin 2048, eB q k j i
def pB (j : Fin 256) (i : Fin 2048) : EReal := Ideal.div (eB q k j i) (zB q k j)
end Defs

/-! ## The operands' indices of the two products -/

theorem lhs2_0 (i : S256x2048.Idx) (q : dot_S256x1024_S2048x1024_S256x2048_1_1_0_0_n_n.contr.Idx) : (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem rhs2_0 (i : S256x2048.Idx) (q : dot_S256x1024_S2048x1024_S256x2048_1_1_0_0_n_n.contr.Idx) : (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem lhs3_1 (i : S512x1024.Idx) (q : dot_S256x512_S256x1024_S512x1024_0_0_1_1_n_n.contr.Idx) : (dot_S256x512_S256x1024_S512x1024_0_0_1_1_n_n.lhsIdx i q 1).val = (i 0).val := by
  unfold DotDims.lhsIdx
  rw [dif_neg (show ¬(1 : Fin S256x512.rank) ∈ dot_S256x512_S256x1024_S512x1024_0_0_1_1_n_n.lhsBatch by decide), dif_pos (show (1 : Fin S256x512.rank) ∈ dot_S256x512_S256x1024_S512x1024_0_0_1_1_n_n.lhsNonContracting by decide)]
  rfl
theorem rhs3_1 (i : S512x1024.Idx) (q : dot_S256x512_S256x1024_S512x1024_0_0_1_1_n_n.contr.Idx) : (dot_S256x512_S256x1024_S512x1024_0_0_1_1_n_n.rhsIdx i q 1).val = (i 1).val := by
  unfold DotDims.rhsIdx
  rw [dif_neg (show ¬(1 : Fin S256x1024.rank) ∈ dot_S256x512_S256x1024_S512x1024_0_0_1_1_n_n.rhsBatch by decide), dif_pos (show (1 : Fin S256x1024.rank) ∈ dot_S256x512_S256x1024_S512x1024_0_0_1_1_n_n.rhsNonContracting by decide)]
  rfl

/-! ## The three matrix products as sums -/

theorem scores_apply (a : FVec Ideal S256x1024 .bf16) (b : FVec Ideal S2048x1024 .bf16) (j : Fin 256) (i : Fin 2048) :
    matmul dot_S256x1024_S2048x1024_S256x2048_1_1_0_0_n_n none a b (constant S256x2048 .f32 0x00000000#32) (ix2 j i)
      = ∑ d : Fin 1024, a (ix2 j d) * b (ix2 i d) := by
  simp only [matmul]
  rw [Ideal.matmul_constant_zero_apply, ← Equiv.sum_comp (contrEquiv1 dot_S256x1024_S2048x1024_S256x2048_1_1_0_0_n_n 1024 rfl rfl).symm]
  refine Finset.sum_congr rfl fun d _ => ?_
  have hk := contrEquiv1_symm_val dot_S256x1024_S2048x1024_S256x2048_1_1_0_0_n_n 1024 rfl rfl d
  have el : dot_S256x1024_S2048x1024_S256x2048_1_1_0_0_n_n.lhsIdx (ix2 j i) ((contrEquiv1 dot_S256x1024_S2048x1024_S256x2048_1_1_0_0_n_n 1024 rfl rfl).symm d) = ix2 j d := funext fun ax => Fin.ext (by
    match ax with
    | ⟨0, _⟩ => exact lhs2_0 _ _
    | ⟨1, _⟩ => exact (dot_S256x1024_S2048x1024_S256x2048_1_1_0_0_n_n.lhsIdx_val_of_single rfl _ _).trans hk)
  have er : dot_S256x1024_S2048x1024_S256x2048_1_1_0_0_n_n.rhsIdx (ix2 j i) ((contrEquiv1 dot_S256x1024_S2048x1024_S256x2048_1_1_0_0_n_n 1024 rfl rfl).symm d) = ix2 i d := funext fun ax => Fin.ext (by
    match ax with
    | ⟨0, _⟩ => exact rhs2_0 _ _
    | ⟨1, _⟩ => exact (dot_S256x1024_S2048x1024_S256x2048_1_1_0_0_n_n.rhsIdx_val_of_single rfl _ _).trans hk)
  rw [el, er]

theorem contrib_apply (p : FVec Ideal S256x512 .bf16) (v : FVec Ideal S256x1024 .bf16) (r : Fin 512) (c : Fin 1024) :
    matmul dot_S256x512_S256x1024_S512x1024_0_0_1_1_n_n none p v (constant S512x1024 .f32 0x00000000#32) (ix2 r c)
      = ∑ j : Fin 256, p (ix2 j r) * v (ix2 j c) := by
  simp only [matmul]
  rw [Ideal.matmul_constant_zero_apply, ← Equiv.sum_comp (contrEquiv1 dot_S256x512_S256x1024_S512x1024_0_0_1_1_n_n 256 rfl rfl).symm]
  refine Finset.sum_congr rfl fun j _ => ?_
  have hk := contrEquiv1_symm_val dot_S256x512_S256x1024_S512x1024_0_0_1_1_n_n 256 rfl rfl j
  have el : dot_S256x512_S256x1024_S512x1024_0_0_1_1_n_n.lhsIdx (ix2 r c) ((contrEquiv1 dot_S256x512_S256x1024_S512x1024_0_0_1_1_n_n 256 rfl rfl).symm j) = ix2 j r := funext fun ax => Fin.ext (by
    match ax with
    | ⟨0, _⟩ => exact (dot_S256x512_S256x1024_S512x1024_0_0_1_1_n_n.lhsIdx_val_of_single rfl _ _).trans hk
    | ⟨1, _⟩ => exact lhs3_1 _ _)
  have er : dot_S256x512_S256x1024_S512x1024_0_0_1_1_n_n.rhsIdx (ix2 r c) ((contrEquiv1 dot_S256x512_S256x1024_S512x1024_0_0_1_1_n_n 256 rfl rfl).symm j) = ix2 j c := funext fun ax => Fin.ext (by
    match ax with
    | ⟨0, _⟩ => exact (dot_S256x512_S256x1024_S512x1024_0_0_1_1_n_n.rhsIdx_val_of_single rfl _ _).trans hk
    | ⟨1, _⟩ => exact rhs3_1 _ _)
  rw [el, er]

/-! ## The payloads at an index -/

/-- The zero fill. -/
theorem pay1_apply (y : S1x2048x1024.Idx) : k1_pay1 (F := Ideal) y = Ideal.ofBits .f32 0x00000000#32 := by
  unfold k1_pay1
  rfl

/-! ## The chunk a loop trip stores -/

theorem pay3_apply (v7 : FVec Ideal S1x256x1024 .bf16) (v31 : FVec Ideal S256x512 .bf16) (v34 : FVec Ideal S1x512x1024 .f32) (r : Fin 512) (c : Fin 1024) :
    k1_pay3 (F := Ideal) v7 v31 v34 (ix3 (0 : Fin 1) r c)
      = v34 (ix3 (0 : Fin 1) r c) + ∑ j : Fin 256, v31 (ix2 j r) * v7 (ix3 (0 : Fin 1) j c) := by
  unfold k1_pay3
  refine (shapeCast_ab_1ab_apply _ shapeCasts_S512x1024_S1x512x1024 0 r c).trans ?_
  show (shapeCast S512x1024 v34 shapeCasts_S1x512x1024_S512x1024) (ix2 r c)
      + (matmul dot_S256x512_S256x1024_S512x1024_0_0_1_1_n_n none v31 (shapeCast S256x1024 v7 shapeCasts_S1x256x1024_S256x1024) (constant S512x1024 .f32 0x00000000#32)) (ix2 r c) = _
  rw [shapeCast_1ab_ab_apply, contrib_apply]
  refine congrArg (_ + ·) (Finset.sum_congr rfl fun j _ => ?_)
  rw [shapeCast_1ab_ab_apply]

/-! ## The normalised score block, stage by stage -/

section Stages
variable (q : FVec Ideal S1x2048x1024 .bf16) (k : FVec Ideal S1x256x1024 .bf16)

def st9 : FVec Ideal S256x2048 .f32 :=
  matmul dot_S256x1024_S2048x1024_S256x2048_1_1_0_0_n_n none (shapeCast S256x1024 k shapeCasts_S1x256x1024_S256x1024) (shapeCast S2048x1024 q shapeCasts_S1x2048x1024_S2048x1024) (constant S256x2048 .f32 0x00000000#32)
def st11 : FVec Ideal S256x2048 .f32 := mulf (st9 q k) (broadcast S256x2048 (Scalar.ofBits (F := Ideal) .f32 0x3A800000#32))
def st14 : FVec Ideal S256 .f32 :=
  maximumf (broadcast S256 (Scalar.ofBits (F := Ideal) .f32 0xFF800000#32)) (multiReduction .maximumf [1] S256 (st11 q k) 0xFF800000#32 reduces_S256x2048_S256 (.inl rfl) rfl)
def st18 : FVec Ideal S256x2048 .f32 :=
  exp (subf (st11 q k) (broadcastTo S256x2048 (shapeCast S256x1 (st14 q k) shapeCasts_S256_S256x1) broadcasts_S256x1_S256x2048))
def st19 : FVec Ideal S256 .f32 := multiReduction .add [1] S256 (st18 q k) 0x00000000#32 reduces_S256x2048_S256 (.inl rfl) rfl
def st22 : FVec Ideal S256x2048 .f32 :=
  divf (st18 q k) (broadcastTo S256x2048 (shapeCast S256x1 (st19 q k) shapeCasts_S256_S256x1) broadcasts_S256x1_S256x2048)

theorem pay2_eq : k1_pay2 (F := Ideal) q k = shapeCast S256x2048 (truncf .bf16 (st22 q k) bitsLt_bf16_f32) shapeCasts_S256x2048_S256x2048 := rfl

theorem st9_apply (j : Fin 256) (i : Fin 2048) :
    st9 q k (ix2 j i) = ∑ d : Fin 1024, k (ix3 (0 : Fin 1) j d) * q (ix3 (0 : Fin 1) i d) := by
  unfold st9
  rw [scores_apply]
  refine Finset.sum_congr rfl fun d _ => ?_
  rw [shapeCast_1ab_ab_apply, shapeCast_1ab_ab_apply]

theorem st11_apply (j : Fin 256) (i : Fin 2048) : st11 q k (ix2 j i) = sB q k j i := by
  show st9 q k (ix2 j i) * scale = _
  rw [st9_apply]; rfl

theorem st14_apply (j : Fin 256) : st14 q k (ix1 j) = mB q k j := by
  show max negInf (multiReduction .maximumf [1] S256 (st11 q k) 0xFF800000#32 reduces_S256x2048_S256 (.inl rfl) rfl (ix1 j)) = _
  unfold mB
  refine congrArg (max negInf) ?_
  refine (rowMax_apply (st11 q k) reduces_S256x2048_S256 (.inl rfl) rfl j).trans ?_
  exact congrArg (fun f => Finset.fold max negInf f (Finset.univ : Finset (Fin 2048))) (funext fun i => st11_apply q k j i)

theorem st18_apply (j : Fin 256) (i : Fin 2048) : st18 q k (ix2 j i) = eB q k j i := by
  show Ideal.exp (st11 q k (ix2 j i) - (broadcastTo S256x2048 (shapeCast S256x1 (st14 q k) shapeCasts_S256_S256x1) broadcasts_S256x1_S256x2048) (ix2 j i)) = _
  rw [broadcastTo_a1_ab_apply, shapeCast_a_a1_apply, st11_apply, st14_apply]; rfl

theorem st19_apply (j : Fin 256) : st19 q k (ix1 j) = zB q k j := by
  unfold st19 zB
  refine (rowSum_apply (st18 q k) reduces_S256x2048_S256 (.inl rfl) rfl j).trans ?_
  exact Finset.sum_congr rfl fun i _ => st18_apply q k j i

theorem st22_apply (j : Fin 256) (i : Fin 2048) : st22 q k (ix2 j i) = pB q k j i := by
  show Ideal.div (st18 q k (ix2 j i)) ((broadcastTo S256x2048 (shapeCast S256x1 (st19 q k) shapeCasts_S256_S256x1) broadcasts_S256x1_S256x2048) (ix2 j i)) = _
  rw [broadcastTo_a1_ab_apply, shapeCast_a_a1_apply, st18_apply, st19_apply]; rfl

/-- The block kept in the scratch buffer is the normalised score block. -/
theorem pay2_apply (j : Fin 256) (i : Fin 2048) : k1_pay2 (F := Ideal) q k (ix2 j i) = pB q k j i := by
  rw [pay2_eq, shapeCast_self]
  exact st22_apply q k j i

end Stages

end Cert.KernelIdeal.Pay

end
-- ==== Proof.Loop1.lean ====
/-
  What the attention kernel's output buffer reads after the body's loop, at F := Ideal.

  The loop's four trips each load one chunk of 512 query rows of the buffer, add to it the product of the matching
  512 columns of the normalised score block (transposed) with the value block, and store it back.  The chunks are
  disjoint, so each trip reads its chunk as the buffer held it at loop entry, and after the loop the buffer reads, at
  every (0, r, c):   what it held at loop entry  +  ∑ⱼ P(j, r) · v(0, j, c)   over the 256 keys of the block.
-/
import proofs.«103110_j15822659518595_2_alg».proof.Proof.Gen.KernelIdeal.Loops
import proofs.«103110_j15822659518595_2_alg».proof.Proof.Pay1
import Idealize.ShloMosaic.Lib.Writes

noncomputable section

namespace Cert.KernelIdeal.Loop1

open Idealize.ShloMosaic Idealize.ShloMosaic.ValueIdx Cert.KernelIdeal Cert.KernelIdeal.Gen Cert.KernelIdeal.Pay
open Idealize.SL.Sem

variable (𝒱 : Variants) (c : Dev nD) (bd : Option 𝒱.V) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole)
  (v7 : FVec Ideal S1x256x1024 .bf16) (X6 : BufTy.Contents (Elt Ideal) arg6.view.ty) (G5 : BufTy.Contents (Elt Ideal) arg5.view.ty)

/-- The chunk of query rows trip `k` loads and stores, and the columns of the score block it loads. -/
abbrev rect2 (k : Fin k1_t1_loop.trips) : Rect S1x2048x1024 := Rect.unit (s := S1x2048x1024) (k1_off2 k) S1x512x1024.size (k1_off2_inb k)
abbrev rect1 (k : Fin k1_t1_loop.trips) : Rect S256x2048 := Rect.unit (s := S256x2048) (k1_off1 k) S256x512.size (k1_off1_inb k)

/-- One trip's one piece. -/
theorem tripL_eq (k : Fin k1_t1_loop.trips) (f : BufTy.Contents (Elt Ideal) arg5.view.ty) :
    tripL_k1_t1 (F := Ideal) 𝒱 c bd i arg2 harg2 arg3 harg3 arg4 harg4 arg5 harg5 arg6 harg6 v7 X6 k f
      = [⟨rect2 k, k1_pay3 v7 (View.readAt (Elt Ideal) arg6.view (rect1 k).toLoadRect X6)
            (View.readAt (Elt Ideal) arg5.view (rect2 k).toLoadRect f)⟩] := by
  unfold tripL_k1_t1 trip_k1_t1; rfl

/-- Where a chunk's element sits in the buffer. -/
theorem emb2_val (k : Fin k1_t1_loop.trips) (x : (rect2 k).shape.Idx) :
    (((rect2 k).emb x) 0).val = 0 + (x 0).val ∧ (((rect2 k).emb x) 1).val = 512 * k.val + (x 1).val ∧ (((rect2 k).emb x) 2).val = 0 + (x 2).val := by
  have h := k1_off2_eq k
  refine ⟨?_, ?_, ?_⟩
  · show (k1_off2 k) 0 + 1 * (x 0).val = _; rw [h]; show 0 + 1 * (x 0).val = _; omega
  · show (k1_off2 k) 1 + 1 * (x 1).val = _; rw [h]; show 512 * k.val + 1 * (x 1).val = _; omega
  · show (k1_off2 k) 2 + 1 * (x 2).val = _; rw [h]; show 0 + 1 * (x 2).val = _; omega

theorem emb1_val (k : Fin k1_t1_loop.trips) (x : (rect1 k).shape.Idx) :
    (((rect1 k).emb x) 0).val = 0 + (x 0).val ∧ (((rect1 k).emb x) 1).val = 512 * k.val + (x 1).val := by
  have h := k1_off1_eq k
  refine ⟨?_, ?_⟩
  · show (k1_off1 k) 0 + 1 * (x 0).val = _; rw [h]; show 0 + 1 * (x 0).val = _; omega
  · show (k1_off1 k) 1 + 1 * (x 1).val = _; rw [h]; show 512 * k.val + 1 * (x 1).val = _; omega

/-- An element of chunk `k` is in no earlier chunk. -/
theorem not_mem_earlier (k k' : Fin k1_t1_loop.trips) (hk : k'.val < k.val) (x : (rect2 k).shape.Idx) :
    (rect2 k).emb x ∉ (rect2 k').set := by
  intro hm
  have h1 := (Rect.mem_set_unit.mp hm) 1
  have e := (emb2_val k x).2.1
  have hk' := k1_off2_eq k'
  have hx : (x 1).val < 512 := (x 1).isLt
  rw [hk'] at h1
  have h1' : ((rect2 k).emb x 1).val < 512 * k'.val + 512 := h1.2
  omega

/-- What the buffer reads after the loop, as one function of its index. -/
def after : S1x2048x1024.Idx → EReal := fun y =>
  arg5.view.read (Elt Ideal) G5 y
    + ∑ j : Fin 256, arg6.view.read (Elt Ideal) X6 (ix2 j (⟨(y 1).val, (y 1).isLt⟩ : Fin 2048)) * v7 (ix3 (0 : Fin 1) j (⟨(y 2).val, (y 2).isLt⟩ : Fin 1024))

/-- Every piece of the trips before `n` sits on one of the chunks below `n`, and its payload is `after` there. -/
theorem pieces_ok : ∀ (n : ℕ) (hn : n ≤ k1_t1_loop.trips), ∀ p ∈ pb_k1_t1 (F := Ideal) 𝒱 c bd i arg2 harg2 arg3 harg3 arg4 harg4 arg5 harg5 arg6 harg6 v7 X6 G5 n,
    (∃ k : Fin k1_t1_loop.trips, k.val < n ∧ p.1 = rect2 k)
      ∧ ∀ x : p.1.shape.Idx, p.2 x = after arg5 arg6 v7 X6 G5 (p.1.emb x)
  | 0, _ => fun p hp => absurd hp (List.not_mem_nil)
  | n + 1, hn => fun p hp => by
    have hk : n < k1_t1_loop.trips := hn
    have hs := pb_k1_t1_succ (F := Ideal) 𝒱 c bd i arg2 harg2 arg3 harg3 arg4 harg4 arg5 harg5 arg6 harg6 v7 X6 G5 ⟨n, hk⟩
    rw [show (⟨n, hk⟩ : Fin k1_t1_loop.trips).val + 1 = n + 1 from rfl] at hs
    rw [hs, tripL_eq] at hp
    rcases List.mem_append.mp hp with h | h
    · rw [List.mem_singleton] at h
      subst h
      refine ⟨⟨⟨n, hk⟩, Nat.lt_succ_self n, rfl⟩, fun x => ?_⟩
      obtain ⟨u, r, cc, rfl⟩ : ∃ (u : Fin 1) (r : Fin 512) (cc : Fin 1024), x = ix3 u r cc := ⟨x 0, x 1, x 2, eq_ix3 x⟩
      obtain rfl : u = 0 := Subsingleton.elim _ _
      refine (pay3_apply v7 _ _ r cc).trans ?_
      unfold after
      refine congrArg₂ (· + ·) ?_ (Finset.sum_congr rfl fun j _ => congrArg₂ (· * ·) ?_ ?_)
      · show arg5.view.read (Elt Ideal) (arg5.view.writes (Elt Ideal) G5 (pb_k1_t1 (F := Ideal) 𝒱 c bd i arg2 harg2 arg3 harg3 arg4 harg4 arg5 harg5 arg6 harg6 v7 X6 G5 n))
            ((rect2 ⟨n, hk⟩).emb (ix3 (0 : Fin 1) r cc)) = _
        exact View.read_writes_apply_of_forall_not_mem _ _ _ _ (fun p' hp' => by
          obtain ⟨⟨k', hk', e⟩, -⟩ := pieces_ok n (Nat.le_of_lt hk) p' hp'
          rw [e]; exact not_mem_earlier ⟨n, hk⟩ k' hk' _)
      · show arg6.view.read (Elt Ideal) X6 ((rect1 ⟨n, hk⟩).emb (ix2 j r)) = _
        refine congrArg (arg6.view.read (Elt Ideal) X6) (funext fun a => Fin.ext ?_)
        match a with
        | ⟨0, _⟩ => exact (emb1_val ⟨n, hk⟩ (ix2 j r)).1.trans (Nat.zero_add _)
        | ⟨1, _⟩ => exact (emb1_val ⟨n, hk⟩ (ix2 j r)).2.trans ((emb2_val ⟨n, hk⟩ (ix3 (0 : Fin 1) r cc)).2.1).symm
      · refine congrArg v7 (funext fun a => Fin.ext ?_)
        match a with
        | ⟨0, _⟩ => rfl
        | ⟨1, _⟩ => rfl
        | ⟨2, _⟩ => exact ((emb2_val ⟨n, hk⟩ (ix3 (0 : Fin 1) r cc)).2.2.trans (Nat.zero_add _)).symm
    · obtain ⟨⟨k, hk', e⟩, hx⟩ := pieces_ok n (Nat.le_of_lt hk) p h
      exact ⟨⟨k, Nat.lt_succ_of_lt hk', e⟩, hx⟩

/-- AFTER THE LOOP the buffer reads `after` wherever a chunk covers. -/
theorem read_loop (y : S1x2048x1024.Idx)
    (hy : ∃ p ∈ pb_k1_t1 (F := Ideal) 𝒱 c bd i arg2 harg2 arg3 harg3 arg4 harg4 arg5 harg5 arg6 harg6 v7 X6 G5 k1_t1_loop.trips, y ∈ p.1.set) :
    arg5.view.read (Elt Ideal) (arg5.view.writes (Elt Ideal) G5 (pb_k1_t1 (F := Ideal) 𝒱 c bd i arg2 harg2 arg3 harg3 arg4 harg4 arg5 harg5 arg6 harg6 v7 X6 G5 k1_t1_loop.trips)) y
      = after arg5 arg6 v7 X6 G5 y :=
  View.read_writes_apply_of_pieces _ _ (after arg5 arg6 v7 X6 G5) _
    (fun p hp => (pieces_ok 𝒱 c bd i arg2 harg2 arg3 harg3 arg4 harg4 arg5 harg5 arg6 harg6 v7 X6 G5 k1_t1_loop.trips (Nat.le_refl _) p hp).2) y hy

end Cert.KernelIdeal.Loop1

end
-- ==== Proof.Att.lean ====
/-
  The attention kernel's output block point by point, at F := Ideal: the contribution of one grid point (one block of
  256 keys against all 2048 queries of a batch) and the running sum over the key blocks of a batch, restarted from the
  literal +0.0 at the first key block of every batch.
-/
import proofs.«103110_j15822659518595_2_alg».proof.Proof.KI.Region1
import proofs.«103110_j15822659518595_2_alg».proof.Proof.Pay1

noncomputable section

namespace Cert.KernelIdeal.Att

open Idealize.ShloMosaic Idealize.ShloMosaic.TcCoe Idealize.ShloMosaic.ValueIdx Idealize.SL.Sem
open Cert.KernelIdeal Cert.KernelIdeal.Gen Cert.KernelIdeal.Hand Cert.KernelIdeal.Pay

variable (V : (c : Dev nD) → (b : Ref sig .tc) → Buf (Elt Ideal) ((c : Thread nD τ).loc b)) (c : Dev nD)

/-- The three input blocks of point `t`, as vectors. -/
abbrev qB (t : Fin cfg1.N) : FVec Ideal S1x2048x1024 .bf16 := iblk1 V c 0 t
abbrev kB (t : Fin cfg1.N) : FVec Ideal S1x256x1024 .bf16 := iblk1 V c 1 t
abbrev vB (t : Fin cfg1.N) : FVec Ideal S1x256x1024 .bf16 := iblk1 V c 2 t

/-- What point `t` adds to the output block at (0, i, col). -/
def contribAt (t : Fin cfg1.N) (i : Fin 2048) (col : Fin 1024) : EReal :=
  ∑ j : Fin 256, pB (qB V c t) (kB V c t) j i * vB V c t (ix3 (0 : Fin 1) j col)

/-- The output block after point `n`, at (0, i, col). -/
def accAt : (n : ℕ) → n < cfg1.N → Fin 2048 → Fin 1024 → EReal
  | 0, hn => fun i col => Ideal.ofBits .f32 0x00000000#32 + contribAt V c ⟨0, hn⟩ i col
  | n + 1, hn => fun i col =>
    if (n + 1) % 8 = 0 then Ideal.ofBits .f32 0x00000000#32 + contribAt V c ⟨n + 1, hn⟩ i col
    else accAt n (Nat.lt_of_succ_lt hn) i col + contribAt V c ⟨n + 1, hn⟩ i col

theorem accAt_first (t : Fin cfg1.N) (h : t.val % 8 = 0) (i : Fin 2048) (col : Fin 1024) :
    accAt V c t.val t.isLt i col = Ideal.ofBits .f32 0x00000000#32 + contribAt V c t i col := by
  obtain ⟨n, hn⟩ := t
  cases n with
  | zero => rfl
  | succ n => exact (if_pos h).trans rfl

theorem accAt_next (t : Fin cfg1.N) (h : ¬ t.val % 8 = 0) (i : Fin 2048) (col : Fin 1024) :
    accAt V c t.val t.isLt i col
      = accAt V c (t.val - 1) (Nat.lt_of_le_of_lt (Nat.sub_le _ _) t.isLt) i col + contribAt V c t i col := by
  obtain ⟨n, hn⟩ := t
  cases n with
  | zero => exact absurd (Nat.zero_mod _) h
  | succ n => exact (if_neg h).trans rfl

end Cert.KernelIdeal.Att

end
-- ==== Proof.Value1.lean ====
/-
  What the attention kernel's output buffer holds after each grid point, at F := Ideal, read at an index.

  One run of the body leaves, at (0, r, c):  the buffer's prior entry (the literal +0.0 at the first key block of a batch)
  plus ∑ⱼ p(j, r) · v(0, j, c), p the normalised score block of the point's query and key blocks.  Folding this over the
  points gives the running sum `accAt`.
-/
import proofs.«103110_j15822659518595_2_alg».proof.Proof.KI.Region1
import proofs.«103110_j15822659518595_2_alg».proof.Proof.Loop1
import proofs.«103110_j15822659518595_2_alg».proof.Proof.Att
import Idealize.ShloMosaic.Lib.Tactic

set_option maxRecDepth 16384

noncomputable section

namespace Cert.KernelIdeal.Value1

open Idealize.ShloMosaic Idealize.ShloMosaic.TcCoe Idealize.ShloMosaic.Tactic Idealize.ShloMosaic.ValueIdx Idealize.SL.Sem
open Cert.KernelIdeal Cert.KernelIdeal.Gen Cert.KernelIdeal.Hand Cert.KernelIdeal.Pay Cert.KernelIdeal.Att

/-! ## Whole-buffer loads and stores -/

theorem z3 : (![0, 0, 0] : Fin 3 → ℕ) = fun _ => 0 := by
  funext a; match a with | ⟨0, _⟩ => rfl | ⟨1, _⟩ => rfl | ⟨2, _⟩ => rfl
theorem z2 : (![0, 0] : Fin 2 → ℕ) = fun _ => 0 := by
  funext a; match a with | ⟨0, _⟩ => rfl | ⟨1, _⟩ => rfl

section Run
variable (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole)
  (x0 : FVec Ideal S1x2048x1024 .bf16) (x1 : FVec Ideal S1x256x1024 .bf16) (x2 : FVec Ideal S1x256x1024 .bf16)

abbrev rq : Rect S1x2048x1024 := Rect.unit (s := S1x2048x1024) ![0, 0, 0] S1x2048x1024.size inb_S1x2048x1024_S1x2048x1024_0_0_0
abbrev rk : Rect S1x256x1024 := Rect.unit (s := S1x256x1024) ![0, 0, 0] S1x256x1024.size inb_S1x256x1024_S1x256x1024_0_0_0
abbrev rs : Rect S256x2048 := Rect.unit (s := S256x2048) ![0, 0] S256x2048.size inb_S256x2048_S256x2048_0_0

/-- A whole-buffer load of a buffer holding `x` reads `x`. -/
theorem ld_q {m : Memref sig .tc .vmem S1x2048x1024 .bf16} (h : m.IsWhole) (x : FVec Ideal S1x2048x1024 .bf16) :
    View.readAt (Elt Ideal) m.view rq.toLoadRect (h.unread x) = x := by
  have h1 : m.view.read (Elt Ideal) (h.unread x) = x := h.read_unread (Val := Elt Ideal) x
  show View.ld (m.view.read (Elt Ideal) (h.unread x)) rq = x
  refine (congrArg (fun X => View.ld X rq) h1).trans ?_
  exact View.ld_unit_zero (Val := Elt Ideal) (e := .bf16) z3 _ x
theorem ld_k {m : Memref sig .tc .vmem S1x256x1024 .bf16} (h : m.IsWhole) (x : FVec Ideal S1x256x1024 .bf16) :
    View.readAt (Elt Ideal) m.view rk.toLoadRect (h.unread x) = x := by
  have h1 : m.view.read (Elt Ideal) (h.unread x) = x := h.read_unread (Val := Elt Ideal) x
  show View.ld (m.view.read (Elt Ideal) (h.unread x)) rk = x
  refine (congrArg (fun X => View.ld X rk) h1).trans ?_
  exact View.ld_unit_zero (Val := Elt Ideal) (e := .bf16) z3 _ x

/-- The value block as the body loads it. -/
abbrev ldV : FVec Ideal S1x256x1024 .bf16 := View.readAt (Elt Ideal) arg4.view rk.toLoadRect (harg4.unread x2)

/-- The scratch buffer's contents at loop entry: the normalised score block stored whole. -/
abbrev scr : BufTy.Contents (Elt Ideal) arg6.view.ty :=
  arg6.view.writes (Elt Ideal) arg6.view.junk
    [⟨rs, k1_pay2 (F := Ideal) (View.readAt (Elt Ideal) arg2.view rq.toLoadRect (harg2.unread x0))
        (View.readAt (Elt Ideal) arg3.view rk.toLoadRect (harg3.unread x1))⟩]

theorem ldV_eq : ldV arg4 harg4 x2 = x2 := ld_k harg4 x2

theorem scr_read (j : Fin 256) (r : Fin 2048) :
    arg6.view.read (Elt Ideal) (scr arg2 harg2 arg3 harg3 arg6 x0 x1) (ix2 j r) = pB x0 x1 j r := by
  have hcov : ∀ y : S256x2048.Idx, ∃ p ∈ ([⟨rs, k1_pay2 (F := Ideal) (View.readAt (Elt Ideal) arg2.view rq.toLoadRect (harg2.unread x0))
        (View.readAt (Elt Ideal) arg3.view rk.toLoadRect (harg3.unread x1))⟩] : List (View.Piece (Elt Ideal) S256x2048 .bf16)), y ∈ p.1.set :=
    fun y => ⟨_, List.mem_singleton_self _, View.mem_set_unit_zero z2 inb_S256x2048_S256x2048_0_0 y⟩
  refine (congrFun (View.read_writes_eq_canon arg6.view arg6.view.junk _ hcov) (ix2 j r)).trans ?_
  rw [View.canon_unit_zero z2, ld_q harg2 x0, ld_k harg3 x1]
  exact pay2_apply x0 x1 j r

/-! ## The pieces the two runs found -/

theorem piecesB (hc : ¬ cond1 i) (xo : FVec Ideal S1x2048x1024 .f32) :
    (kernelRun1_B (F := Ideal) c i arg2 harg2 arg3 harg3 arg4 harg4 arg5 harg5 arg6 harg6 hc x0 x1 x2 xo).1
      = pb_k1_t1 (F := Ideal) Variants.none c none i arg2 harg2 arg3 harg3 arg4 harg4 arg5 harg5 arg6 harg6 (ldV arg4 harg4 x2) (scr arg2 harg2 arg3 harg3 arg6 x0 x1)
          (harg5.unread xo) k1_t1_loop.trips := by
  unfold kernelRun1_B
  dsimp only
  sl_unfold_run_names
  rfl

theorem piecesA (hc : cond1 i) :
    (kernelRun1_A (F := Ideal) c i arg2 harg2 arg3 harg3 arg4 harg4 arg5 harg5 arg6 harg6 hc x0 x1 x2).1
      = pb_k1_t1 (F := Ideal) Variants.none c none i arg2 harg2 arg3 harg3 arg4 harg4 arg5 harg5 arg6 harg6 (ldV arg4 harg4 x2) (scr arg2 harg2 arg3 harg3 arg6 x0 x1)
          (arg5.view.writes (Elt Ideal) arg5.view.junk
            [⟨rq, k1_pay1 (F := Ideal)⟩])
          k1_t1_loop.trips
        ++ [⟨rq, k1_pay1 (F := Ideal)⟩] := by
  unfold kernelRun1_A
  dsimp only
  sl_unfold_run_names
  rfl

end Run

/-! ## The four chunks cover the block -/

section Outs
variable (c : Dev nD) (i : grid1.Coords) (arg2 : Memref sig .tc .vmem S1x2048x1024 .bf16) (harg2 : arg2.IsWhole) (arg3 : Memref sig .tc .vmem S1x256x1024 .bf16) (harg3 : arg3.IsWhole)
    (arg4 : Memref sig .tc .vmem S1x256x1024 .bf16) (harg4 : arg4.IsWhole) (arg5 : Memref sig .tc .vmem S1x2048x1024 .f32) (harg5 : arg5.IsWhole)
    (arg6 : Memref sig .tc .vmem S256x2048 .bf16) (harg6 : arg6.IsWhole)
  (x0 : FVec Ideal S1x2048x1024 .bf16) (x1 : FVec Ideal S1x256x1024 .bf16) (x2 : FVec Ideal S1x256x1024 .bf16)

theorem cover_pb (v7 : FVec Ideal S1x256x1024 .bf16) (X6 : BufTy.Contents (Elt Ideal) arg6.view.ty) (G5 : BufTy.Contents (Elt Ideal) arg5.view.ty)
    (y : S1x2048x1024.Idx) :
    ∃ p ∈ pb_k1_t1 (F := Ideal) Variants.none c none i arg2 harg2 arg3 harg3 arg4 harg4 arg5 harg5 arg6 harg6 v7 X6 G5 k1_t1_loop.trips, y ∈ p.1.set :=
  View.cover_of_tiledL (s := S1x2048x1024) _ S1x512x1024.size (by sl_kernel_rfl) y

/-! ## What each case leaves, at an index -/

theorem out1_B_apply (hc : ¬ cond1 i) (xo : FVec Ideal S1x2048x1024 .f32) (r : Fin 2048) (col : Fin 1024) :
    out1_B (F := Ideal) c i arg2 harg2 arg3 harg3 arg4 harg4 arg5 harg5 arg6 harg6 hc x0 x1 x2 xo (ix3 (0 : Fin 1) r col)
      = xo (ix3 (0 : Fin 1) r col) + ∑ j : Fin 256, pB x0 x1 j r * x2 (ix3 (0 : Fin 1) j col) := by
  unfold out1_B
  refine (congrFun (View.read_writes_of_cover VO1 VO1.junk arg5.view (harg5.unread xo) _
    (cover1_B (F := Ideal) c i arg2 harg2 arg3 harg3 arg4 harg4 arg5 harg5 arg6 harg6 hc x0 x1 x2 xo)) (ix3 (0 : Fin 1) r col)).trans ?_
  rw [piecesB]
  refine (Loop1.read_loop Variants.none c none i arg2 harg2 arg3 harg3 arg4 harg4 arg5 harg5 arg6 harg6 _ _ _ (ix3 (0 : Fin 1) r col) (cover_pb c i arg2 harg2 arg3 harg3 arg4 harg4 arg5 harg5 arg6 harg6 _ _ _ _)).trans ?_
  show arg5.view.read (Elt Ideal) (harg5.unread xo) (ix3 (0 : Fin 1) r col)
      + ∑ j : Fin 256, arg6.view.read (Elt Ideal) (scr arg2 harg2 arg3 harg3 arg6 x0 x1) (ix2 j r) * ldV arg4 harg4 x2 (ix3 (0 : Fin 1) j col) = _
  rw [harg5.read_unread, ldV_eq]
  exact congrArg (_ + ·) (Finset.sum_congr rfl fun j _ => by rw [scr_read])

theorem out1_A_apply (hc : cond1 i) (r : Fin 2048) (col : Fin 1024) :
    out1_A (F := Ideal) c i arg2 harg2 arg3 harg3 arg4 harg4 arg5 harg5 arg6 harg6 hc x0 x1 x2 (ix3 (0 : Fin 1) r col)
      = Ideal.ofBits .f32 0x00000000#32 + ∑ j : Fin 256, pB x0 x1 j r * x2 (ix3 (0 : Fin 1) j col) := by
  unfold out1_A
  refine (congrFun (View.read_writes_of_cover VO1 VO1.junk arg5.view arg5.view.junk _
    (cover1_A (F := Ideal) c i arg2 harg2 arg3 harg3 arg4 harg4 arg5 harg5 arg6 harg6 hc x0 x1 x2)) (ix3 (0 : Fin 1) r col)).trans ?_
  rw [piecesA, View.writes_append]
  refine (Loop1.read_loop Variants.none c none i arg2 harg2 arg3 harg3 arg4 harg4 arg5 harg5 arg6 harg6 _ _ _ (ix3 (0 : Fin 1) r col) (cover_pb c i arg2 harg2 arg3 harg3 arg4 harg4 arg5 harg5 arg6 harg6 _ _ _ _)).trans ?_
  show arg5.view.read (Elt Ideal) (arg5.view.writes (Elt Ideal) arg5.view.junk [⟨rq, k1_pay1 (F := Ideal)⟩]) (ix3 (0 : Fin 1) r col)
      + ∑ j : Fin 256, arg6.view.read (Elt Ideal) (scr arg2 harg2 arg3 harg3 arg6 x0 x1) (ix2 j r) * ldV arg4 harg4 x2 (ix3 (0 : Fin 1) j col) = _
  have hz : arg5.view.read (Elt Ideal) (arg5.view.writes (Elt Ideal) arg5.view.junk [⟨rq, k1_pay1 (F := Ideal)⟩]) (ix3 (0 : Fin 1) r col)
      = Ideal.ofBits .f32 0x00000000#32 := by
    have hcov : ∀ y : S1x2048x1024.Idx, ∃ p ∈ ([⟨rq, k1_pay1 (F := Ideal)⟩] : List (View.Piece (Elt Ideal) S1x2048x1024 .f32)), y ∈ p.1.set :=
      fun y => ⟨_, List.mem_singleton_self _, View.mem_set_unit_zero z3 inb_S1x2048x1024_S1x2048x1024_0_0_0 y⟩
    refine (congrFun (View.read_writes_eq_canon arg5.view arg5.view.junk _ hcov) (ix3 (0 : Fin 1) r col)).trans ?_
    rw [View.canon_unit_zero z3]
    exact pay1_apply _
  rw [hz, ldV_eq]
  exact congrArg (_ + ·) (Finset.sum_congr rfl fun j _ => by rw [scr_read])

end Outs

/-! ## The running sum -/

theorem outsAt1_apply (V : (c : Dev nD) → (b : Ref sig .tc) → Buf (Elt Ideal) ((c : Thread nD τ).loc b)) (c : Dev nD) (t : Fin cfg1.N) :
    ∀ (i : Fin 2048) (col : Fin 1024), outsAt1 (F := Ideal) V c t.val t.isLt (ix3 (0 : Fin 1) i col) = accAt V c t.val t.isLt i col := by
  obtain ⟨n, hn⟩ := t
  induction n with
  | zero =>
    intro i col
    refine (congrFun (outsAt1_A V c ⟨0, hn⟩ rfl) _).trans ?_
    refine (out1_A_apply c _ _ _ _ _ _ _ _ _ _ _ _ _ _ _ i col).trans ?_
    exact (accAt_first V c ⟨0, hn⟩ rfl i col).symm
  | succ n ih =>
    intro i col
    by_cases h0 : (n + 1) % 8 = 0
    · refine (congrFun (outsAt1_A V c ⟨n + 1, hn⟩ h0) _).trans ?_
      refine (out1_A_apply c _ _ _ _ _ _ _ _ _ _ _ _ _ _ _ i col).trans ?_
      exact (accAt_first V c ⟨n + 1, hn⟩ h0 i col).symm
    · refine (congrFun (outsAt1_B V c ⟨n + 1, hn⟩ h0) _).trans ?_
      refine (out1_B_apply c _ _ _ _ _ _ _ _ _ _ _ _ _ _ _ _ i col).trans ?_
      refine Eq.trans ?_ (accAt_next V c ⟨n + 1, hn⟩ h0 i col).symm
      exact congrArg (· + _) (ih (Nat.lt_of_succ_lt hn) i col)

end Cert.KernelIdeal.Value1

end
-- ==== Proof.Final1.lean ====
/-
  What the attention kernel leaves in its output array, at the ideal instance, from what its output buffer holds after
  each grid point.  The grid point t = 8·bb + jb reads all 2048 query rows of batch bb, the jb-th block of 256 key rows
  and of 256 value rows of that batch, and the output block of batch bb is written back once, after the last key block
  (jb = 7).  Stated here: each window's block as a part of its array (block index × block size + the coordinate inside
  the block), and the output array after the region: element (bb, i, col) is what the buffer held at (0, i, col) after
  the point 8·bb + 7, the eight write-backs' blocks covering the array.
-/
import proofs.«103110_j15822659518595_2_alg».proof.Proof.KI.Region1
import proofs.«103110_j15822659518595_2_alg».proof.Proof.Att
import Idealize.ShloMosaic.Lib.Pipeline.Value
import Idealize.ShloMosaic.Lib.ValueIdx

set_option maxRecDepth 16384

noncomputable section

namespace Cert.KernelIdeal.Final1

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand Cert.KernelIdeal.Att

variable (V : (c : Dev nD) → (b : Ref sig .tc) → Buf (Elt Ideal) ((c : Thread nD τ).loc b))

theorem lt64 (t : Fin cfg1.N) : t.val < 64 := Nat.lt_of_lt_of_eq t.isLt N_1

/-- The grid point of batch bb and key block jb. -/
theorem pt_lt (bb jb : Fin 8) : 8 * bb.val + jb.val < cfg1.N := by
  rw [show cfg1.N = 64 from N_1]; omega

abbrev pt (bb jb : Fin 8) : Fin cfg1.N := ⟨8 * bb.val + jb.val, pt_lt bb jb⟩

/-- The last point of batch b. -/
theorem last_lt (b : ℕ) (hb : b < 8) : 8 * b + 7 < cfg1.N := by
  rw [show cfg1.N = 64 from N_1]; omega

/-! ## The windows' blocks as parts of their arrays -/

/-- The printed index maps, decided over the grid: at point t the batch is t / 8 and the key block is t % 8. -/
theorem idx_facts1 : ∀ t : Fin cfg1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = t.val % 8 ∧ win1_1.index t (2 : Fin 3) = 0
    ∧ win1_2.index t (0 : Fin 3) = t.val / 8 ∧ win1_2.index t (1 : Fin 3) = t.val % 8 ∧ win1_2.index t (2 : Fin 3) = 0
    ∧ win1_3.index t (0 : Fin 3) = t.val / 8 ∧ win1_3.index t (1 : Fin 3) = 0 ∧ win1_3.index t (2 : Fin 3) = 0 :=
  (by decide +kernel : ∀ t : Fin grid1.N, _)

/-- The query block at point t is batch t / 8 of the queries. -/
theorem qB_apply (c : Dev nD) (t : Fin cfg1.N) (bb : Fin 8) (hbb : bb.val = t.val / 8) (i : Fin 2048) (d : Fin 1024) :
    qB V c t (ix3 (0 : Fin 1) i d) = (V c main_v3 : S8x2048x1024.Idx → EReal) (ix3 bb i d) := by
  obtain ⟨e0, e1, e2, -⟩ := idx_facts1 t
  show (iblk1 (F := Ideal) V c 0 t : Vec Ideal S1x2048x1024 .bf16) (ix3 (0 : Fin 1) i d) = _
  unfold iblk1
  rw [View.read_apply]
  show (V c main_v3 : S8x2048x1024.Idx → EReal) _ = _
  congr 1
  funext a
  apply Fin.ext
  match a with
  | ⟨0, _⟩ => show win1_0.index t (0 : Fin 3) * 1 + 1 * 0 = bb.val; rw [e0, hbb]; omega
  | ⟨1, _⟩ => show win1_0.index t (1 : Fin 3) * 2048 + 1 * i.val = i.val; rw [e1]; omega
  | ⟨2, _⟩ => show win1_0.index t (2 : Fin 3) * 1024 + 1 * d.val = d.val; rw [e2]; omega

/-- The key block at point t is rows 256 (t % 8) … of batch t / 8 of the keys. -/
theorem kB_apply (c : Dev nD) (t : Fin cfg1.N) (bb : Fin 8) (hbb : bb.val = t.val / 8) (j : Fin 256) (r : Fin 2048)
    (hr : r.val = 256 * (t.val % 8) + j.val) (d : Fin 1024) :
    kB V c t (ix3 (0 : Fin 1) j d) = (V c main_v4 : S8x2048x1024.Idx → EReal) (ix3 bb r d) := by
  obtain ⟨-, -, -, e0, e1, e2, -⟩ := idx_facts1 t
  show (iblk1 (F := Ideal) V c 1 t : Vec Ideal S1x256x1024 .bf16) (ix3 (0 : Fin 1) j d) = _
  unfold iblk1
  rw [View.read_apply]
  show (V c main_v4 : S8x2048x1024.Idx → EReal) _ = _
  congr 1
  funext a
  apply Fin.ext
  match a with
  | ⟨0, _⟩ => show win1_1.index t (0 : Fin 3) * 1 + 1 * 0 = bb.val; rw [e0, hbb]; omega
  | ⟨1, _⟩ => show win1_1.index t (1 : Fin 3) * 256 + 1 * j.val = r.val; rw [e1, hr]; omega
  | ⟨2, _⟩ => show win1_1.index t (2 : Fin 3) * 1024 + 1 * d.val = d.val; rw [e2]; omega

/-- The value block at point t is rows 256 (t % 8) … of batch t / 8 of the values. -/
theorem vB_apply (c : Dev nD) (t : Fin cfg1.N) (bb : Fin 8) (hbb : bb.val = t.val / 8) (j : Fin 256) (r : Fin 2048)
    (hr : r.val = 256 * (t.val % 8) + j.val) (d : Fin 1024) :
    vB V c t (ix3 (0 : Fin 1) j d) = (V c main_v5 : S8x2048x1024.Idx → EReal) (ix3 bb r d) := by
  obtain ⟨-, -, -, -, -, -, e0, e1, e2, -⟩ := idx_facts1 t
  show (iblk1 (F := Ideal) V c 2 t : Vec Ideal S1x256x1024 .bf16) (ix3 (0 : Fin 1) j d) = _
  unfold iblk1
  rw [View.read_apply]
  show (V c main_v5 : S8x2048x1024.Idx → EReal) _ = _
  congr 1
  funext a
  apply Fin.ext
  match a with
  | ⟨0, _⟩ => show win1_2.index t (0 : Fin 3) * 1 + 1 * 0 = bb.val; rw [e0, hbb]; omega
  | ⟨1, _⟩ => show win1_2.index t (1 : Fin 3) * 256 + 1 * j.val = r.val; rw [e1, hr]; omega
  | ⟨2, _⟩ => show win1_2.index t (2 : Fin 3) * 1024 + 1 * d.val = d.val; rw [e2]; omega

/-! ### The same three, at the point of batch bb and key block jb -/

theorem key_row_lt (jb : Fin 8) (j : Fin 256) : 256 * jb.val + j.val < 2048 := by omega

theorem qB_at (c : Dev nD) (bb jb : Fin 8) (i : Fin 2048) (d : Fin 1024) :
    qB V c (pt bb jb) (ix3 (0 : Fin 1) i d) = (V c main_v3 : S8x2048x1024.Idx → EReal) (ix3 bb i d) :=
  qB_apply V c (pt bb jb) bb (by show bb.val = (8 * bb.val + jb.val) / 8; omega) i d

theorem kB_at (c : Dev nD) (bb jb : Fin 8) (j : Fin 256) (d : Fin 1024) :
    kB V c (pt bb jb) (ix3 (0 : Fin 1) j d)
      = (V c main_v4 : S8x2048x1024.Idx → EReal) (ix3 bb (⟨256 * jb.val + j.val, key_row_lt jb j⟩ : Fin 2048) d) :=
  kB_apply V c (pt bb jb) bb (by show bb.val = (8 * bb.val + jb.val) / 8; omega) j ⟨256 * jb.val + j.val, key_row_lt jb j⟩
    (by show 256 * jb.val + j.val = 256 * ((8 * bb.val + jb.val) % 8) + j.val; omega) d

theorem vB_at (c : Dev nD) (bb jb : Fin 8) (j : Fin 256) (d : Fin 1024) :
    vB V c (pt bb jb) (ix3 (0 : Fin 1) j d)
      = (V c main_v5 : S8x2048x1024.Idx → EReal) (ix3 bb (⟨256 * jb.val + j.val, key_row_lt jb j⟩ : Fin 2048) d) :=
  vB_apply V c (pt bb jb) bb (by show bb.val = (8 * bb.val + jb.val) / 8; omega) j ⟨256 * jb.val + j.val, key_row_lt jb j⟩
    (by show 256 * jb.val + j.val = 256 * ((8 * bb.val + jb.val) % 8) + j.val; omega) d

/-! ## The output array after the region -/

/-- The running sum does not depend on how its point is written. -/
theorem accAt_congr (c : Dev nD) (n m : ℕ) (h : n = m) (hn : n < cfg1.N) (hm : m < cfg1.N) (i : Fin 2048) (col : Fin 1024) :
    accAt V c n hn i col = accAt V c m hm i col := by
  subst h; rfl

/-- The array the write-backs leave: at (bb, i, col), the running sum after the last point of batch bb. -/
def G1 (c : Dev nD) : S8x2048x1024.Idx → EReal := fun y =>
  accAt V c (8 * (y 0).val + 7) (last_lt _ (y 0).isLt) ⟨(y 1).val, (y 1).isLt⟩ ⟨(y 2).val, (y 2).isLt⟩

section Out

variable (c : Dev nD)
  (hout : ∀ (t : Fin cfg1.N) (i : Fin 2048) (col : Fin 1024),
    outsAt1 (F := Ideal) V c t.val t.isLt (ix3 (0 : Fin 1) i col) = accAt V c t.val t.isLt i col)

include hout in
/-- What a write-back point writes is its batch's block of that array. -/
theorem flushed1_3_eq (t : Fin cfg1.N) (hf : (cfg1.win 3).flush t = true) :
    (dat1 (F := Ideal) V c).flushed 3 t = ((cfg1.win 3).blk t).view.read (Elt Ideal) (G1 V c) := by
  have h : t.val % 8 = 7 := (flush1_3 t).mp hf
  have hN : t.val < 64 := lt64 t
  obtain ⟨-, -, -, -, -, -, -, -, -, e0, e1, e2⟩ := idx_facts1 t
  show (cfg1.win 3).cut (grid1.coords t) ((dat1 V c).after 3 t) = _
  rw [after1_3]
  refine funext fun (j : S1x2048x1024.Idx) => ?_
  obtain ⟨u, i, col, rfl⟩ : ∃ (u : Fin 1) (i : Fin 2048) (col : Fin 1024), j = ix3 u i col := ⟨j 0, j 1, j 2, eq_ix3 j⟩
  obtain rfl : u = 0 := Subsingleton.elim _ _
  have hemb : (((cfg1.win 3).blk t).view.emb (ix3 (0 : Fin 1) i col) : S8x2048x1024.Idx) = ix3 (⟨t.val / 8, by omega⟩ : Fin 8) i col := by
    funext a
    apply Fin.ext
    match a with
    | ⟨0, _⟩ => show win1_3.index t (0 : Fin 3) * 1 + 1 * 0 = t.val / 8; rw [e0]; omega
    | ⟨1, _⟩ => show win1_3.index t (1 : Fin 3) * 2048 + 1 * i.val = i.val; rw [e1]; omega
    | ⟨2, _⟩ => show win1_3.index t (2 : Fin 3) * 1024 + 1 * col.val = col.val; rw [e2]; omega
  show outsAt1 (F := Ideal) V c t.val t.isLt (ix3 (0 : Fin 1) i col) = G1 V c (((cfg1.win 3).blk t).view.emb (ix3 (0 : Fin 1) i col))
  refine Eq.trans ?_ (congrArg (G1 V c) hemb.symm)
  refine (hout t i col).trans ?_
  show accAt V c t.val t.isLt i col = accAt V c (8 * (t.val / 8) + 7) _ i col
  exact accAt_congr V c _ _ (by omega) _ _ i col

/-- An index of the array is in point t's block iff each coordinate is in the block's range on its axis. -/
theorem mem_blk1_3 (t : Fin cfg1.N) (y : S8x2048x1024.Idx) :
    y ∈ ((cfg1.win 3).blk t).view.set ↔ ∀ a : Fin 3, win1_3.index t a * S1x2048x1024.size a ≤ (y a).val ∧ (y a).val < win1_3.index t a * S1x2048x1024.size a + S1x2048x1024.size a := by
  show y ∈ ((View.whole main_v6).slice (win1_3.rect t)).set ↔ _
  rw [View.set_slice_whole, Rect.mem_set_unit]
  exact Iff.rfl

/-- Element (bb, i, col) is in the block written back at the last point of batch bb. -/
theorem cover1_3 (y : S8x2048x1024.Idx) : ∃ t : Fin cfg1.N, (cfg1.win 3).flush t = true ∧ y ∈ ((cfg1.win 3).blk t).view.set := by
  have h0 : (y 0).val < 8 := (y 0).isLt
  have h1 : (y 1).val < 2048 := (y 1).isLt
  have h2 : (y 2).val < 1024 := (y 2).isLt
  have hlt : 8 * (y 0).val + 7 < cfg1.N := last_lt _ h0
  obtain ⟨-, -, -, -, -, -, -, -, -, e0, e1, e2⟩ := idx_facts1 ⟨8 * (y 0).val + 7, hlt⟩
  refine ⟨⟨8 * (y 0).val + 7, hlt⟩, (flush1_3 _).mpr (by show (8 * (y 0).val + 7) % 8 = 7; omega), ?_⟩
  rw [mem_blk1_3]
  intro a
  match a with
  | ⟨0, _⟩ =>
    show win1_3.index ⟨8 * (y 0).val + 7, hlt⟩ (0 : Fin 3) * 1 ≤ (y 0).val ∧ (y 0).val < win1_3.index ⟨8 * (y 0).val + 7, hlt⟩ (0 : Fin 3) * 1 + 1
    rw [e0]
    show (8 * (y 0).val + 7) / 8 * 1 ≤ (y 0).val ∧ (y 0).val < (8 * (y 0).val + 7) / 8 * 1 + 1
    omega
  | ⟨1, _⟩ =>
    show win1_3.index ⟨8 * (y 0).val + 7, hlt⟩ (1 : Fin 3) * 2048 ≤ (y 1).val ∧ (y 1).val < win1_3.index ⟨8 * (y 0).val + 7, hlt⟩ (1 : Fin 3) * 2048 + 2048
    rw [e1]
    omega
  | ⟨2, _⟩ =>
    show win1_3.index ⟨8 * (y 0).val + 7, hlt⟩ (2 : Fin 3) * 1024 ≤ (y 2).val ∧ (y 2).val < win1_3.index ⟨8 * (y 0).val + 7, hlt⟩ (2 : Fin 3) * 1024 + 1024
    rw [e2]
    omega

include hout in
/-- The output array after the region, as one function of its index. -/
theorem final1_3_array : ((dat1 (F := Ideal) V c).arrAt 3 cfg1.N : S8x2048x1024.Idx → EReal) = G1 V c :=
  (dat1 (F := Ideal) V c).arrAt_eq_of_cover 3 (G1 V c) (fun t hf => flushed1_3_eq V c hout t hf) cover1_3

include hout in
/-- The output array after the region at (bb, i, col): the running sum after the point 8·bb + 7. -/
theorem final1_3 (bb : Fin 8) (i : Fin 2048) (col : Fin 1024) :
    ((dat1 (F := Ideal) V c).arrAt 3 cfg1.N : S8x2048x1024.Idx → EReal) (ix3 bb i col)
      = accAt V c (8 * bb.val + 7) (last_lt _ bb.isLt) i col :=
  (congrFun (final1_3_array V c hout) (ix3 bb i col)).trans rfl

end Out

end Cert.KernelIdeal.Final1

end
-- ==== Proof.LibTiles.lean ====
/-
  Sums taken tile by tile: general facts about finite sums in a commutative monoid, independent of any program.

  A quantity indexed by the points `0, 1, 2, …` of a grid that is RESET to `Z + M n` at every point `n` divisible by
  `J` and STEPS by `+ M n` at every other point is, at the point `J·q + j` with `j < J`, the reset value plus the terms of
  the run `J·q, …, J·q + j`. And a sum over `A` runs of `J` tiles of `B` rows each, every tile summed over its rows, is the
  sum over all `A·J·B` rows: row `r` of tile `t` is row `B·t + r`, tile `s` of run `q` is tile `J·q + s`.
-/
import Mathlib.Algebra.BigOperators.Fin
import Mathlib.Algebra.BigOperators.Intervals
import Mathlib.Logic.Equiv.Fin.Basic

open scoped BigOperators

namespace Cert.LibTiles

variable {β : Type*} [AddCommMonoid β]

/-- THE RUNNING SUM IN CLOSED FORM: reset at the multiples of `J` (`h0`), stepped elsewhere (`hs`). -/
theorem acc_closed {N : ℕ} (f : (n : ℕ) → n < N → β) (J : ℕ) (Z : β) (M : ℕ → β)
    (h0 : ∀ (n : ℕ) (h : n < N), n % J = 0 → f n h = Z + M n)
    (hs : ∀ (n : ℕ) (h : n + 1 < N), ¬(n + 1) % J = 0 → f (n + 1) h = f n (Nat.lt_of_succ_lt h) + M (n + 1))
    (q : ℕ) : ∀ (j : ℕ) (_ : j < J) (h : J * q + j < N),
      f (J * q + j) h = Z + ∑ s ∈ Finset.range (j + 1), M (J * q + s)
  | 0, _, h => by
    rw [Finset.sum_range_one]
    exact h0 _ h (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Finset.sum_range_succ _ (j + 1), ← add_assoc Z,
      ← acc_closed f J Z M h0 hs q j (Nat.lt_of_succ_lt hj) (Nat.lt_of_succ_lt h)]
    exact hs (J * q + j) h hne

/-- A sum over `A` tiles of `B` rows, tile by tile, is the sum over the `A·B` rows: row `r` of tile `k` is row `B·k + r`. -/
theorem sum_tiles (A B : ℕ) (φ : ℕ → β) :
    ∑ k : Fin A, ∑ r : Fin B, φ (B * k.val + r.val) = ∑ h : Fin (A * B), φ h.val := by
  rw [← Fintype.sum_prod_type' (fun (k : Fin A) (r : Fin B) => φ (B * k.val + r.val))]
  refine Fintype.sum_equiv finProdFinEquiv _ _ fun p => congrArg φ ?_
  show B * p.1.val + p.2.val = p.2.val + B * p.1.val
  exact Nat.add_comm _ _

/-- THE REGROUPED SUM: `A` runs of `J` tiles of `B` rows, summed rows first, then tiles of a run, then runs, is the sum
    over all the `N = A·J·B` rows. -/
theorem sum_runs_tiles_rows {A J B N : ℕ} (hN : A * J * B = N) (φ : ℕ → β) :
    ∑ q : Fin A, ∑ s ∈ Finset.range J, ∑ r : Fin B, φ (B * (J * q.val + s) + r.val) = ∑ h : Fin N, φ h.val := by
  subst hN
  rw [← sum_tiles (A * J) B φ, ← sum_tiles A J (fun t => ∑ r : Fin B, φ (B * t + r.val))]
  refine Finset.sum_congr rfl fun q _ => ?_
  rw [Finset.sum_range]

end Cert.LibTiles
-- ==== Proof.Bridge.lean ====
/-
  The attention of one key block, as the kernel computes it, against the specification: pure mathematics on the
  extended reals.

  The kernel multiplies each score by 2⁻¹⁰ where the specification divides by 1024; it handles the 2048 keys in eight
  blocks of 256 (key 256·jb + j' is key j' of block jb), with the key index first and the query index second; and it
  accumulates the eight blocks' contributions one after the other, starting from zero.
-/
import proofs.«103110_j15822659518595_2_alg».proof.Proof.Spec
import proofs.«103110_j15822659518595_2_alg».proof.Proof.Pay1
import proofs.«103110_j15822659518595_2_alg».proof.Proof.LibTiles

noncomputable section

namespace Cert.Bridge

open Idealize.ShloMosaic Idealize.ShloMosaic.ValueIdx Cert.KernelIdeal Cert.KernelIdeal.Pay Cert.Spec

/-! ## The two literals -/

/-- The literal 2⁻¹⁰ denotes the real 1/1024. -/
theorem scale_eq : Cert.KernelIdeal.Pay.scale = (((1 / 1024 : ℝ)) : EReal) := by
  simp [Ideal.ofBits, Ideal.ieee, -EReal.coe_mul]; norm_num

/-- The literal 1024.0 denotes the real 1024. -/
theorem lit1024_eq : Cert.Spec.lit1024 = ((1024 : ℝ) : EReal) := by
  simp [Ideal.ofBits, Ideal.ieee, -EReal.coe_mul]; norm_num

/-- Multiplying by 2⁻¹⁰ is dividing by 1024, at the infinities too. -/
theorem mul_scale (a : EReal) : a * Cert.KernelIdeal.Pay.scale = Ideal.div a Cert.Spec.lit1024 := by
  rw [scale_eq, lit1024_eq, Ideal.div_coe (by norm_num)]

/-! ## One key block against the specification -/

/-- Key j' of block jb among the 2048 keys. -/
def key (jb : Fin 8) (j' : Fin 256) : Fin 2048 := ⟨256 * jb.val + j'.val, by omega⟩

section Block
variable (x : SX.Idx → EReal) (W : SW.Idx → EReal) (b : SB.Idx → EReal) (bb jb : Fin 8)
  (q : FVec Ideal S1x2048x1024 .bf16) (k : FVec Ideal S1x256x1024 .bf16)

/-- The block's score at (key j', query i) is the specification's score at (i, key). -/
theorem sB_eq (hq : ∀ (i : Fin 2048) (d : Fin 1024), q (ix3 (0 : Fin 1) i d) = proj x W b 0 bb i d)
    (hk : ∀ (j' : Fin 256) (d : Fin 1024), k (ix3 (0 : Fin 1) j' d) = proj x W b 1 bb (key jb j') d)
    (j' : Fin 256) (i : Fin 2048) : sB q k j' i = score x W b bb i (key jb j') := by
  unfold sB score
  rw [mul_scale]
  refine congrArg (Ideal.div · lit1024) (Finset.sum_congr rfl fun d _ => ?_)
  rw [hq, hk, mul_comm]

/-- The block's column maximum is the specification's. -/
theorem mB_eq (hq : ∀ (i : Fin 2048) (d : Fin 1024), q (ix3 (0 : Fin 1) i d) = proj x W b 0 bb i d)
    (hk : ∀ (j' : Fin 256) (d : Fin 1024), k (ix3 (0 : Fin 1) j' d) = proj x W b 1 bb (key jb j') d)
    (j' : Fin 256) : mB q k j' = colMax x W b bb (key jb j') := by
  unfold mB colMax
  exact congrArg (fun f => max Spec.negInf (Finset.fold max Spec.negInf f (Finset.univ : Finset (Fin 2048))))
    (funext fun i => sB_eq x W b bb jb q k hq hk j' i)

/-- The block's exponentials are the specification's. -/
theorem eB_eq (hq : ∀ (i : Fin 2048) (d : Fin 1024), q (ix3 (0 : Fin 1) i d) = proj x W b 0 bb i d)
    (hk : ∀ (j' : Fin 256) (d : Fin 1024), k (ix3 (0 : Fin 1) j' d) = proj x W b 1 bb (key jb j') d)
    (j' : Fin 256) (i : Fin 2048) : eB q k j' i = ex x W b bb i (key jb j') := by
  unfold eB ex
  rw [sB_eq x W b bb jb q k hq hk, mB_eq x W b bb jb q k hq hk]

/-- The block's column sums are the specification's. -/
theorem zB_eq (hq : ∀ (i : Fin 2048) (d : Fin 1024), q (ix3 (0 : Fin 1) i d) = proj x W b 0 bb i d)
    (hk : ∀ (j' : Fin 256) (d : Fin 1024), k (ix3 (0 : Fin 1) j' d) = proj x W b 1 bb (key jb j') d)
    (j' : Fin 256) : zB q k j' = colSum x W b bb (key jb j') := by
  unfold zB colSum
  exact Finset.sum_congr rfl fun i _ => eB_eq x W b bb jb q k hq hk j' i

/-- The block's normalized weights are the specification's. -/
theorem pB_eq (hq : ∀ (i : Fin 2048) (d : Fin 1024), q (ix3 (0 : Fin 1) i d) = proj x W b 0 bb i d)
    (hk : ∀ (j' : Fin 256) (d : Fin 1024), k (ix3 (0 : Fin 1) j' d) = proj x W b 1 bb (key jb j') d)
    (j' : Fin 256) (i : Fin 2048) : pB q k j' i = prob x W b bb i (key jb j') := by
  unfold pB prob
  rw [eB_eq x W b bb jb q k hq hk, zB_eq x W b bb jb q k hq hk]

end Block

/-! ## The result, block by block -/

/-- The sum over the 2048 keys is the sum over the eight blocks of the sums over each block's 256 keys. -/
theorem res_split (x : SX.Idx → EReal) (W : SW.Idx → EReal) (b : SB.Idx → EReal) (bb : Fin 8) (i : Fin 2048) (c : Fin 1024) :
    res x W b bb i c = ∑ jb : Fin 8, ∑ j' : Fin 256, prob x W b bb i (key jb j') * proj x W b 2 bb (key jb j') c := by
  let φ : ℕ → EReal := fun n => if h : n < 2048 then prob x W b bb i ⟨n, h⟩ * proj x W b 2 bb ⟨n, h⟩ c else 0
  have h1 : ∑ jb : Fin 8, ∑ j' : Fin 256, φ (256 * jb.val + j'.val) = ∑ h : Fin (8 * 256), φ h.val :=
    Cert.LibTiles.sum_tiles 8 256 φ
  have h2 : (∑ h : Fin (8 * 256), φ h.val) = ∑ j : Fin 2048, φ j.val := rfl
  have h3 : ∀ (n : ℕ) (h : n < 2048), φ n = prob x W b bb i ⟨n, h⟩ * proj x W b 2 bb ⟨n, h⟩ c := fun n h => dif_pos h
  unfold res
  calc ∑ j : Fin 2048, prob x W b bb i j * proj x W b 2 bb j c
      = ∑ j : Fin 2048, φ j.val := Finset.sum_congr rfl fun j _ => (h3 j.val j.isLt).symm
    _ = ∑ jb : Fin 8, ∑ j' : Fin 256, φ (256 * jb.val + j'.val) := h2.symm.trans h1.symm
    _ = _ := Finset.sum_congr rfl fun jb _ => Finset.sum_congr rfl fun j' _ => h3 _ (key jb j').isLt

/-! ## The accumulation over the eight blocks -/

/-- A quantity that starts at zero plus the first block's term and adds one block's term at each step is, after the
    eighth block, the sum of the eight terms. -/
theorem acc_eq (M : ℕ → EReal) (f : (n : ℕ) → n < 8 → EReal)
    (h0 : ∀ h : 0 < 8, f 0 h = Ideal.ofBits .f32 0x00000000#32 + M 0)
    (hs : ∀ (n : ℕ) (h : n + 1 < 8), f (n + 1) h = f n (Nat.lt_of_succ_lt h) + M (n + 1)) :
    f 7 (by decide) = ∑ jb : Fin 8, M jb.val := by
  have e0 : f 0 (by decide) = M 0 := by rw [h0, Ideal.ofBits_zero_f32, zero_add]
  have e1 : f 1 (by decide) = f 0 (by decide) + M 1 := hs 0 (by decide)
  have e2 : f 2 (by decide) = f 1 (by decide) + M 2 := hs 1 (by decide)
  have e3 : f 3 (by decide) = f 2 (by decide) + M 3 := hs 2 (by decide)
  have e4 : f 4 (by decide) = f 3 (by decide) + M 4 := hs 3 (by decide)
  have e5 : f 5 (by decide) = f 4 (by decide) + M 5 := hs 4 (by decide)
  have e6 : f 6 (by decide) = f 5 (by decide) + M 6 := hs 5 (by decide)
  have e7 : f 7 (by decide) = f 6 (by decide) + M 7 := hs 6 (by decide)
  rw [e7, e6, e5, e4, e3, e2, e1, e0, Fin.sum_univ_eight]
  rfl

end Cert.Bridge

end
-- ==== Proof.Glue.lean ====
/-
  The host operations between the two kernel regions, read at an index.

  Before the first region the input x of shape [8, 2048, 1024] is reshaped to [16384, 1024]: row 2048·bb + s of the
  reshaped array is row (bb, s) of x; the weights pass through a change of format, which is the identity on extended
  reals; the bias is not written.  After the first region each of its three outputs, of shape [16384, 1024], is
  reshaped back to [8, 2048, 1024]: entry (bb, s, f) is entry (2048·bb + s, f) of the output.
-/
import proofs.«103110_j15822659518595_2_alg».proof.Proof.KI.Run
import Idealize.ShloMosaic.Lib.Pipeline.Value
import Idealize.ShloMosaic.Lib.ValueIdx
import Idealize.ShloMosaic.Lib.StableHlo.Run

noncomputable section

namespace Cert.KernelIdeal.Glue

open Idealize.ShloMosaic Idealize.ShloMosaic.TcCoe Idealize.SL.Sem
open Cert.KernelIdeal Cert.KernelIdeal.Gen Cert.KernelIdeal.Hand Idealize.ShloMosaic.ValueIdx

variable (m : (ℓ : Loc nD τ sig) → Buf (Elt Ideal) ℓ) (ρ : Dev nD → PrngReg) (c : Dev nD)

/-- Row (bb, s) of an [8, 2048, ·] array in the flattened [16384, ·] array. -/
def flat (bb : Fin 8) (s : Fin 2048) : Fin 16384 := ⟨2048 * bb.val + s.val, by omega⟩

/-- Row-major positions agree: (bb, s, k) in [8, 2048, 1024] and (2048·bb + s, k) in [16384, 1024]. -/
theorem rowMajor_flat (bb : Fin 8) (s : Fin 2048) (k : Fin 1024) :
    (S8x2048x1024.rowMajor (ix3 bb s k)).val = (S16384x1024.rowMajor (ix2 (flat bb s) k)).val := by
  refine (Shape.rowMajor_val_three (d := ![8, 2048, 1024]) (ix3 bb s k)).trans ?_
  refine Eq.trans ?_ (Shape.rowMajor_val_two (d := ![16384, 1024]) (ix2 (flat bb s) k)).symm
  show (bb.val * 2048 + s.val) * 1024 + k.val = (2048 * bb.val + s.val) * 1024 + k.val
  omega

/-! ## Before the first region -/

/-- The first region's input is the reshape of x. -/
theorem V1_v0_eq :
    (V1 (F := Ideal) m ρ c main_v0 : S16384x1024.Idx → EReal)
      = shapeCast S16384x1024 (m ((c : Thread nD τ).loc main_arg0) : S8x2048x1024.Idx → EReal)
          shapeCasts_S8x2048x1024_S16384x1024 := by
  show StableHlo.after hostOps0 _ (Proc.devRef .tc main_v0) = _
  after_results
  rfl

/-- Row 2048·bb + s of the first region's input is row (bb, s) of x. -/
theorem V1_v0 (bb : Fin 8) (s : Fin 2048) (k : Fin 1024) :
    (V1 (F := Ideal) m ρ c main_v0 : S16384x1024.Idx → EReal) (ix2 (flat bb s) k)
      = (m ((c : Thread nD τ).loc main_arg0) : S8x2048x1024.Idx → EReal) (ix3 bb s k) := by
  rw [V1_v0_eq]
  exact shapeCast_apply _ shapeCasts_S8x2048x1024_S16384x1024 (ix2 (flat bb s) k) (ix3 bb s k) (rowMajor_flat bb s k)

/-- The weights pass through unchanged: a change of format is the identity on extended reals. -/
theorem V1_v1 :
    (V1 (F := Ideal) m ρ c main_v1 : S3072x1024.Idx → EReal)
      = (m ((c : Thread nD τ).loc main_arg1) : S3072x1024.Idx → EReal) := by
  show StableHlo.after hostOps0 _ (Proc.devRef .tc main_v1) = _
  after_results
  rfl

/-- No host operation writes the bias. -/
theorem V1_arg2 : V1 (F := Ideal) m ρ c main_arg2 = m ((c : Thread nD τ).loc main_arg2) := by
  show StableHlo.after hostOps0 _ (Proc.devRef .tc main_arg2) = _
  after_results
  try rfl

/-! ## Between the two regions -/

theorem V3_v3_eq :
    (V3 (F := Ideal) m ρ c main_v3 : S8x2048x1024.Idx → EReal)
      = shapeCast S8x2048x1024 (W2 (F := Ideal) m ρ c (Proc.devRef .tc main_v2_0) : S16384x1024.Idx → EReal)
          shapeCasts_S16384x1024_S8x2048x1024 := by
  show StableHlo.after hostOps1 _ (Proc.devRef .tc main_v3) = _
  after_results
  try rfl

theorem V3_v4_eq :
    (V3 (F := Ideal) m ρ c main_v4 : S8x2048x1024.Idx → EReal)
      = shapeCast S8x2048x1024 (W2 (F := Ideal) m ρ c (Proc.devRef .tc main_v2_1) : S16384x1024.Idx → EReal)
          shapeCasts_S16384x1024_S8x2048x1024 := by
  show StableHlo.after hostOps1 _ (Proc.devRef .tc main_v4) = _
  after_results
  try rfl

theorem V3_v5_eq :
    (V3 (F := Ideal) m ρ c main_v5 : S8x2048x1024.Idx → EReal)
      = shapeCast S8x2048x1024 (W2 (F := Ideal) m ρ c (Proc.devRef .tc main_v2_2) : S16384x1024.Idx → EReal)
          shapeCasts_S16384x1024_S8x2048x1024 := by
  show StableHlo.after hostOps1 _ (Proc.devRef .tc main_v5) = _
  after_results
  try rfl

/-- Entry (bb, s, f) of the second region's first input is entry (2048·bb + s, f) of the first region's first output. -/
theorem V3_v3 (bb : Fin 8) (s : Fin 2048) (f : Fin 1024) :
    (V3 (F := Ideal) m ρ c main_v3 : S8x2048x1024.Idx → EReal) (ix3 bb s f)
      = (W2 (F := Ideal) m ρ c (Proc.devRef .tc main_v2_0) : S16384x1024.Idx → EReal) (ix2 (flat bb s) f) := by
  rw [V3_v3_eq]
  exact shapeCast_apply _ shapeCasts_S16384x1024_S8x2048x1024 (ix3 bb s f) (ix2 (flat bb s) f) (rowMajor_flat bb s f).symm

/-- The same for the second input and the second output. -/
theorem V3_v4 (bb : Fin 8) (s : Fin 2048) (f : Fin 1024) :
    (V3 (F := Ideal) m ρ c main_v4 : S8x2048x1024.Idx → EReal) (ix3 bb s f)
      = (W2 (F := Ideal) m ρ c (Proc.devRef .tc main_v2_1) : S16384x1024.Idx → EReal) (ix2 (flat bb s) f) := by
  rw [V3_v4_eq]
  exact shapeCast_apply _ shapeCasts_S16384x1024_S8x2048x1024 (ix3 bb s f) (ix2 (flat bb s) f) (rowMajor_flat bb s f).symm

/-- The same for the third input and the third output. -/
theorem V3_v5 (bb : Fin 8) (s : Fin 2048) (f : Fin 1024) :
    (V3 (F := Ideal) m ρ c main_v5 : S8x2048x1024.Idx → EReal) (ix3 bb s f)
      = (W2 (F := Ideal) m ρ c (Proc.devRef .tc main_v2_2) : S16384x1024.Idx → EReal) (ix2 (flat bb s) f) := by
  rw [V3_v5_eq]
  exact shapeCast_apply _ shapeCasts_S16384x1024_S8x2048x1024 (ix3 bb s f) (ix2 (flat bb s) f) (rowMajor_flat bb s f).symm

end Cert.KernelIdeal.Glue

end
-- ==== Proof.Value0.lean ====
/-
  What the projection kernel leaves in its three output arrays, at the ideal instance, as whole-array functions of the
  arrays it is entered with.  With x : [16384, 1024] (the flattened rows), W : [3072, 1024], b : [3072], output o
  (o = 0, 1, 2) ends holding, at (r, f),
      (∑ₖ x(r, k) · W(1024·o + f, k)) + b(1024·o + f).
  The road: the block a grid point stores, read at an index (the product of a row of the x block with a row of the W
  block, plus the bias entry); each window's block as rows of its array (block index × 1024 + the coordinate inside
  the block); what each output's buffer holds at the last point of a row block (the block stored there, one point
  before, two points before); and the sixteen write-backs' blocks cover each output array.
-/
import proofs.«103110_j15822659518595_2_alg».proof.Proof.KI.Region0
import proofs.«103110_j15822659518595_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Value0

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

/-! ## The body's block at an index -/

theorem hz2 : (![0, 0] : Fin 2 → Nat) = fun _ => 0 := funext fun a => by fin_cases a <;> rfl
theorem hz1 : (![0] : Fin 1 → Nat) = fun _ => 0 := funext fun a => by fin_cases a; rfl

/-- The stored block is the payload of the three loaded blocks. -/
theorem outP_eq {F : FTy → Type} [FloatOps F] (x0 : Vec F S1024x1024 .f32) (x1 : Vec F S1024x1024 .bf16) (x2 : Vec F S1024 .f32) :
    outP x0 x1 x2 = k0_pay1 x0 x1 x2 := by
  unfold outP
  rw [View.canon_unit_zero hz2]
  rw [View.ld_unit_zero (S := S1024x1024) hz2, View.ld_unit_zero (S := S1024x1024) hz2, View.ld_unit_zero (S := S1024) hz1]

theorem mm_lhs0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem mm_lhs1 (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
theorem mm_rhs0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem mm_rhs1 (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The body's product: row p of the left block against row q of the right block. -/
theorem mm_apply (a b : FVec Ideal S1024x1024 .bf16) (p q : Fin 1024) :
    (matmul dot_S1024x1024_S1024x1024_S1024x1024_1_1_0_0_n_n none a b (constant (F := Ideal) S1024x1024 .f32 0x00000000#32) : FVec Ideal S1024x1024 .f32) (ix2 p q)
      = ∑ k : Fin 1024, a (ix2 p k) * b (ix2 q k) := by
  show FloatOps.matmul _ _ _ _ _ _ = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun ax => Fin.ext (by
    match ax with
    | ⟨0, _⟩ => exact mm_lhs0 _ _
    | ⟨1, _⟩ => exact (mm_lhs1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun ax => Fin.ext (by
    match ax with
    | ⟨0, _⟩ => exact mm_rhs0 _ _
    | ⟨1, _⟩ => exact (mm_rhs1 _ _).trans hk)
  rw [el, er]

/-- The bias row, spread over the block's rows. -/
theorem bias_apply (x2 : Vec Ideal S1024 .f32) (p q : Fin 1024) :
    (broadcastTo S1024x1024 (shapeCast S1x1024 x2 shapeCasts_S1024_S1x1024) broadcasts_S1x1024_S1024x1024 : FVec Ideal S1024x1024 .f32) (ix2 p q) = x2 (ix1 q) :=
  (broadcastTo_1b_ab_apply _ _ p q).trans (shapeCast_a_1a_apply _ _ 0 q)

/-- The payload at (p, q): the product of row p of x with row q of W, plus the bias at q. -/
theorem pay_apply (x0 : Vec Ideal S1024x1024 .f32) (x1 : Vec Ideal S1024x1024 .bf16) (x2 : Vec Ideal S1024 .f32) (p q : Fin 1024) :
    k0_pay1 (F := Ideal) x0 x1 x2 (ix2 p q) = (∑ k : Fin 1024, x0 (ix2 p k) * x1 (ix2 q k)) + x2 (ix1 q) := by
  unfold k0_pay1
  rw [shapeCast_self, shapeCast_self]
  show (matmul dot_S1024x1024_S1024x1024_S1024x1024_1_1_0_0_n_n none _ _ _ : FVec Ideal S1024x1024 .f32) (ix2 p q) + (broadcastTo S1024x1024 _ _ : FVec Ideal S1024x1024 .f32) (ix2 p q) = _
  rw [mm_apply, bias_apply]
  rfl

/-! ## The windows' blocks as parts of their arrays -/

section Blocks

variable (V : (c : Dev nD) → (b : Ref sig .tc) → Buf (Elt Ideal) ((c : Thread nD τ).loc b))

/-- The printed index maps, decided over the grid: at point t the row block is t / 3 and the weight block is t % 3. -/
theorem idx_facts : ∀ t : Fin cfg0.N,
    win0_0.index t (0 : Fin 2) = t.val / 3 ∧ win0_0.index t (1 : Fin 2) = 0
    ∧ win0_1.index t (0 : Fin 2) = t.val % 3 ∧ win0_1.index t (1 : Fin 2) = 0
    ∧ win0_2.index t (0 : Fin 1) = t.val % 3
    ∧ win0_3.index t (0 : Fin 2) = t.val / 3 ∧ win0_3.index t (1 : Fin 2) = 0
    ∧ win0_4.index t (0 : Fin 2) = t.val / 3 ∧ win0_4.index t (1 : Fin 2) = 0
    ∧ win0_5.index t (0 : Fin 2) = t.val / 3 ∧ win0_5.index t (1 : Fin 2) = 0 :=
  (by decide +kernel : ∀ t : Fin grid0.N, _)

/-- The x block at point t is rows 1024 (t / 3) … of x. -/
theorem xblk_apply (c : Dev nD) (t : Fin cfg0.N) (p k : Fin 1024) (r : Fin 16384) (hr : r.val = 1024 * (t.val / 3) + p.val) :
    (iblk0 (F := Ideal) V c 0 t : Vec Ideal S1024x1024 .f32) (ix2 p k) = (V c main_v0 : S16384x1024.Idx → EReal) (ix2 r k) := by
  obtain ⟨e0, e1, -⟩ := idx_facts t
  unfold iblk0
  rw [View.read_apply]
  show (V c main_v0 : S16384x1024.Idx → EReal) _ = _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The W block at point t is rows 1024 (t % 3) … of W. -/
theorem wblk_apply (c : Dev nD) (t : Fin cfg0.N) (q k : Fin 1024) (r : Fin 3072) (hr : r.val = 1024 * (t.val % 3) + q.val) :
    (iblk0 (F := Ideal) V c 1 t : Vec Ideal S1024x1024 .bf16) (ix2 q k) = (V c main_v1 : S3072x1024.Idx → EReal) (ix2 r k) := by
  obtain ⟨-, -, e0, e1, -⟩ := idx_facts t
  unfold iblk0
  rw [View.read_apply]
  show (V c main_v1 : S3072x1024.Idx → EReal) _ = _
  congr 1
  funext a
  apply Fin.ext
  match a with
  | ⟨0, _⟩ => show win0_1.index t (0 : Fin 2) * 1024 + 1 * q.val = r.val; rw [e0, hr]; omega
  | ⟨1, _⟩ => show win0_1.index t (1 : Fin 2) * 1024 + 1 * k.val = k.val; rw [e1]; omega

/-- The b block at point t is entries 1024 (t % 3) … of b. -/
theorem bblk_apply (c : Dev nD) (t : Fin cfg0.N) (q : Fin 1024) (r : Fin 3072) (hr : r.val = 1024 * (t.val % 3) + q.val) :
    (iblk0 (F := Ideal) V c 2 t : Vec Ideal S1024 .f32) (ix1 q) = (V c main_arg2 : S3072.Idx → EReal) (ix1 r) := by
  obtain ⟨-, -, -, -, e0, -⟩ := idx_facts t
  unfold iblk0
  rw [View.read_apply]
  show (V c main_arg2 : S3072.Idx → EReal) _ = _
  congr 1
  funext a
  apply Fin.ext
  match a with
  | ⟨0, _⟩ => show win0_2.index t (0 : Fin 1) * 1024 + 1 * q.val = r.val; rw [e0, hr]; omega

end Blocks

/-! ## The block a point computes, and what each output's buffer holds at a write-back point -/

section Final

variable (V : (c : Dev nD) → (b : Ref sig .tc) → Buf (Elt Ideal) ((c : Thread nD τ).loc b))

theorem lt48 (t : Fin cfg0.N) : t.val < 48 := Nat.lt_of_lt_of_eq t.isLt N_0

/-- The block point t computes, at (p, q): the projection t % 3 of row 1024 (t / 3) + p, at feature q. -/
theorem blkP_apply (c : Dev nD) (t : Fin cfg0.N) (p q : Fin 1024) (o : Fin 3) (ho : o.val = t.val % 3)
    (r : Fin 16384) (hr : r.val = 1024 * (t.val / 3) + p.val) :
    (blkP (F := Ideal) V c t : Vec Ideal S1024x1024 .bf16) (ix2 p q)
      = Cert.Spec.projFlatAt (V c main_v0) (V c main_v1) (V c main_arg2) o r q := by
  unfold blkP
  refine (congrFun (outP_eq (iblk0 V c 0 t) (iblk0 V c 1 t) (iblk0 V c 2 t)) (ix2 p q)).trans ?_
  refine (pay_apply (iblk0 V c 0 t) (iblk0 V c 1 t) (iblk0 V c 2 t) p q).trans ?_
  unfold Cert.Spec.projFlatAt
  have hrow : (Cert.Spec.row o q).val = 1024 * (t.val % 3) + q.val := by
    show 1024 * o.val + q.val = _
    rw [ho]
  exact congrArg₂ (· + ·)
    (Finset.sum_congr rfl fun k _ => congrArg₂ (· * ·) (xblk_apply V c t p k r hr) (wblk_apply V c t q k _ hrow))
    (bblk_apply V c t q _ hrow)

/-- At a write-back point the third output's buffer holds the point's own block, -/
theorem held2 (c : Dev nD) (t : Fin cfg0.N) (h : t.val % 3 = 2) :
    outsAt0 (F := Ideal) V 2 c t.val t.isLt = blkP V c t :=
  outsAt0_store V 2 c t h

/-- the second output's the block of the point before, -/
theorem held1 (c : Dev nD) (t : Fin cfg0.N) (h : t.val % 3 = 2) :
    outsAt0 (F := Ideal) V 1 c t.val t.isLt = blkP V c ⟨t.val - 1, Nat.lt_of_le_of_lt (Nat.sub_le _ _) t.isLt⟩ :=
  (outsAt0_carry V 1 c t (by omega) (by omega)).trans
    (outsAt0_store V 1 c ⟨t.val - 1, Nat.lt_of_le_of_lt (Nat.sub_le _ _) t.isLt⟩ (by show (t.val - 1) % 3 = 1; omega))

/-- and the first output's the block of two points before. -/
theorem held0 (c : Dev nD) (t : Fin cfg0.N) (h : t.val % 3 = 2) :
    outsAt0 (F := Ideal) V 0 c t.val t.isLt
      = blkP V c ⟨t.val - 1 - 1, Nat.lt_of_le_of_lt ((Nat.sub_le _ _).trans (Nat.sub_le _ _)) t.isLt⟩ :=
  (outsAt0_carry V 0 c t (by omega) (by omega)).trans
    ((outsAt0_carry V 0 c ⟨t.val - 1, Nat.lt_of_le_of_lt (Nat.sub_le _ _) t.isLt⟩ (by show t.val - 1 ≠ 0; omega) (by show ¬(t.val - 1) % 3 = 0; omega)).trans
      (outsAt0_store V 0 c ⟨t.val - 1 - 1, Nat.lt_of_le_of_lt ((Nat.sub_le _ _).trans (Nat.sub_le _ _)) t.isLt⟩ (by show (t.val - 1 - 1) % 3 = 0; omega)))

/-! ### The first output -/

/-- What a write-back point writes to the first output is its row block of the projection 0. -/
theorem flushed3_eq (c : Dev nD) (t : Fin cfg0.N) (hf : (cfg0.win 3).flush t = true) :
    (dat0 (F := Ideal) V c).flushed 3 t
      = ((cfg0.win 3).blk t).view.read (Elt Ideal) (Cert.Spec.projFlat (V c main_v0) (V c main_v1) (V c main_arg2) 0) := by
  have h : t.val % 3 = 2 := (flush0_3 t).mp hf
  have hN : t.val < 48 := lt48 t
  obtain ⟨-, -, -, -, -, e0, e1, -⟩ := idx_facts t
  show (cfg0.win 3).cut (grid0.coords t) ((dat0 V c).after 3 t) = _
  rw [after0_3, held0 V c t h]
  refine funext fun (j : S1024x1024.Idx) => ?_
  obtain ⟨p, q, rfl⟩ : ∃ (p q : Fin 1024), j = ix2 p q := ⟨j 0, j 1, eq_ix2 j⟩
  have hp : p.val < 1024 := p.isLt
  have hemb : (((cfg0.win 3).blk t).view.emb (ix2 p q) : S16384x1024.Idx) = ix2 (⟨1024 * (t.val / 3) + p.val, by omega⟩ : Fin 16384) q := by
    funext a
    apply Fin.ext
    match a with
    | ⟨0, _⟩ => show win0_3.index t (0 : Fin 2) * 1024 + 1 * p.val = 1024 * (t.val / 3) + p.val; rw [e0]; omega
    | ⟨1, _⟩ => show win0_3.index t (1 : Fin 2) * 1024 + 1 * q.val = q.val; rw [e1]; omega
  show (blkP (F := Ideal) V c ⟨t.val - 1 - 1, Nat.lt_of_le_of_lt ((Nat.sub_le _ _).trans (Nat.sub_le _ _)) t.isLt⟩ : Vec Ideal S1024x1024 .bf16) (ix2 p q)
    = Cert.Spec.projFlat (V c main_v0) (V c main_v1) (V c main_arg2) 0 (((cfg0.win 3).blk t).view.emb (ix2 p q))
  refine Eq.trans ?_ (congrArg (Cert.Spec.projFlat (V c main_v0) (V c main_v1) (V c main_arg2) 0) hemb.symm)
  refine (blkP_apply V c ⟨t.val - 1 - 1, Nat.lt_of_le_of_lt ((Nat.sub_le _ _).trans (Nat.sub_le _ _)) t.isLt⟩ p q 0 ?_ ⟨1024 * (t.val / 3) + p.val, by omega⟩ ?_).trans (Cert.Spec.projFlat_apply _ _ _ _ _ _).symm
  · show (0 : ℕ) = (t.val - 1 - 1) % 3
    omega
  · show 1024 * (t.val / 3) + p.val = 1024 * ((t.val - 1 - 1) / 3) + p.val
    omega

/-- An index of the array is in point t's block iff each coordinate is in the block's range on its axis. -/
theorem mem_blk3 (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2_0).slice (win0_3.rect t)).set ↔ _
  rw [View.set_slice_whole, Rect.mem_set_unit]
  exact Iff.rfl

/-- Row r is in the block written back at the last point of its row block, 3 (r / 1024) + 2. -/
theorem cover3 (i : S16384x1024.Idx) : ∃ t : Fin cfg0.N, (cfg0.win 3).flush t = true ∧ i ∈ ((cfg0.win 3).blk t).view.set := by
  have h0 : (i 0).val < 16384 := (i 0).isLt
  have h1 : (i 1).val < 1024 := (i 1).isLt
  have hlt : 3 * ((i 0).val / 1024) + 2 < cfg0.N := by rw [show cfg0.N = 48 from N_0]; omega
  obtain ⟨-, -, -, -, -, e0, e1, -⟩ := idx_facts ⟨3 * ((i 0).val / 1024) + 2, hlt⟩
  refine ⟨⟨3 * ((i 0).val / 1024) + 2, hlt⟩, (flush0_3 _).mpr (by show (3 * ((i 0).val / 1024) + 2) % 3 = 2; omega), ?_⟩
  rw [mem_blk3]
  intro a
  match a with
  | ⟨0, _⟩ =>
    show win0_3.index ⟨3 * ((i 0).val / 1024) + 2, hlt⟩ (0 : Fin 2) * 1024 ≤ (i 0).val ∧ (i 0).val < win0_3.index ⟨3 * ((i 0).val / 1024) + 2, hlt⟩ (0 : Fin 2) * 1024 + 1024
    rw [e0]
    show (3 * ((i 0).val / 1024) + 2) / 3 * 1024 ≤ (i 0).val ∧ (i 0).val < (3 * ((i 0).val / 1024) + 2) / 3 * 1024 + 1024
    omega
  | ⟨1, _⟩ =>
    show win0_3.index ⟨3 * ((i 0).val / 1024) + 2, hlt⟩ (1 : Fin 2) * 1024 ≤ (i 1).val ∧ (i 1).val < win0_3.index ⟨3 * ((i 0).val / 1024) + 2, hlt⟩ (1 : Fin 2) * 1024 + 1024
    rw [e1]
    omega

/-- The first output array after the region is the projection 0 of the flattened rows. -/
theorem final0_3 (c : Dev nD) :
    ((dat0 (F := Ideal) V c).arrAt 3 cfg0.N : S16384x1024.Idx → EReal) = Cert.Spec.projFlat (V c main_v0) (V c main_v1) (V c main_arg2) 0 :=
  (dat0 (F := Ideal) V c).arrAt_eq_of_cover 3 (Cert.Spec.projFlat (V c main_v0) (V c main_v1) (V c main_arg2) 0) (fun t hf => flushed3_eq V c t hf) cover3

/-! ### The second output -/

/-- What a write-back point writes to the second output is its row block of the projection 1. -/
theorem flushed4_eq (c : Dev nD) (t : Fin cfg0.N) (hf : (cfg0.win 4).flush t = true) :
    (dat0 (F := Ideal) V c).flushed 4 t
      = ((cfg0.win 4).blk t).view.read (Elt Ideal) (Cert.Spec.projFlat (V c main_v0) (V c main_v1) (V c main_arg2) 1) := by
  have h : t.val % 3 = 2 := (flush0_4 t).mp hf
  have hN : t.val < 48 := lt48 t
  obtain ⟨-, -, -, -, -, -, -, e0, e1, -⟩ := idx_facts t
  show (cfg0.win 4).cut (grid0.coords t) ((dat0 V c).after 4 t) = _
  rw [after0_4, held1 V c t h]
  refine funext fun (j : S1024x1024.Idx) => ?_
  obtain ⟨p, q, rfl⟩ : ∃ (p q : Fin 1024), j = ix2 p q := ⟨j 0, j 1, eq_ix2 j⟩
  have hp : p.val < 1024 := p.isLt
  have hemb : (((cfg0.win 4).blk t).view.emb (ix2 p q) : S16384x1024.Idx) = ix2 (⟨1024 * (t.val / 3) + p.val, by omega⟩ : Fin 16384) q := by
    funext a
    apply Fin.ext
    match a with
    | ⟨0, _⟩ => show win0_4.index t (0 : Fin 2) * 1024 + 1 * p.val = 1024 * (t.val / 3) + p.val; rw [e0]; omega
    | ⟨1, _⟩ => show win0_4.index t (1 : Fin 2) * 1024 + 1 * q.val = q.val; rw [e1]; omega
  show (blkP (F := Ideal) V c ⟨t.val - 1, Nat.lt_of_le_of_lt (Nat.sub_le _ _) t.isLt⟩ : Vec Ideal S1024x1024 .bf16) (ix2 p q)
    = Cert.Spec.projFlat (V c main_v0) (V c main_v1) (V c main_arg2) 1 (((cfg0.win 4).blk t).view.emb (ix2 p q))
  refine Eq.trans ?_ (congrArg (Cert.Spec.projFlat (V c main_v0) (V c main_v1) (V c main_arg2) 1) hemb.symm)
  refine (blkP_apply V c ⟨t.val - 1, Nat.lt_of_le_of_lt (Nat.sub_le _ _) t.isLt⟩ p q 1 ?_ ⟨1024 * (t.val / 3) + p.val, by omega⟩ ?_).trans (Cert.Spec.projFlat_apply _ _ _ _ _ _).symm
  · show (1 : ℕ) = (t.val - 1) % 3
    omega
  · show 1024 * (t.val / 3) + p.val = 1024 * ((t.val - 1) / 3) + p.val
    omega

/-- An index of the array is in point t's block iff each coordinate is in the block's range on its axis. -/
theorem mem_blk4 (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2_1).slice (win0_4.rect t)).set ↔ _
  rw [View.set_slice_whole, Rect.mem_set_unit]
  exact Iff.rfl

/-- Row r is in the block written back at the last point of its row block, 3 (r / 1024) + 2. -/
theorem cover4 (i : S16384x1024.Idx) : ∃ t : Fin cfg0.N, (cfg0.win 4).flush t = true ∧ i ∈ ((cfg0.win 4).blk t).view.set := by
  have h0 : (i 0).val < 16384 := (i 0).isLt
  have h1 : (i 1).val < 1024 := (i 1).isLt
  have hlt : 3 * ((i 0).val / 1024) + 2 < cfg0.N := by rw [show cfg0.N = 48 from N_0]; omega
  obtain ⟨-, -, -, -, -, -, -, e0, e1, -⟩ := idx_facts ⟨3 * ((i 0).val / 1024) + 2, hlt⟩
  refine ⟨⟨3 * ((i 0).val / 1024) + 2, hlt⟩, (flush0_4 _).mpr (by show (3 * ((i 0).val / 1024) + 2) % 3 = 2; omega), ?_⟩
  rw [mem_blk4]
  intro a
  match a with
  | ⟨0, _⟩ =>
    show win0_4.index ⟨3 * ((i 0).val / 1024) + 2, hlt⟩ (0 : Fin 2) * 1024 ≤ (i 0).val ∧ (i 0).val < win0_4.index ⟨3 * ((i 0).val / 1024) + 2, hlt⟩ (0 : Fin 2) * 1024 + 1024
    rw [e0]
    show (3 * ((i 0).val / 1024) + 2) / 3 * 1024 ≤ (i 0).val ∧ (i 0).val < (3 * ((i 0).val / 1024) + 2) / 3 * 1024 + 1024
    omega
  | ⟨1, _⟩ =>
    show win0_4.index ⟨3 * ((i 0).val / 1024) + 2, hlt⟩ (1 : Fin 2) * 1024 ≤ (i 1).val ∧ (i 1).val < win0_4.index ⟨3 * ((i 0).val / 1024) + 2, hlt⟩ (1 : Fin 2) * 1024 + 1024
    rw [e1]
    omega

/-- The second output array after the region is the projection 1 of the flattened rows. -/
theorem final0_4 (c : Dev nD) :
    ((dat0 (F := Ideal) V c).arrAt 4 cfg0.N : S16384x1024.Idx → EReal) = Cert.Spec.projFlat (V c main_v0) (V c main_v1) (V c main_arg2) 1 :=
  (dat0 (F := Ideal) V c).arrAt_eq_of_cover 4 (Cert.Spec.projFlat (V c main_v0) (V c main_v1) (V c main_arg2) 1) (fun t hf => flushed4_eq V c t hf) cover4

/-! ### The third output -/

/-- What a write-back point writes to the third output is its row block of the projection 2. -/
theorem flushed5_eq (c : Dev nD) (t : Fin cfg0.N) (hf : (cfg0.win 5).flush t = true) :
    (dat0 (F := Ideal) V c).flushed 5 t
      = ((cfg0.win 5).blk t).view.read (Elt Ideal) (Cert.Spec.projFlat (V c main_v0) (V c main_v1) (V c main_arg2) 2) := by
  have h : t.val % 3 = 2 := (flush0_5 t).mp hf
  have hN : t.val < 48 := lt48 t
  obtain ⟨-, -, -, -, -, -, -, -, -, e0, e1⟩ := idx_facts t
  show (cfg0.win 5).cut (grid0.coords t) ((dat0 V c).after 5 t) = _
  rw [after0_5, held2 V c t h]
  refine funext fun (j : S1024x1024.Idx) => ?_
  obtain ⟨p, q, rfl⟩ : ∃ (p q : Fin 1024), j = ix2 p q := ⟨j 0, j 1, eq_ix2 j⟩
  have hp : p.val < 1024 := p.isLt
  have hemb : (((cfg0.win 5).blk t).view.emb (ix2 p q) : S16384x1024.Idx) = ix2 (⟨1024 * (t.val / 3) + p.val, by omega⟩ : Fin 16384) q := by
    funext a
    apply Fin.ext
    match a with
    | ⟨0, _⟩ => show win0_5.index t (0 : Fin 2) * 1024 + 1 * p.val = 1024 * (t.val / 3) + p.val; rw [e0]; omega
    | ⟨1, _⟩ => show win0_5.index t (1 : Fin 2) * 1024 + 1 * q.val = q.val; rw [e1]; omega
  show (blkP (F := Ideal) V c t : Vec Ideal S1024x1024 .bf16) (ix2 p q)
    = Cert.Spec.projFlat (V c main_v0) (V c main_v1) (V c main_arg2) 2 (((cfg0.win 5).blk t).view.emb (ix2 p q))
  refine Eq.trans ?_ (congrArg (Cert.Spec.projFlat (V c main_v0) (V c main_v1) (V c main_arg2) 2) hemb.symm)
  refine (blkP_apply V c t p q 2 ?_ ⟨1024 * (t.val / 3) + p.val, by omega⟩ ?_).trans (Cert.Spec.projFlat_apply _ _ _ _ _ _).symm
  · show (2 : ℕ) = (t.val) % 3
    omega
  · show 1024 * (t.val / 3) + p.val = 1024 * ((t.val) / 3) + p.val
    omega

/-- An index of the array is in point t's block iff each coordinate is in the block's range on its axis. -/
theorem mem_blk5 (t : Fin cfg0.N) (i : S16384x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2_2).slice (win0_5.rect t)).set ↔ _
  rw [View.set_slice_whole, Rect.mem_set_unit]
  exact Iff.rfl

/-- Row r is in the block written back at the last point of its row block, 3 (r / 1024) + 2. -/
theorem cover5 (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  have hlt : 3 * ((i 0).val / 1024) + 2 < cfg0.N := by rw [show cfg0.N = 48 from N_0]; omega
  obtain ⟨-, -, -, -, -, -, -, -, -, e0, e1⟩ := idx_facts ⟨3 * ((i 0).val / 1024) + 2, hlt⟩
  refine ⟨⟨3 * ((i 0).val / 1024) + 2, hlt⟩, (flush0_5 _).mpr (by show (3 * ((i 0).val / 1024) + 2) % 3 = 2; omega), ?_⟩
  rw [mem_blk5]
  intro a
  match a with
  | ⟨0, _⟩ =>
    show win0_5.index ⟨3 * ((i 0).val / 1024) + 2, hlt⟩ (0 : Fin 2) * 1024 ≤ (i 0).val ∧ (i 0).val < win0_5.index ⟨3 * ((i 0).val / 1024) + 2, hlt⟩ (0 : Fin 2) * 1024 + 1024
    rw [e0]
    show (3 * ((i 0).val / 1024) + 2) / 3 * 1024 ≤ (i 0).val ∧ (i 0).val < (3 * ((i 0).val / 1024) + 2) / 3 * 1024 + 1024
    omega
  | ⟨1, _⟩ =>
    show win0_5.index ⟨3 * ((i 0).val / 1024) + 2, hlt⟩ (1 : Fin 2) * 1024 ≤ (i 1).val ∧ (i 1).val < win0_5.index ⟨3 * ((i 0).val / 1024) + 2, hlt⟩ (1 : Fin 2) * 1024 + 1024
    rw [e1]
    omega

/-- The third output array after the region is the projection 2 of the flattened rows. -/
theorem final0_5 (c : Dev nD) :
    ((dat0 (F := Ideal) V c).arrAt 5 cfg0.N : S16384x1024.Idx → EReal) = Cert.Spec.projFlat (V c main_v0) (V c main_v1) (V c main_arg2) 2 :=
  (dat0 (F := Ideal) V c).arrAt_eq_of_cover 5 (Cert.Spec.projFlat (V c main_v0) (V c main_v1) (V c main_arg2) 2) (fun t hf => flushed5_eq V c t hf) cover5

end Final

end Cert.KernelIdeal.Value0

end
-- ==== Proof.QKV.lean ====
/-
  The three projections as the attention region finds them, in terms of the specification: entry (bb, s, f) of the
  o-th input of the attention region is proj o (bb, s, f) of the launch arrays x, W, b.

  The road: the o-th input is the reshape of the o-th output of the projection region (entry (2048·bb + s, f));
  that output is the projection of the flattened rows of the arrays the projection region is entered with; and those
  arrays are the reshape of x, the weights unchanged, and the bias unchanged.
-/
import proofs.«103110_j15822659518595_2_alg».proof.Proof.KI.Run
import proofs.«103110_j15822659518595_2_alg».proof.Proof.Glue
import proofs.«103110_j15822659518595_2_alg».proof.Proof.Value0
import proofs.«103110_j15822659518595_2_alg».proof.Proof.Spec

noncomputable section

namespace Cert.KernelIdeal.QKV

open Idealize.ShloMosaic Idealize.ShloMosaic.TcCoe Idealize.SL.Sem
open Cert.KernelIdeal Cert.KernelIdeal.Gen Cert.KernelIdeal.Hand Cert.KernelIdeal.Glue Idealize.ShloMosaic.ValueIdx

variable (m : (ℓ : Loc nD τ sig) → Buf (Elt Ideal) ℓ) (ρ : Dev nD → PrngReg) (c : Dev nD)

/-- The input x as launched. -/
abbrev X : S8x2048x1024.Idx → EReal := m ((c : Thread nD τ).loc main_arg0)
/-- The weights as launched. -/
abbrev Wt : S3072x1024.Idx → EReal := m ((c : Thread nD τ).loc main_arg1)
/-- The bias as launched. -/
abbrev Bi : S3072.Idx → EReal := m ((c : Thread nD τ).loc main_arg2)

/-- The projection of the flattened rows, over the arrays the projection region is entered with, at row 2048·bb + s
    is the specification's projection at (bb, s). -/
theorem proj_of_flat (o : Fin 3) (bb : Fin 8) (s : Fin 2048) (f : Fin 1024) :
    Cert.Spec.projFlat (V1 (F := Ideal) m ρ c main_v0) (V1 (F := Ideal) m ρ c main_v1) (V1 (F := Ideal) m ρ c main_arg2) o
        (ix2 (flat bb s) f)
      = Cert.Spec.proj (X m c) (Wt m c) (Bi m c) o bb s f := by
  rw [Cert.Spec.projFlat_apply]
  unfold Cert.Spec.projFlatAt Cert.Spec.proj
  rw [V1_v1 m ρ c, V1_arg2 m ρ c]
  refine congrArg (· + _) (Finset.sum_congr rfl fun k _ => ?_)
  rw [V1_v0 m ρ c bb s k]

/-- The projection region's first output is the query projection of the flattened rows. -/
theorem W2_v2_0 :
    (W2 (F := Ideal) m ρ c (Proc.devRef .tc main_v2_0) : S16384x1024.Idx → EReal)
      = Cert.Spec.projFlat (V1 (F := Ideal) m ρ c main_v0) (V1 (F := Ideal) m ρ c main_v1) (V1 (F := Ideal) m ρ c main_arg2) 0 :=
  (W2_arr m ρ c 3).trans (Value0.final0_3 (V1 (F := Ideal) m ρ) c)

/-- Its second output is the key projection. -/
theorem W2_v2_1 :
    (W2 (F := Ideal) m ρ c (Proc.devRef .tc main_v2_1) : S16384x1024.Idx → EReal)
      = Cert.Spec.projFlat (V1 (F := Ideal) m ρ c main_v0) (V1 (F := Ideal) m ρ c main_v1) (V1 (F := Ideal) m ρ c main_arg2) 1 :=
  (W2_arr m ρ c 4).trans (Value0.final0_4 (V1 (F := Ideal) m ρ) c)

/-- Its third output is the value projection. -/
theorem W2_v2_2 :
    (W2 (F := Ideal) m ρ c (Proc.devRef .tc main_v2_2) : S16384x1024.Idx → EReal)
      = Cert.Spec.projFlat (V1 (F := Ideal) m ρ c main_v0) (V1 (F := Ideal) m ρ c main_v1) (V1 (F := Ideal) m ρ c main_arg2) 2 :=
  (W2_arr m ρ c 5).trans (Value0.final0_5 (V1 (F := Ideal) m ρ) c)

/-- The attention region's queries. -/
theorem q_at (bb : Fin 8) (s : Fin 2048) (f : Fin 1024) :
    (V3 (F := Ideal) m ρ c main_v3 : S8x2048x1024.Idx → EReal) (ix3 bb s f)
      = Cert.Spec.proj (X m c) (Wt m c) (Bi m c) 0 bb s f :=
  (V3_v3 m ρ c bb s f).trans ((congrFun (W2_v2_0 m ρ c) (ix2 (flat bb s) f)).trans (proj_of_flat m ρ c 0 bb s f))

/-- The attention region's keys. -/
theorem k_at (bb : Fin 8) (s : Fin 2048) (f : Fin 1024) :
    (V3 (F := Ideal) m ρ c main_v4 : S8x2048x1024.Idx → EReal) (ix3 bb s f)
      = Cert.Spec.proj (X m c) (Wt m c) (Bi m c) 1 bb s f :=
  (V3_v4 m ρ c bb s f).trans ((congrFun (W2_v2_1 m ρ c) (ix2 (flat bb s) f)).trans (proj_of_flat m ρ c 1 bb s f))

/-- The attention region's values. -/
theorem v_at (bb : Fin 8) (s : Fin 2048) (f : Fin 1024) :
    (V3 (F := Ideal) m ρ c main_v5 : S8x2048x1024.Idx → EReal) (ix3 bb s f)
      = Cert.Spec.proj (X m c) (Wt m c) (Bi m c) 2 bb s f :=
  (V3_v5 m ρ c bb s f).trans ((congrFun (W2_v2_2 m ρ c) (ix2 (flat bb s) f)).trans (proj_of_flat m ρ c 2 bb s f))

end Cert.KernelIdeal.QKV

end
-- ==== Proof.KValue.lean ====
/-
  The kernel program's result array is the specification function, given what the attention region leaves.

  The attention region visits 64 grid points: point 8·bb + jb handles batch bb and the jb-th block of 256 keys, against
  all 2048 queries of the batch.  Assumed here (as hypotheses): the result array at (bb, i, col) is the running sum after
  the last point of batch bb, and the three input blocks of point 8·bb + jb are the queries of batch bb, the keys
  256·jb … 256·jb + 255 of batch bb and the values at the same keys.  Then the running sum over the eight points of a
  batch is the sum of the eight blocks' contributions, each block's contribution is the specification's sum over the
  block's keys, and the eight blocks' sums make up the sum over all 2048 keys.
-/
import proofs.«103110_j15822659518595_2_alg».proof.Proof.KI.Run
import proofs.«103110_j15822659518595_2_alg».proof.Proof.Att
import proofs.«103110_j15822659518595_2_alg».proof.Proof.Bridge
import proofs.«103110_j15822659518595_2_alg».proof.Proof.QKV
import proofs.«103110_j15822659518595_2_alg».proof.Proof.Spec

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Hand Cert.KernelIdeal.Pay Cert.KernelIdeal.Att
open Cert.KernelIdeal.QKV

variable (m : (ℓ : Loc nD τ sig) → Buf (Elt Ideal) ℓ) (ρ : Dev nD → PrngReg) (c : Dev nD)

/-- Point 8·bb + n, n < 8, is one of the 64 grid points. -/
theorem lt64 (bb : Fin 8) (n : ℕ) (hn : n < 8) : 8 * bb.val + n < cfg1.N := by
  have := bb.isLt
  show 8 * bb.val + n < cfg1.N
  rw [show cfg1.N = 64 from N_1]
  omega

/-- The running sum depends on the point's number only. -/
theorem accAt_congr (V : (c : Dev nD) → (b : Ref sig .tc) → Buf (Elt Ideal) ((c : Thread nD τ).loc b)) (a b : ℕ)
    (e : a = b) (ha : a < cfg1.N) (hb : b < cfg1.N) (i : Fin 2048) (col : Fin 1024) :
    accAt V c a ha i col = accAt V c b hb i col := by
  subst e; rfl

/-- The contribution of point 8·bb + jb is the specification's sum over the keys of block jb. -/
theorem contrib_eq
    (hq : ∀ (bb jb : Fin 8) (h : 8 * bb.val + jb.val < cfg1.N) (i : Fin 2048) (d : Fin 1024),
      qB (V3 (F := Ideal) m ρ) c ⟨8 * bb.val + jb.val, h⟩ (ix3 (0 : Fin 1) i d)
        = (V3 (F := Ideal) m ρ c main_v3 : S8x2048x1024.Idx → EReal) (ix3 bb i d))
    (hk : ∀ (bb jb : Fin 8) (h : 8 * bb.val + jb.val < cfg1.N) (j : Fin 256) (d : Fin 1024),
      kB (V3 (F := Ideal) m ρ) c ⟨8 * bb.val + jb.val, h⟩ (ix3 (0 : Fin 1) j d)
        = (V3 (F := Ideal) m ρ c main_v4 : S8x2048x1024.Idx → EReal) (ix3 bb (Cert.Bridge.key jb j) d))
    (hv : ∀ (bb jb : Fin 8) (h : 8 * bb.val + jb.val < cfg1.N) (j : Fin 256) (d : Fin 1024),
      vB (V3 (F := Ideal) m ρ) c ⟨8 * bb.val + jb.val, h⟩ (ix3 (0 : Fin 1) j d)
        = (V3 (F := Ideal) m ρ c main_v5 : S8x2048x1024.Idx → EReal) (ix3 bb (Cert.Bridge.key jb j) d))
    (bb jb : Fin 8) (h : 8 * bb.val + jb.val < cfg1.N) (i : Fin 2048) (col : Fin 1024) :
    contribAt (V3 (F := Ideal) m ρ) c ⟨8 * bb.val + jb.val, h⟩ i col
      = ∑ j : Fin 256, Cert.Spec.prob (X m c) (Wt m c) (Bi m c) bb i (Cert.Bridge.key jb j)
          * Cert.Spec.proj (X m c) (Wt m c) (Bi m c) 2 bb (Cert.Bridge.key jb j) col := by
  unfold contribAt
  refine Finset.sum_congr rfl fun j _ => ?_
  rw [Cert.Bridge.pB_eq (X m c) (Wt m c) (Bi m c) bb jb _ _
      (fun i d => (hq bb jb h i d).trans (q_at m ρ c bb i d))
      (fun j' d => (hk bb jb h j' d).trans (k_at m ρ c bb (Cert.Bridge.key jb j') d)) j i,
    (hv bb jb h j col).trans (v_at m ρ c bb (Cert.Bridge.key jb j) col)]

/-- The result array after the whole program is the specification function of the launch arrays. -/
theorem result_eq
    (hfin : ∀ (bb : Fin 8) (i : Fin 2048) (col : Fin 1024),
      ((dat1 (F := Ideal) (V3 m ρ) c).arrAt 3 cfg1.N : S8x2048x1024.Idx → EReal) (ix3 bb i col)
        = accAt (V3 m ρ) c (8 * bb.val + 7)
            (by have := bb.isLt; show 8 * bb.val + 7 < cfg1.N; rw [show cfg1.N = 64 from N_1]; omega) i col)
    (hq : ∀ (bb jb : Fin 8) (h : 8 * bb.val + jb.val < cfg1.N) (i : Fin 2048) (d : Fin 1024),
      qB (V3 (F := Ideal) m ρ) c ⟨8 * bb.val + jb.val, h⟩ (ix3 (0 : Fin 1) i d)
        = (V3 (F := Ideal) m ρ c main_v3 : S8x2048x1024.Idx → EReal) (ix3 bb i d))
    (hk : ∀ (bb jb : Fin 8) (h : 8 * bb.val + jb.val < cfg1.N) (j : Fin 256) (d : Fin 1024),
      kB (V3 (F := Ideal) m ρ) c ⟨8 * bb.val + jb.val, h⟩ (ix3 (0 : Fin 1) j d)
        = (V3 (F := Ideal) m ρ c main_v4 : S8x2048x1024.Idx → EReal) (ix3 bb (Cert.Bridge.key jb j) d))
    (hv : ∀ (bb jb : Fin 8) (h : 8 * bb.val + jb.val < cfg1.N) (j : Fin 256) (d : Fin 1024),
      vB (V3 (F := Ideal) m ρ) c ⟨8 * bb.val + jb.val, h⟩ (ix3 (0 : Fin 1) j d)
        = (V3 (F := Ideal) m ρ c main_v5 : S8x2048x1024.Idx → EReal) (ix3 bb (Cert.Bridge.key jb j) d)) :
    (W4 (F := Ideal) m ρ c (Proc.devRef .tc main_v6) : S8x2048x1024.Idx → EReal)
      = Cert.Spec.G (X m c) (Wt m c) (Bi m c) := by
  funext y
  obtain ⟨bb, i, col, rfl⟩ : ∃ bb i col, y = ix3 bb i col := ⟨y 0, y 1, y 2, eq_ix3 y⟩
  rw [Cert.Spec.G_apply, Cert.Bridge.res_split]
  have e4 : (W4 (F := Ideal) m ρ c (Proc.devRef .tc main_v6) : S8x2048x1024.Idx → EReal)
      = ((dat1 (F := Ideal) (V3 m ρ) c).arrAt 3 cfg1.N : S8x2048x1024.Idx → EReal) := W4_arr m ρ c 3
  refine (congrFun e4 (ix3 bb i col)).trans ((hfin bb i col).trans ?_)
  -- the eight points of batch bb
  let M : ℕ → EReal := fun n =>
    if h : n < 8 then contribAt (V3 (F := Ideal) m ρ) c ⟨8 * bb.val + n, lt64 bb n h⟩ i col else 0
  have hM : ∀ (n : ℕ) (h : n < 8), M n = contribAt (V3 (F := Ideal) m ρ) c ⟨8 * bb.val + n, lt64 bb n h⟩ i col :=
    fun n h => dif_pos h
  have hacc : accAt (V3 (F := Ideal) m ρ) c (8 * bb.val + 7) (lt64 bb 7 (by decide)) i col = ∑ jb : Fin 8, M jb.val :=
    Cert.Bridge.acc_eq M (fun n h => accAt (V3 (F := Ideal) m ρ) c (8 * bb.val + n) (lt64 bb n h) i col)
      (fun h => (accAt_first (V3 (F := Ideal) m ρ) c ⟨8 * bb.val + 0, lt64 bb 0 h⟩
          (by show (8 * bb.val + 0) % 8 = 0; omega) i col).trans (congrArg (_ + ·) (hM 0 h).symm))
      (fun n h => (accAt_next (V3 (F := Ideal) m ρ) c ⟨8 * bb.val + (n + 1), lt64 bb (n + 1) h⟩
          (by show ¬ (8 * bb.val + (n + 1)) % 8 = 0; omega) i col).trans
        (congrArg₂ (· + ·)
          (accAt_congr c (V3 (F := Ideal) m ρ) _ _ (by show 8 * bb.val + (n + 1) - 1 = 8 * bb.val + n; omega) _ _ i col)
          (hM (n + 1) h).symm))
  refine hacc.trans (Finset.sum_congr rfl fun jb _ => ?_)
  rw [hM jb.val jb.isLt]
  exact contrib_eq m ρ c hq hk hv bb jb (lt64 bb jb.val jb.isLt) i col

end Cert.KernelIdeal.KValue

end
-- ==== Proof.Main.lean ====
/-
  The kernel program's result array is the specification's function of the three argument arrays (at F := Ideal):
  the attention region's write-backs leave the running sum over a batch's key blocks, each block's contribution is the
  specification's term by the projection region's values, and the eight block sums regroup into the one sum over keys.
-/
import proofs.«103110_j15822659518595_2_alg».proof.Proof.Value1
import proofs.«103110_j15822659518595_2_alg».proof.Proof.Final1
import proofs.«103110_j15822659518595_2_alg».proof.Proof.KValue

noncomputable section

namespace Cert.KernelIdeal.Main

open Idealize.ShloMosaic Idealize.ShloMosaic.TcCoe Idealize.SL.Sem
open Cert.KernelIdeal Cert.KernelIdeal.Gen Cert.KernelIdeal.Hand Cert.KernelIdeal.QKV

theorem kernel_value (m : (ℓ : Loc nD τ sig) → Buf (Elt Ideal) ℓ) (ρ : Dev nD → PrngReg) (c : Dev nD) :
    (W4 (F := Ideal) m ρ c (Proc.devRef .tc main_v6) : S8x2048x1024.Idx → EReal) = Cert.Spec.G (X m c) (Wt m c) (Bi m c) :=
  Cert.KernelIdeal.KValue.result_eq m ρ c
    (fun bb i col => Cert.KernelIdeal.Final1.final1_3 (V3 (F := Ideal) m ρ) c
      (fun t i col => Cert.KernelIdeal.Value1.outsAt1_apply (V3 (F := Ideal) m ρ) c t i col) bb i col)
    (fun bb jb _ i d => Cert.KernelIdeal.Final1.qB_at (V3 (F := Ideal) m ρ) c bb jb i d)
    (fun bb jb _ j d => Cert.KernelIdeal.Final1.kB_at (V3 (F := Ideal) m ρ) c bb jb j d)
    (fun bb jb _ j d => Cert.KernelIdeal.Final1.vB_at (V3 (F := Ideal) m ρ) c bb jb j d)

end Cert.KernelIdeal.Main

end
-- ==== Proof.lean ====
/-
  The certificate's five claims.

  Both printings of the kernel program (bit-exact and idealized) run as two host stretches and two kernel regions; each
  region's body is run once per case at a symbolic grid point, the pipeline's schedule says what every staging buffer
  holds at every point, and the chained run ends with the three argument arrays as launched: the two frames.  The
  reference is a straight line of host operations: its frame is its run.  The idealization rewrote nothing.  At the
  ideal instance the kernel program's result array and the reference's are one function of the arguments — the
  attention with its softmax over the query index — so the two runs, from memories agreeing on the arguments, end with
  equal results.
-/
import proofs.«103110_j15822659518595_2_alg».proof.Defs
import proofs.«103110_j15822659518595_2_alg».proof.Proof.Gen.Kernel
import proofs.«103110_j15822659518595_2_alg».proof.Proof.Gen.KernelIdeal
import proofs.«103110_j15822659518595_2_alg».proof.Proof.Gen.ReferenceIdeal
import proofs.«103110_j15822659518595_2_alg».proof.Proof.Gen.Pre_finite_inputs
import proofs.«103110_j15822659518595_2_alg».proof.Proof.K.Run
import proofs.«103110_j15822659518595_2_alg».proof.Proof.KI.Run
import proofs.«103110_j15822659518595_2_alg».proof.Proof.RefFrame
import proofs.«103110_j15822659518595_2_alg».proof.Proof.RefValue
import proofs.«103110_j15822659518595_2_alg».proof.Proof.Main
import Idealize.ShloMosaic.Adequacy
import Idealize.ShloMosaic.Init

noncomputable section

namespace Cert.Proof

open Idealize.ShloMosaic Idealize.ShloMosaic.TcCoe Idealize.SL.Sem

/-- The bit-exact kernel program terminates without a fault and leaves its arguments as launched. -/
theorem frame_p : Cert.frame_Kernel := fun m ρ _ => Cert.Kernel.Hand.frame m ρ

/-- So does the idealized one. -/
theorem frame_pi : Cert.frame_KernelIdeal := fun m ρ _ => Cert.KernelIdeal.Hand.frame m ρ

/-- The idealization rewrote no operation. -/
theorem preserves : Cert.preserves_Kernel_KernelIdeal := trivial

/-- At the ideal instance both programs end with the specification's function of the (agreeing) arguments. -/
theorem algebraic : Cert.algebraic_KernelIdeal_ReferenceIdeal := by
  intro m ρ m' ρ' _ hagree
  refine ⟨fun c => Cert.KernelIdeal.Hand.W4 (F := Ideal) m ρ c (Proc.devRef .tc Cert.KernelIdeal.main_v6), ?_, ?_⟩
  · exact (θ_run Cert.KernelIdeal.defs _ _).mono (fun r h c =>
      ⟨h c _ (Cert.KernelIdeal.Hand.mem_uc Cert.KernelIdeal.main_v6 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, Cert.RefValue.ref_is_G, (hagree c).1, (hagree c).2.1, (hagree c).2.2]
    exact (Cert.KernelIdeal.Main.kernel_value m ρ c).symm

theorem claim : Cert.Claim :=
  ⟨Cert.Kernel.Gen.facts, Cert.KernelIdeal.Gen.facts, Cert.ReferenceIdeal.Gen.facts, Cert.Pre_finite_inputs.Gen.facts,
    frame_p, frame_pi, Cert.Proof.RefFrame.frame_ri, preserves, algebraic⟩

end Cert.Proof

end
